-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v69)) (v1 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x6400000 : Shape := ⟨2, ![2, 6400000]⟩
abbrev S6400000 : Shape := ⟨1, ![6400000]⟩
abbrev S16x8 : Shape := ⟨2, ![16, 8]⟩
abbrev S8 : Shape := ⟨1, ![8]⟩
abbrev S8x2 : Shape := ⟨2, ![8, 2]⟩
abbrev S2 : Shape := ⟨1, ![2]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S6400000 : S_.BroadcastsInDim S6400000 (![] : Fin 0 → Fin S6400000.rank)
  reducesTo_S6400000_S_d0 : S6400000.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x2 : S_.BroadcastsInDim S8x2 (![] : Fin 0 → Fin S8x2.rank)
  reducesTo_S8x2_S_d0_1 : S8x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S8x2 .f32) (main_arg6 : FVec F S2 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S8x2 .f32 := Host.absf main_arg5
  let main_cst_6 : FVec F S_ .f32 := constant S_ .f32 0x7F800000#32
  let main_v20 : FVec F S8x2 .f32 := broadcastInDim S8x2 ![] bcast_S_S8x2 main_cst_6
  let main_v21 : IVec S8x2 1 := cmpf .olt main_v19 main_v20
  let main_c_7 : IVec S_ 1 := constantI S_ 1 1#1
  let main_v22 : IVec S_ 1 := (fun x v => Host.reduce IntOp.andi x v reducesTo_S8x2_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  main_v28

def fn {F : FTy → Type} [FloatOps F] (main_arg0 : FVec F S100000x16 .f32) (main_arg1 : IVec S2x6400000 32) (main_arg2 : FVec F S6400000 .f32) (main_arg3 : FVec F S16x8 .f32) (main_arg4 : FVec F S8 .f32) (main_arg5 : FVec F S8x2 .f32) (main_arg6 : FVec F S2 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S6400000 .f32 := Host.absf main_arg2
  let main_cst_0 : FVec F S_ .f32 := constant S_ .f32 0x7F800000#32
  let main_v5 : FVec F S6400000 .f32 := broadcastInDim S6400000 ![] bcast_S_S6400000 main_cst_0
  let main_v6 : IVec S6400000 1 := cmpf .olt main_v4 main_v5
  let main_c_1 : IVec S_ 1 := constantI S_ 1 1#1
  let main_v7 : IVec S_ 1 := (fun x v => Host.reduce IntOp.andi x v reducesTo_S6400000_S_d0 h_S_) main_v6 main_c_1
  let main_v8 : IVec S_ 1 := andi main_v3 main_v7
  let main_v9 : FVec F S16x8 .f32 := Host.absf main_arg3
  let main_cst_2 : FVec F S_ .f32 := constant S_ .f32 0x7F800000#32
  let main_v10 : FVec F S16x8 .f32 := broadcastInDim S16x8 ![] bcast_S_S16x8 main_cst_2
  let main_v11 : IVec S16x8 1 := cmpf .olt main_v9 main_v10
  let main_c_3 : IVec S_ 1 := constantI S_ 1 1#1
  let main_v12 : IVec S_ 1 := (fun x v => Host.reduce IntOp.andi x v reducesTo_S16x8_S_d0_1 h_S_) main_v11 main_c_3
  let main_v13 : IVec S_ 1 := andi main_v8 main_v12
  let main_v14 : FVec F S8 .f32 := Host.absf main_arg4
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg5 main_arg6 main_v13 main_v16
-- ==== Kernel.lean ====
abbrev S100000x16 : Shape := ⟨2, ![100000, 16]⟩
abbrev S2x6400000 : Shape := ⟨2, ![2, 6400000]⟩
abbrev S6400000 : Shape := ⟨1, ![6400000]⟩
abbrev S16x8 : Shape := ⟨2, ![16, 8]⟩
abbrev S8 : Shape := ⟨1, ![8]⟩
abbrev S8x2 : Shape := ⟨2, ![8, 2]⟩
abbrev S2 : Shape := ⟨1, ![2]⟩
abbrev S1x6400000 : Shape := ⟨2, ![1, 6400000]⟩
abbrev S100000 : Shape := ⟨1, ![100000]⟩
abbrev S6500000 : Shape := ⟨1, ![6500000]⟩
abbrev S_ : Shape := ⟨0, ![]⟩
abbrev S4448 : Shape := ⟨1, ![4448]⟩
abbrev S6504448 : Shape := ⟨1, ![6504448]⟩
abbrev S6504448x1 : Shape := ⟨2, ![6504448, 1]⟩
abbrev S100000x8 : Shape := ⟨2, ![100000, 8]⟩
abbrev S4000x16 : Shape := ⟨2, ![4000, 16]⟩
abbrev S4000x8 : Shape := ⟨2, ![4000, 8]⟩
abbrev S6504448x8 : Shape := ⟨2, ![6504448, 8]⟩
abbrev S8192x1 : Shape := ⟨2, ![8192, 1]⟩
abbrev S8192x8 : Shape := ⟨2, ![8192, 8]⟩
abbrev S1x8 : Shape := ⟨2, ![1, 8]⟩
abbrev S100000x2 : Shape := ⟨2, ![100000, 2]⟩
abbrev S4000x2 : Shape := ⟨2, ![4000, 2]⟩
abbrev S6504448x2 : Shape := ⟨2, ![6504448, 2]⟩
abbrev S8192x2 : Shape := ⟨2, ![8192, 2]⟩
abbrev S1x2 : Shape := ⟨2, ![1, 2]⟩

abbrev nBuf : Space → Nat
  | .hbm => 98
  | .vmem => 22
  | .smem => 0
  | _ => 0

abbrev bufTy : (tb : Table) → Fin (tcTables nBuf tb) → BufTy
  | .hbm, ⟨0, _⟩ => ⟨S100000x16, .f32⟩
  | .hbm, ⟨1, _⟩ => ⟨S2x6400000, .i32⟩
  | .hbm, ⟨2, _⟩ => ⟨S6400000, .f32⟩
  | .hbm, ⟨3, _⟩ => ⟨S16x8, .f32⟩
  | .hbm, ⟨4, _⟩ => ⟨S8, .f32⟩
  | .hbm, ⟨5, _⟩ => ⟨S8x2, .f32⟩
  | .hbm, ⟨6, _⟩ => ⟨S2, .f32⟩
  | .hbm, ⟨7, _⟩ => ⟨S1x6400000, .i32⟩
  | .hbm, ⟨8, _⟩ => ⟨S6400000, .i32⟩
  | .hbm, ⟨9, _⟩ => ⟨S1x6400000, .i32⟩
  | .hbm, ⟨10, _⟩ => ⟨S6400000, .i32⟩
  | .hbm, ⟨11, _⟩ => ⟨S100000, .i32⟩
  | .hbm, ⟨12, _⟩ => ⟨S6500000, .i32⟩
  | .hbm, ⟨13, _⟩ => ⟨S6500000, .i32⟩
  | .hbm, ⟨14, _⟩ => ⟨S_, .f32⟩
  | .hbm, ⟨15, _⟩ => ⟨S100000, .f32⟩
  | .hbm, ⟨16, _⟩ => ⟨S6500000, .f32⟩
  | .hbm, ⟨17, _⟩ => ⟨S_, .i32⟩
  | .hbm, ⟨18, _⟩ => ⟨S4448, .i32⟩
  | .hbm, ⟨19, _⟩ => ⟨S6504448, .i32⟩
  | .hbm, ⟨20, _⟩ => ⟨S_, .i32⟩
  | .hbm, ⟨21, _⟩ => ⟨S4448, .i32⟩
  | .hbm, ⟨22, _⟩ => ⟨S6504448, .i32⟩
  | .hbm, ⟨23, _⟩ => ⟨S_, .f32⟩
  | .hbm, ⟨24, _⟩ => ⟨S4448, .f32⟩
  | .hbm, ⟨25, _⟩ => ⟨S6504448, .f32⟩
  | .hbm, ⟨26, _⟩ => ⟨S_, .f32⟩
  | .hbm, ⟨27, _⟩ => ⟨S100000, .f32⟩
  | .hbm, ⟨28, _⟩ => ⟨S6504448x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .i1⟩
  | .hbm, ⟨33, _⟩ => ⟨S100000, .f32⟩
  | .hbm, ⟨34, _⟩ => ⟨S_, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S_, .i32⟩
  | .hbm, ⟨39, _⟩ => ⟨S6504448, .i32⟩
  | .hbm, ⟨40, _⟩ => ⟨S6504448, .i1⟩
  | .hbm, ⟨41, _⟩ => ⟨S_, .i32⟩
  | .hbm, ⟨42, _⟩ => ⟨S6504448, .i32⟩
  | .hbm, ⟨43, _⟩ => ⟨S6504448, .i32⟩
  | .hbm, ⟨44, _⟩ => ⟨S6504448, .i32⟩
  | .hbm, ⟨45, _⟩ => ⟨S6504448x1, .i32⟩
  | .hbm, ⟨46, _⟩ => ⟨S6504448, .f32⟩
  | .hbm, ⟨47, _⟩ => ⟨S6504448, .f32⟩
  | .hbm, ⟨48, _⟩ => ⟨S_, .i32⟩
  | .hbm, ⟨49, _⟩ => ⟨S6504448, .i32⟩
  | .hbm, ⟨50, _⟩ => ⟨S6504448, .i1⟩
  | .hbm, ⟨51, _⟩ => ⟨S_, .i32⟩
  | .hbm, ⟨52, _⟩ => ⟨S6504448, .i32⟩
  | .hbm, ⟨53, _⟩ => ⟨S6504448, .i32⟩
  | .hbm, ⟨54, _⟩ => ⟨S6504448, .i32⟩
  | .hbm, ⟨55, _⟩ => ⟨S6504448x1, .i32⟩
  | .hbm, ⟨56, _⟩ => ⟨S6504448, .f32⟩
  | .hbm, ⟨57, _⟩ => ⟨S6504448, .f32⟩
  | .hbm, ⟨58, _⟩ => ⟨S6504448x1, .f32⟩
  | .hbm, ⟨59, _⟩ => ⟨S100000x8, .f32⟩
  | .hbm, ⟨60, _⟩ => ⟨S_, .i32⟩
  | .hbm, ⟨61, _⟩ => ⟨S6504448, .i32⟩
  | .hbm, ⟨62, _⟩ => ⟨S6504448, .i1⟩
  | .hbm, ⟨63, _⟩ => ⟨S_, .i32⟩
  | .hbm, ⟨64, _⟩ => ⟨S6504448, .i32⟩
  | .hbm, ⟨65, _⟩ => ⟨S6504448, .i32⟩
  | .hbm, ⟨66, _⟩ => ⟨S6504448, .i32⟩
  | .hbm, ⟨67, _⟩ => ⟨S6504448x1, .i32⟩
  | .hbm, ⟨68, _⟩ => ⟨S6504448x8, .f32⟩
  | .hbm, ⟨69, _⟩ => ⟨S6504448x8, .f32⟩
  | .hbm, ⟨70, _⟩ => ⟨S_, .f32⟩
  | .hbm, ⟨71, _⟩ => ⟨S100000x8, .f32⟩
  | .hbm, ⟨72, _⟩ => ⟨S6504448x1, .i32⟩
  | .hbm, ⟨73, _⟩ => ⟨S100000x8, .f32⟩
  | .hbm, ⟨74, _⟩ => ⟨S1x8, .f32⟩
  | .hbm, ⟨75, _⟩ => ⟨S100000x8, .f32⟩
  | .hbm, ⟨76, _⟩ => ⟨S100000x8, .f32⟩
  | .hbm, ⟨77, _⟩ => ⟨S_, .f32⟩
  | .hbm, ⟨78, _⟩ => ⟨S100000x8, .f32⟩
  | .hbm, ⟨79, _⟩ => ⟨S100000x8, .f32⟩
  | .hbm, ⟨80, _⟩ => ⟨S100000x2, .f32⟩
  | .hbm, ⟨81, _⟩ => ⟨S_, .i32⟩
  | .hbm, ⟨82, _⟩ => ⟨S6504448, .i32⟩
  | .hbm, ⟨83, _⟩ => ⟨S6504448, .i1⟩
  | .hbm, ⟨84, _⟩ => ⟨S_, .i32⟩
  | .hbm, ⟨85, _⟩ => ⟨S6504448, .i32⟩
  | .hbm, ⟨86, _⟩ => ⟨S6504448, .i32⟩
  | .hbm, ⟨87, _⟩ => ⟨S6504448, .i32⟩
  | .hbm, ⟨88, _⟩ => ⟨S6504448x1, .i32⟩
  | .hbm, ⟨89, _⟩ => ⟨S6504448x2, .f32⟩
  | .hbm, ⟨90, _⟩ => ⟨S6504448x2, .f32⟩
  | .hbm, ⟨91, _⟩ => ⟨S_, .f32⟩
  | .hbm, ⟨92, _⟩ => ⟨S100000x2, .f32⟩
  | .hbm, ⟨93, _⟩ => ⟨S6504448x1, .i32⟩
  | .hbm, ⟨94, _⟩ => ⟨S100000x2, .f32⟩
  | .hbm, ⟨95, _⟩ => ⟨S1x2, .f32⟩
  | .hbm, ⟨96, _⟩ => ⟨S100000x2, .f32⟩
  | .hbm, ⟨97, _⟩ => ⟨S100000x2, .f32⟩
  | .local _ .vmem, ⟨0, _⟩ => ⟨S4000x16, .f32⟩
  | .local _ .vmem, ⟨1, _⟩ => ⟨S4000x16, .f32⟩
  | .local _ .vmem, ⟨2, _⟩ => ⟨S16x8, .f32⟩
  | .local _ .vmem, ⟨3, _⟩ => ⟨S4000x8, .f32⟩
  | .local _ .vmem, ⟨4, _⟩ => ⟨S4000x8, .f32⟩
  | .local _ .vmem, ⟨5, _⟩ => ⟨S8192x1, .f32⟩
  | .local _ .vmem, ⟨6, _⟩ => ⟨S8192x1, .f32⟩
  | .local _ .vmem, ⟨7, _⟩ => ⟨S8192x8, .f32⟩
  | .local _ .vmem, ⟨8, _⟩ => ⟨S8192x8, .f32⟩
  | .local _ .vmem, ⟨9, _⟩ => ⟨S8192x8, .f32⟩
  | .local _ .vmem, ⟨10, _⟩ => ⟨S8192x8, .f32⟩
  | .local _ .vmem, ⟨11, _⟩ => ⟨S4000x8, .f32⟩
  | .local _ .vmem, ⟨12, _⟩ => ⟨S4000x8, .f32⟩
  | .local _ .vmem, ⟨13, _⟩ => ⟨S8x2, .f32⟩
  | .local _ .vmem, ⟨14, _⟩ => ⟨S4000x2, .f32⟩
  | .local _ .vmem, ⟨15, _⟩ => ⟨S4000x2, .f32⟩
  | .local _ .vmem, ⟨16, _⟩ => ⟨S8192x1, .f32⟩
  | .local _ .vmem, ⟨17, _⟩ => ⟨S8192x1, .f32⟩
  | .local _ .vmem, ⟨18, _⟩ => ⟨S8192x2, .f32⟩
  | .local _ .vmem, ⟨19, _⟩ => ⟨S8192x2, .f32⟩
  | .local _ .vmem, ⟨20, _⟩ => ⟨S8192x2, .f32⟩
  | .local _ .vmem, ⟨21, _⟩ => ⟨S8192x2, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_c_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_9 : Ref sig .tc := ⟨.hbm, 60, rfl⟩
abbrev main_v40 : Ref sig .tc := ⟨.hbm, 61, rfl⟩
abbrev main_v41 : Ref sig .tc := ⟨.hbm, 62, rfl⟩
abbrev main_c_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_11 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call1_cst : Ref sig .tc := ⟨.hbm, 77, rfl⟩
abbrev main_call1_v0 : Ref sig .tc := ⟨.hbm, 78, rfl⟩
abbrev main_v54 : Ref sig .tc := ⟨.hbm, 79, rfl⟩
abbrev main_v55 : Ref sig .tc := ⟨.hbm, 80, rfl⟩
abbrev main_c_12 : Ref sig .tc := ⟨.hbm, 81, rfl⟩
abbrev main_v56 : Ref sig .tc := ⟨.hbm, 82, rfl⟩
abbrev main_v57 : Ref sig .tc := ⟨.hbm, 83, rfl⟩
abbrev main_c_13 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_14 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![794], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![794], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8192x2 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8192x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S100000_S6500000_d0 : Shape.Concatenates [S6400000, S100000] S6500000 0
  bcast_S_S100000 : S_.BroadcastsInDim S100000 (![] : Fin 0 → Fin S100000.rank)
  bcast_S_S4448 : S_.BroadcastsInDim S4448 (![] : Fin 0 → Fin S4448.rank)
  concatenates_S6500000_S4448_S6504448_d0 : Shape.Concatenates [S6500000, S4448] S6504448 0
  bcast_S6504448_S6504448x1_0 : S6504448.BroadcastsInDim S6504448x1 (![0] : Fin 1 → Fin S6504448x1.rank)
  bcast_S_S6504448 : S_.BroadcastsInDim S6504448 (![] : Fin 0 → Fin S6504448.rank)
  inb_S4000x16_S4000x16_0_0 : ∀ a, (![0, 0] : Fin 2 → Nat) a + S4000x16.size a ≤ S4000x16.size a
  h_S4000x16 : 0 < S4000x16.numel
  bitsLt_bf16_f32 : FTy.bits .bf16 < FTy.bits .f32
  inb_S16x8_S16x8_0_0 : ∀ a, (![0, 0] : Fin 2 → Nat) a + S16x8.size a ≤ S16x8.size a
  h_S16x8 : 0 < S16x8.numel
  inb_S4000x8_S4000x8_0_0 : ∀ a, (![0, 0] : Fin 2 → Nat) a + S4000x8.size a ≤ S4000x8.size a
  h_S4000x8 : 0 < S4000x8.numel
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  inb_S8192x8_S8192x8_0_0 : ∀ a, (![0, 0] : Fin 2 → Nat) a + S8192x8.size a ≤ S8192x8.size a
  h_S8192x8 : 0 < S8192x8.numel
  shapeCasts_S8192x8_S8192x8 : S8192x8.ShapeCasts S8192x8
  broadcasts_S8192x1_S8192x8 : S8192x1.Broadcasts S8192x8
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  shapeCasts_S4000x8_S4000x8 : S4000x8.ShapeCasts S4000x8
  inb_S8x2_S8x2_0_0 : ∀ a, (![0, 0] : Fin 2 → Nat) a + S8x2.size a ≤ S8x2.size a
  h_S8x2 : 0 < S8x2.numel
  inb_S4000x2_S4000x2_0_0 : ∀ a, (![0, 0] : Fin 2 → Nat) a + S4000x2.size a ≤ S4000x2.size a
  h_S4000x2 : 0 < S4000x2.numel
  inb_S8192x2_S8192x2_0_0 : ∀ a, (![0, 0] : Fin 2 → Nat) a + S8192x2.size a ≤ S8192x2.size a
  h_S8192x2 : 0 < S8192x2.numel
  shapeCasts_S8192x2_S8192x2 : S8192x2.ShapeCasts S8192x2
  broadcasts_S8192x1_S8192x2 : S8192x1.Broadcasts S8192x2
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S6504448x1_S6504448_n_0_0_1_wf : ScatterDims.WF S100000 S6504448x1 S6504448 [] [0] [0] 1
  gather_S100000_S6504448x1_S6504448_n_0_n_n_0_1_1_wf : GatherDims.WF S100000 S6504448x1 S6504448 [] [0] [] [0] [] 1 ![1]
  dot_S4000x16_S16x8_S4000x8_1_0_0_1_n_n_wf : DotDims.WF S4000x16 S16x8 S4000x8 [1] [0] [0] [1] [] []
  gather_S100000x8_S6504448x1_S6504448x8_1_0_n_n_0_1_18_wf : GatherDims.WF S100000x8 S6504448x1 S6504448x8 [1] [0] [] [0] [] 1 ![1, 8]
  scatter_S100000x8_S6504448x1_S6504448x8_1_0_0_1_wf : ScatterDims.WF S100000x8 S6504448x1 S6504448x8 [1] [0] [0] 1
  dot_S4000x8_S8x2_S4000x2_1_0_0_1_n_n_wf : DotDims.WF S4000x8 S8x2 S4000x2 [1] [0] [0] [1] [] []
  gather_S100000x2_S6504448x1_S6504448x2_1_0_n_n_0_1_12_wf : GatherDims.WF S100000x2 S6504448x1 S6504448x2 [1] [0] [] [0] [] 1 ![1, 2]
  scatter_S100000x2_S6504448x1_S6504448x2_1_0_0_1_wf : ScatterDims.WF S100000x2 S6504448x1 S6504448x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x16.size a ≤ S100000x16.size a
  hwx0_0 : ∀ i : grid0.Coords, EltTy.bits .f32 = 32 ∨ (Rect.block (s := S100000x16) S4000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x8.size a ≤ S16x8.size a
  hwx0_1 : ∀ i : grid0.Coords, EltTy.bits .f32 = 32 ∨ (Rect.block (s := S16x8) S16x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x8.size a ≤ S100000x8.size a
  hwx0_2 : ∀ i : grid0.Coords, EltTy.bits .f32 = 32 ∨ (Rect.block (s := S100000x8) S4000x8.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x1.size a ≤ S6504448x1.size a
  hwx1_0 : ∀ i : grid1.Coords, EltTy.bits .f32 = 32 ∨ (Rect.block (s := S6504448x1) S8192x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x8.size a ≤ S6504448x8.size a
  hwx1_1 : ∀ i : grid1.Coords, EltTy.bits .f32 = 32 ∨ (Rect.block (s := S6504448x8) S8192x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x8.size a ≤ S6504448x8.size a
  hwx1_2 : ∀ i : grid1.Coords, EltTy.bits .f32 = 32 ∨ (Rect.block (s := S6504448x8) S8192x8.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x8.size a ≤ S100000x8.size a
  hwx2_0 : ∀ i : grid2.Coords, EltTy.bits .f32 = 32 ∨ (Rect.block (s := S100000x8) S4000x8.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8x2.size a ≤ S8x2.size a
  hwx2_1 : ∀ i : grid2.Coords, EltTy.bits .f32 = 32 ∨ (Rect.block (s := S8x2) S8x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x2.size a ≤ S100000x2.size a
  hwx2_2 : ∀ i : grid2.Coords, EltTy.bits .f32 = 32 ∨ (Rect.block (s := S100000x2) S4000x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x1.size a ≤ S6504448x1.size a
  hwx3_0 : ∀ i : grid3.Coords, EltTy.bits .f32 = 32 ∨ (Rect.block (s := S6504448x1) S8192x1.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8192x2.size a ≤ S6504448x2.size a
  hwx3_1 : ∀ i : grid3.Coords, EltTy.bits .f32 = 32 ∨ (Rect.block (s := S6504448x2) S8192x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8192x2.size a ≤ S6504448x2.size a
  hwx3_2 : ∀ i : grid3.Coords, EltTy.bits .f32 = 32 ∨ (Rect.block (s := S6504448x2) S8192x2.size (cc3_transform_2 i) (hinb3_2 i)).WholeWords (EltTy.packing .f32)

variable [Facts₀]

def scatter_S100000_S6504448x1_S6504448_n_0_0_1 : ScatterDims S100000 S6504448x1 S6504448 where
  updateWindowDims := []
  insertedWindowDims := [0]
  scatterDimsToOperandDims := [0]
  indexVectorDim := 1
  wf := scatter_S100000_S6504448x1_S6504448_n_0_0_1_wf
def gather_S100000_S6504448x1_S6504448_n_0_n_n_0_1_1 : GatherDims S100000 S6504448x1 S6504448 where
  offsetDims := []
  collapsedSliceDims := [0]
  operandBatchingDims := []
  startIndicesBatchingDims := []
  startIndexMap := [0]
  indexVectorDim := 1
  sliceSizes := ![1]
  wf := gather_S100000_S6504448x1_S6504448_n_0_n_n_0_1_1_wf
def dot_S4000x16_S16x8_S4000x8_1_0_0_1_n_n : DotDims S4000x16 S16x8 S4000x8 where
  lhsContracting := [1]
  rhsContracting := [0]
  lhsNonContracting := [0]
  rhsNonContracting := [1]
  lhsBatch := []
  rhsBatch := []
  wf := dot_S4000x16_S16x8_S4000x8_1_0_0_1_n_n_wf
def gather_S100000x8_S6504448x1_S6504448x8_1_0_n_n_0_1_18 : GatherDims S100000x8 S6504448x1 S6504448x8 where
  offsetDims := [1]
  collapsedSliceDims := [0]
  operandBatchingDims := []
  startIndicesBatchingDims := []
  startIndexMap := [0]
  indexVectorDim := 1
  sliceSizes := ![1, 8]
  wf := gather_S100000x8_S6504448x1_S6504448x8_1_0_n_n_0_1_18_wf
def scatter_S100000x8_S6504448x1_S6504448x8_1_0_0_1 : ScatterDims S100000x8 S6504448x1 S6504448x8 where
  updateWindowDims := [1]
  insertedWindowDims := [0]
  scatterDimsToOperandDims := [0]
  indexVectorDim := 1
  wf := scatter_S100000x8_S6504448x1_S6504448x8_1_0_0_1_wf
def dot_S4000x8_S8x2_S4000x2_1_0_0_1_n_n : DotDims S4000x8 S8x2 S4000x2 where
  lhsContracting := [1]
  rhsContracting := [0]
  lhsNonContracting := [0]
  rhsNonContracting := [1]
  lhsBatch := []
  rhsBatch := []
  wf := dot_S4000x8_S8x2_S4000x2_1_0_0_1_n_n_wf
def gather_S100000x2_S6504448x1_S6504448x2_1_0_n_n_0_1_12 : GatherDims S100000x2 S6504448x1 S6504448x2 where
  offsetDims := [1]
  collapsedSliceDims := [0]
  operandBatchingDims := []
  startIndicesBatchingDims := []
  startIndexMap := [0]
  indexVectorDim := 1
  sliceSizes := ![1, 2]
  wf := gather_S100000x2_S6504448x1_S6504448x2_1_0_n_n_0_1_12_wf
def scatter_S100000x2_S6504448x1_S6504448x2_1_0_0_1 : ScatterDims S100000x2 S6504448x1 S6504448x2 where
  updateWindowDims := [1]
  insertedWindowDims := [0]
  scatterDimsToOperandDims := [0]
  indexVectorDim := 1
  wf := scatter_S100000x2_S6504448x1_S6504448x2_1_0_0_1_wf

abbrev win0_0 : Pipeline.Window sig grid0 :=
  Pipeline.Window.ofSpec (Memref.whole main_arg0) S4000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S4000x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S8192x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S8192x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S8192x8.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v54) S4000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S8x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S4000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v38) S8192x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S8192x2.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v63) S8192x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x16 : Shape := ⟨2, ![100000, 16]⟩
abbrev S2x6400000 : Shape := ⟨2, ![2, 6400000]⟩
abbrev S6400000 : Shape := ⟨1, ![6400000]⟩
abbrev S16x8 : Shape := ⟨2, ![16, 8]⟩
abbrev S8 : Shape := ⟨1, ![8]⟩
abbrev S8x2 : Shape := ⟨2, ![8, 2]⟩
abbrev S2 : Shape := ⟨1, ![2]⟩
abbrev S1x6400000 : Shape := ⟨2, ![1, 6400000]⟩
abbrev S100000 : Shape := ⟨1, ![100000]⟩
abbrev S6500000 : Shape := ⟨1, ![6500000]⟩
abbrev S_ : Shape := ⟨0, ![]⟩
abbrev S6500000x1 : Shape := ⟨2, ![6500000, 1]⟩
abbrev S100000x8 : Shape := ⟨2, ![100000, 8]⟩
abbrev S6500000x8 : Shape := ⟨2, ![6500000, 8]⟩
abbrev S1x8 : Shape := ⟨2, ![1, 8]⟩
abbrev S100000x2 : Shape := ⟨2, ![100000, 2]⟩
abbrev S6500000x2 : Shape := ⟨2, ![6500000, 2]⟩
abbrev S1x2 : Shape := ⟨2, ![1, 2]⟩

abbrev nBuf : Space → Nat
  | .hbm => 134
  | .vmem => 0
  | .smem => 0
  | _ => 0

abbrev hbmTy0_0 (i : Nat) : BufTy := match i % 128 with
  | 0 => ⟨S100000x16, .f32⟩
  | 1 => ⟨S2x6400000, .i32⟩
  | 2 => ⟨S6400000, .f32⟩
  | 3 => ⟨S16x8, .f32⟩
  | 4 => ⟨S8, .f32⟩
  | 5 => ⟨S8x2, .f32⟩
  | 6 => ⟨S2, .f32⟩
  | 7 => ⟨S1x6400000, .i32⟩
  | 8 => ⟨S6400000, .i32⟩
  | 9 => ⟨S1x6400000, .i32⟩
  | 10 => ⟨S6400000, .i32⟩
  | 11 => ⟨S100000, .i32⟩
  | 12 => ⟨S6500000, .i32⟩
  | 13 => ⟨S6500000, .i32⟩
  | 14 => ⟨S_, .f32⟩
  | 15 => ⟨S100000, .f32⟩
  | 16 => ⟨S6500000, .f32⟩
  | 17 => ⟨S_, .f32⟩
  | 18 => ⟨S100000, .f32⟩
  | 19 => ⟨S6500000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S6500000, .i32⟩
  | 31 => ⟨S6500000, .i1⟩
  | 32 => ⟨S_, .i32⟩
  | 33 => ⟨S6500000, .i32⟩
  | 34 => ⟨S6500000, .i32⟩
  | 35 => ⟨S6500000, .i32⟩
  | 36 => ⟨S6500000x1, .i32⟩
  | 37 => ⟨S6500000, .f32⟩
  | 38 => ⟨S6500000, .f32⟩
  | 39 => ⟨S_, .i32⟩
  | 40 => ⟨S6500000, .i32⟩
  | 41 => ⟨S6500000, .i1⟩
  | 42 => ⟨S_, .i32⟩
  | 43 => ⟨S6500000, .i32⟩
  | 44 => ⟨S6500000, .i32⟩
  | 45 => ⟨S6500000, .i32⟩
  | 46 => ⟨S6500000x1, .i32⟩
  | 47 => ⟨S6500000, .f32⟩
  | 48 => ⟨S6500000, .f32⟩
  | 49 => ⟨S100000x8, .f32⟩
  | 50 => ⟨S6500000x1, .f32⟩
  | 51 => ⟨S_, .i32⟩
  | 52 => ⟨S6500000, .i32⟩
  | 53 => ⟨S6500000, .i1⟩
  | 54 => ⟨S_, .i32⟩
  | 55 => ⟨S6500000, .i32⟩
  | 56 => ⟨S6500000, .i32⟩
  | 57 => ⟨S6500000, .i32⟩
  | 58 => ⟨S6500000x1, .i32⟩
  | 59 => ⟨S6500000x8, .f32⟩
  | 60 => ⟨S6500000x8, .f32⟩
  | 61 => ⟨S6500000x8, .f32⟩
  | 62 => ⟨S_, .f32⟩
  | 63 => ⟨S100000x8, .f32⟩
  | 64 => ⟨S6500000x1, .i32⟩
  | 65 => ⟨S100000x8, .f32⟩
  | 66 => ⟨S1x8, .f32⟩
  | 67 => ⟨S100000x8, .f32⟩
  | 68 => ⟨S100000x8, .f32⟩
  | 69 => ⟨S_, .f32⟩
  | 70 => ⟨S100000x8, .f32⟩
  | 71 => ⟨S100000x8, .f32⟩
  | 72 => ⟨S1x6400000, .i32⟩
  | 73 => ⟨S6400000, .i32⟩
  | 74 => ⟨S1x6400000, .i32⟩
  | 75 => ⟨S6400000, .i32⟩
  | 76 => ⟨S100000, .i32⟩
  | 77 => ⟨S6500000, .i32⟩
  | 78 => ⟨S6500000, .i32⟩
  | 79 => ⟨S_, .f32⟩
  | 80 => ⟨S100000, .f32⟩
  | 81 => ⟨S6500000, .f32⟩
  | 82 => ⟨S_, .f32⟩
  | 83 => ⟨S100000, .f32⟩
  | 84 => ⟨S6500000x1, .i32⟩
  | 85 => ⟨S100000, .f32⟩
  | 86 => ⟨S_, .f32⟩
  | 87 => ⟨S100000, .f32⟩
  | 88 => ⟨S100000, .i1⟩
  | 89 => ⟨S100000, .f32⟩
  | 90 => ⟨S_, .f32⟩
  | 91 => ⟨S_, .f32⟩
  | 92 => ⟨S100000, .f32⟩
  | 93 => ⟨S100000, .f32⟩
  | 94 => ⟨S_, .i32⟩
  | 95 => ⟨S6500000, .i32⟩
  | 96 => ⟨S6500000, .i1⟩
  | 97 => ⟨S_, .i32⟩
  | 98 => ⟨S6500000, .i32⟩
  | 99 => ⟨S6500000, .i32⟩
  | 100 => ⟨S6500000, .i32⟩
  | 101 => ⟨S6500000x1, .i32⟩
  | 102 => ⟨S6500000, .f32⟩
  | 103 => ⟨S6500000, .f32⟩
  | 104 => ⟨S_, .i32⟩
  | 105 => ⟨S6500000, .i32⟩
  | 106 => ⟨S6500000, .i1⟩
  | 107 => ⟨S_, .i32⟩
  | 108 => ⟨S6500000, .i32⟩
  | 109 => ⟨S6500000, .i32⟩
  | 110 => ⟨S6500000, .i32⟩
  | 111 => ⟨S6500000x1, .i32⟩
  | 112 => ⟨S6500000, .f32⟩
  | 113 => ⟨S6500000, .f32⟩
  | 114 => ⟨S100000x2, .f32⟩
  | 115 => ⟨S6500000x1, .f32⟩
  | 116 => ⟨S_, .i32⟩
  | 117 => ⟨S6500000, .i32⟩
  | 118 => ⟨S6500000, .i1⟩
  | 119 => ⟨S_, .i32⟩
  | 120 => ⟨S6500000, .i32⟩
  | 121 => ⟨S6500000, .i32⟩
  | 122 => ⟨S6500000, .i32⟩
  | 123 => ⟨S6500000x1, .i32⟩
  | 124 => ⟨S6500000x2, .f32⟩
  | 125 => ⟨S6500000x2, .f32⟩
  | 126 => ⟨S6500000x2, .f32⟩
  | 127 => ⟨S_, .f32⟩
  | _ => ⟨S100000x16, .f32⟩

abbrev hbmTy0_1 (i : Nat) : BufTy := match i % 128 with
  | 0 => ⟨S100000x2, .f32⟩
  | 1 => ⟨S6500000x1, .i32⟩
  | 2 => ⟨S100000x2, .f32⟩
  | 3 => ⟨S1x2, .f32⟩
  | 4 => ⟨S100000x2, .f32⟩
  | 5 => ⟨S100000x2, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_9 : Ref sig .tc := ⟨.hbm, 79, rfl⟩
abbrev main_v57 : Ref sig .tc := ⟨.hbm, 80, rfl⟩
abbrev main_v58 : Ref sig .tc := ⟨.hbm, 81, rfl⟩
abbrev main_cst_10 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_11 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v65 : Ref sig .tc := ⟨.hbm, 93, rfl⟩
abbrev main_c_13 : Ref sig .tc := ⟨.hbm, 94, rfl⟩
abbrev main_v66 : Ref sig .tc := ⟨.hbm, 95, rfl⟩
abbrev main_v67 : Ref sig .tc := ⟨.hbm, 96, rfl⟩
abbrev main_c_14 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_15 : Ref sig .tc := ⟨.hbm, 104, rfl⟩
abbrev main_v74 : Ref sig .tc := ⟨.hbm, 105, rfl⟩
abbrev main_v75 : Ref sig .tc := ⟨.hbm, 106, rfl⟩
abbrev main_c_16 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_c_17 : Ref sig .tc := ⟨.hbm, 116, rfl⟩
abbrev main_v84 : Ref sig .tc := ⟨.hbm, 117, rfl⟩
abbrev main_v85 : Ref sig .tc := ⟨.hbm, 118, rfl⟩
abbrev main_c_18 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_19 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S100000_S6500000_d0 : Shape.Concatenates [S6400000, S100000] S6500000 0
  bcast_S_S100000 : S_.BroadcastsInDim S100000 (![] : Fin 0 → Fin S100000.rank)
  bcast_S6500000_S6500000x1_0 : S6500000.BroadcastsInDim S6500000x1 (![0] : Fin 1 → Fin S6500000x1.rank)
  bcast_S_S6500000 : S_.BroadcastsInDim S6500000 (![] : Fin 0 → Fin S6500000.rank)
  bcast_S6500000x1_S6500000x8_0_1 : S6500000x1.BroadcastsInDim S6500000x8 (![0, 1] : Fin 2 → Fin S6500000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S6500000x1_S6500000x2_0_1 : S6500000x1.BroadcastsInDim S6500000x2 (![0, 1] : Fin 2 → Fin S6500000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S100000x16_S16x8_S100000x8_1_0_0_1_n_n_wf : DotDims.WF S100000x16 S16x8 S100000x8 [1] [0] [0] [1] [] []
  gather_S100000x8_S6500000x1_S6500000x8_1_0_n_n_0_1_18_wf : GatherDims.WF S100000x8 S6500000x1 S6500000x8 [1] [0] [] [0] [] 1 ![1, 8]
  scatter_S100000x8_S6500000x1_S6500000x8_1_0_0_1_wf : ScatterDims.WF S100000x8 S6500000x1 S6500000x8 [1] [0] [0] 1
  dot_S100000x8_S8x2_S100000x2_1_0_0_1_n_n_wf : DotDims.WF S100000x8 S8x2 S100000x2 [1] [0] [0] [1] [] []
  gather_S100000x2_S6500000x1_S6500000x2_1_0_n_n_0_1_12_wf : GatherDims.WF S100000x2 S6500000x1 S6500000x2 [1] [0] [] [0] [] 1 ![1, 2]
  scatter_S100000x2_S6500000x1_S6500000x2_1_0_0_1_wf : ScatterDims.WF S100000x2 S6500000x1 S6500000x2 [1] [0] [0] 1

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf
def gather_S100000x8_S6500000x1_S6500000x8_1_0_n_n_0_1_18 : GatherDims S100000x8 S6500000x1 S6500000x8 where
  offsetDims := [1]
  collapsedSliceDims := [0]
  operandBatchingDims := []
  startIndicesBatchingDims := []
  startIndexMap := [0]
  indexVectorDim := 1
  sliceSizes := ![1, 8]
  wf := gather_S100000x8_S6500000x1_S6500000x8_1_0_n_n_0_1_18_wf
def scatter_S100000x8_S6500000x1_S6500000x8_1_0_0_1 : ScatterDims S100000x8 S6500000x1 S6500000x8 where
  updateWindowDims := [1]
  insertedWindowDims := [0]
  scatterDimsToOperandDims := [0]
  indexVectorDim := 1
  wf := scatter_S100000x8_S6500000x1_S6500000x8_1_0_0_1_wf
def dot_S100000x8_S8x2_S100000x2_1_0_0_1_n_n : DotDims S100000x8 S8x2 S100000x2 where
  lhsContracting := [1]
  rhsContracting := [0]
  lhsNonContracting := [0]
  rhsNonContracting := [1]
  lhsBatch := []
  rhsBatch := []
  wf := dot_S100000x8_S8x2_S100000x2_1_0_0_1_n_n_wf
def gather_S100000x2_S6500000x1_S6500000x2_1_0_n_n_0_1_12 : GatherDims S100000x2 S6500000x1 S6500000x2 where
  offsetDims := [1]
  collapsedSliceDims := [0]
  operandBatchingDims := []
  startIndicesBatchingDims := []
  startIndexMap := [0]
  indexVectorDim := 1
  sliceSizes := ![1, 2]
  wf := gather_S100000x2_S6500000x1_S6500000x2_1_0_n_n_0_1_12_wf
def scatter_S100000x2_S6500000x1_S6500000x2_1_0_0_1 : ScatterDims S100000x2 S6500000x1 S6500000x2 where
  updateWindowDims := [1]
  insertedWindowDims := [0]
  scatterDimsToOperandDims := [0]
  indexVectorDim := 1
  wf := scatter_S100000x2_S6500000x1_S6500000x2_1_0_0_1_wf

class Facts : Prop extends Facts₀ where

variable [Facts]
-- ==== Proof.RefRun.lean ====
/-
  The reference program's run, with its two results named by the stages read back one operation at a time: every
  weakly fair execution terminates with the second layer's table and the first layer's table at those stages of the
  launch contents of the seven arguments, and the arguments unchanged. Dropping the two results leaves the frame
  claim: the program runs and its argument arrays end as they began.
-/
import proofs.«181032_j5677946765525_1_alg».proof.Defs
import proofs.«181032_j5677946765525_1_alg».proof.Proof.Gen.ReferenceIdeal.Read
import proofs.«181032_j5677946765525_1_alg».proof.Proof.Gen.Pre_finite_inputs

noncomputable section

namespace Cert.ReferenceIdeal.RefRun

open Cert.ReferenceIdeal Cert.ReferenceIdeal.Gen Cert.ReferenceIdeal.Read Idealize.ShloMosaic Idealize.ShloMosaic.TcCoe
  Idealize.SL.Sem Idealize.ShloMosaic.StableHlo

/-- Every weakly fair execution of the reference terminates with its results at the last stages of the two layers,
    as functions of the arguments' launch contents, and the arguments unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v98)
          = val_main_v98 (F := Ideal)
            (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4))
            (m' ((c.tc : Thread Cert.ReferenceIdeal.nD Cert.ReferenceIdeal.τ).loc Cert.ReferenceIdeal.main_arg5))
            (m' ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_v48)
          = val_main_v48 (F := Ideal)
            (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) :=
  (θ_run Cert.ReferenceIdeal.defs _ _).mono
    (fun _ h c => ⟨(h c).1.trans (val_main_v98_eq m' c), (h c).2.1.trans (val_main_v48_eq m' c), (h c).2.2⟩)
    (Cert.ReferenceIdeal.Value.run (F := Ideal) m' ρ')

/-- The reference runs and its argument arrays end unchanged. -/
theorem frame_ri : Cert.frame_ReferenceIdeal := fun m ρ _ =>
  (θ_run Cert.ReferenceIdeal.defs _ _).mono (fun _ h c => (h c).2.2) (Cert.ReferenceIdeal.Value.run (F := Ideal) m ρ)

end Cert.ReferenceIdeal.RefRun

end
-- ==== Proof.KernelRun.lean ====
/-
  The kernel's run with its two results named.

  @main is twelve segments: stretches of host operations and four tiled regions. Written W0 … W12 for the contents of
  the buffers at the segment boundaries (W0 the launch memory, each next one the previous after a stretch's operations
  or with a region's arrays at what its write-backs leave), every weakly fair execution terminates, nothing faulting,
  with every buffer at W12. Read at the two result buffers this names the results; read at the arguments, which no
  segment writes, it gives them back as launched.
-/
import proofs.«181032_j5677946765525_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two results at the last boundary's
    contents and the arguments as launched. -/
theorem run : θ_run defs (onTc (τ := τ) (main (F := F))) ⟨m, fun _ => 0, ρ⟩ (fun r => ∀ c : Dev nD,
      r.2.mem ((c.tc : Thread nD τ).loc main_v69) = W12 m ρ c (Proc.devRef .tc main_v69)
      ∧ r.2.mem ((c.tc : Thread nD τ).loc main_v53) = W12 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v69 (by decide)),
       h c _ (mem_uc main_v53 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c)⟩)

end Cert.KernelIdeal.Named

end
-- ==== Proof.KernelFold.lean ====
/-
  The kernel's buffers, boundary by boundary.

  Between the launch and the return the buffers pass through the contents W0 … W12. A buffer that a stretch of host
  operations does not write, and that is not one of a region's arrays, is the same on both sides of it; a region's
  input array comes out as it went in. So the edge arrays built once by the first stretch (sources, targets and
  weights, each lengthened by 4448 entries), the factor column and the arguments are the same wherever they are read
  later.
-/
import proofs.«181032_j5677946765525_1_alg».proof.Proof.Gen.KernelIdeal.Frame
import Idealize.ShloMosaic.Lib.StableHlo.Run
import Idealize.ShloMosaic.PureOps.Ideal

set_option maxRecDepth 16384

noncomputable section

namespace Cert.KernelIdeal.Fold

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## What stays: each chain walks one buffer back, boundary by boundary, past stretches that do not write it and
    regions whose arrays do not include it (the factor column is region 1's first input array: it leaves that region as it
    entered) -/

theorem v10_W2 : W2 m ρ c (Proc.devRef .tc main_v10) = W1 m ρ c (Proc.devRef .tc main_v10) :=
  calc W2 m ρ c (Proc.devRef .tc main_v10)
    _ = W1 m ρ c (Proc.devRef .tc main_v10) := StableHlo.after_of_forall_not_mem (b := Proc.devRef .tc main_v10) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem v12_W2 : W2 m ρ c (Proc.devRef .tc main_v12) = W1 m ρ c (Proc.devRef .tc main_v12) :=
  calc W2 m ρ c (Proc.devRef .tc main_v12)
    _ = W1 m ρ c (Proc.devRef .tc main_v12) := StableHlo.after_of_forall_not_mem (b := Proc.devRef .tc main_v12) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem v14_W2 : W2 m ρ c (Proc.devRef .tc main_v14) = W1 m ρ c (Proc.devRef .tc main_v14) :=
  calc W2 m ρ c (Proc.devRef .tc main_v14)
    _ = W1 m ρ c (Proc.devRef .tc main_v14) := StableHlo.after_of_forall_not_mem (b := Proc.devRef .tc main_v14) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem v10_W4 : W4 m ρ c (Proc.devRef .tc main_v10) = W1 m ρ c (Proc.devRef .tc main_v10) :=
  calc W4 m ρ c (Proc.devRef .tc main_v10)
    _ = W3 m ρ c (Proc.devRef .tc main_v10) := W4_of_ne m ρ c main_v10 (by decide)
    _ = W2 m ρ c (Proc.devRef .tc main_v10) := StableHlo.after_of_forall_not_mem (b := Proc.devRef .tc main_v10) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v10) := StableHlo.after_of_forall_not_mem (b := Proc.devRef .tc main_v10) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem v10_W9 : W9 m ρ c (Proc.devRef .tc main_v10) = W1 m ρ c (Proc.devRef .tc main_v10) :=
  calc W9 m ρ c (Proc.devRef .tc main_v10)
    _ = W8 m ρ c (Proc.devRef .tc main_v10) := W9_of_ne m ρ c main_v10 (by decide)
    _ = W7 m ρ c (Proc.devRef .tc main_v10) := StableHlo.after_of_forall_not_mem (b := Proc.devRef .tc main_v10) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v10) := StableHlo.after_of_forall_not_mem (b := Proc.devRef .tc main_v10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v10) := W6_of_ne m ρ c main_v10 (by decide)
    _ = W4 m ρ c (Proc.devRef .tc main_v10) := StableHlo.after_of_forall_not_mem (b := Proc.devRef .tc main_v10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v10) := W4_of_ne m ρ c main_v10 (by decide)
    _ = W2 m ρ c (Proc.devRef .tc main_v10) := StableHlo.after_of_forall_not_mem (b := Proc.devRef .tc main_v10) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v10) := StableHlo.after_of_forall_not_mem (b := Proc.devRef .tc main_v10) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem v12_W6 : W6 m ρ c (Proc.devRef .tc main_v12) = W1 m ρ c (Proc.devRef .tc main_v12) :=
  calc W6 m ρ c (Proc.devRef .tc main_v12)
    _ = W5 m ρ c (Proc.devRef .tc main_v12) := W6_of_ne m ρ c main_v12 (by decide)
    _ = W4 m ρ c (Proc.devRef .tc main_v12) := StableHlo.after_of_forall_not_mem (b := Proc.devRef .tc main_v12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v12) := W4_of_ne m ρ c main_v12 (by decide)
    _ = W2 m ρ c (Proc.devRef .tc main_v12) := StableHlo.after_of_forall_not_mem (b := Proc.devRef .tc main_v12) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v12) := StableHlo.after_of_forall_not_mem (b := Proc.devRef .tc main_v12) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem v12_W11 : W11 m ρ c (Proc.devRef .tc main_v12) = W1 m ρ c (Proc.devRef .tc main_v12) :=
  calc W11 m ρ c (Proc.devRef .tc main_v12)
    _ = W10 m ρ c (Proc.devRef .tc main_v12) := W11_of_ne m ρ c main_v12 (by decide)
    _ = W9 m ρ c (Proc.devRef .tc main_v12) := StableHlo.after_of_forall_not_mem (b := Proc.devRef .tc main_v12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v12) := W9_of_ne m ρ c main_v12 (by decide)
    _ = W7 m ρ c (Proc.devRef .tc main_v12) := StableHlo.after_of_forall_not_mem (b := Proc.devRef .tc main_v12) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v12) := StableHlo.after_of_forall_not_mem (b := Proc.devRef .tc main_v12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v12) := W6_of_ne m ρ c main_v12 (by decide)
    _ = W4 m ρ c (Proc.devRef .tc main_v12) := StableHlo.after_of_forall_not_mem (b := Proc.devRef .tc main_v12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v12) := W4_of_ne m ρ c main_v12 (by decide)
    _ = W2 m ρ c (Proc.devRef .tc main_v12) := StableHlo.after_of_forall_not_mem (b := Proc.devRef .tc main_v12) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v12) := StableHlo.after_of_forall_not_mem (b := Proc.devRef .tc main_v12) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem v38_W5 : W5 m ρ c (Proc.devRef .tc main_v38) = W3 m ρ c (Proc.devRef .tc main_v38) :=
  calc W5 m ρ c (Proc.devRef .tc main_v38)
    _ = W4 m ρ c (Proc.devRef .tc main_v38) := StableHlo.after_of_forall_not_mem (b := Proc.devRef .tc main_v38) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v38) := W4_of_ne m ρ c main_v38 (by decide)

theorem v38_W10 : W10 m ρ c (Proc.devRef .tc main_v38) = W3 m ρ c (Proc.devRef .tc main_v38) :=
  calc W10 m ρ c (Proc.devRef .tc main_v38)
    _ = W9 m ρ c (Proc.devRef .tc main_v38) := StableHlo.after_of_forall_not_mem (b := Proc.devRef .tc main_v38) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v38) := W9_of_ne m ρ c main_v38 (by decide)
    _ = W7 m ρ c (Proc.devRef .tc main_v38) := StableHlo.after_of_forall_not_mem (b := Proc.devRef .tc main_v38) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v38) := StableHlo.after_of_forall_not_mem (b := Proc.devRef .tc main_v38) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v38) := (W6_arr m ρ c 0).trans (((dat1 (V5 m ρ) c).arrAt_in 0 rfl _).trans (A_eq1 (V5 m ρ) c 0))
    _ = W4 m ρ c (Proc.devRef .tc main_v38) := StableHlo.after_of_forall_not_mem (b := Proc.devRef .tc main_v38) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v38) := W4_of_ne m ρ c main_v38 (by decide)

theorem arg0_W3 : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem arg3_W3 : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem arg4_W6 : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem arg5_W8 : W8 m ρ c (Proc.devRef .tc main_arg5) = m ((c : Thread nD τ).loc main_arg5) :=
  calc W8 m ρ c (Proc.devRef .tc main_arg5)
    _ = W7 m ρ c (Proc.devRef .tc main_arg5) := StableHlo.after_of_forall_not_mem (b := Proc.devRef .tc main_arg5) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem arg6_W11 : W11 m ρ c (Proc.devRef .tc main_arg6) = m ((c : Thread nD τ).loc main_arg6) :=
  calc W11 m ρ c (Proc.devRef .tc main_arg6)
    _ = W10 m ρ c (Proc.devRef .tc main_arg6) := W11_of_ne m ρ c main_arg6 (by decide)
    _ = W9 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg6) := W9_of_ne m ρ c main_arg6 (by decide)
    _ = W7 m ρ c (Proc.devRef .tc main_arg6) := StableHlo.after_of_forall_not_mem (b := Proc.devRef .tc main_arg6) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem v53_W12 : W12 m ρ c (Proc.devRef .tc main_v53) = W7 m ρ c (Proc.devRef .tc main_v53) :=
  calc W12 m ρ c (Proc.devRef .tc main_v53)
    _ = W11 m ρ c (Proc.devRef .tc main_v53) := StableHlo.after_of_forall_not_mem (b := Proc.devRef .tc main_v53) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v53) := W11_of_ne m ρ c main_v53 (by decide)
    _ = W9 m ρ c (Proc.devRef .tc main_v53) := StableHlo.after_of_forall_not_mem (b := Proc.devRef .tc main_v53) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v53) := W9_of_ne m ρ c main_v53 (by decide)
    _ = W7 m ρ c (Proc.devRef .tc main_v53) := StableHlo.after_of_forall_not_mem (b := Proc.devRef .tc main_v53) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Fold

end
-- ==== Proof.LibTransport.lean ====
/-
  Contents carried to a buffer's own type and back.

  A typed reference to a buffer holds the equation between the buffer's type and the type of the value kept in it, and
  contents move along that equation in both directions: `toBuf` from the value's type to the buffer's, `ofBuf` back.
  There and back is the identity, in either order — for any reference table, any value family and any buffer type. A host
  function written over typed references leaves one such pair around every intermediate value; these two facts remove them.
-/
import Idealize.ShloMosaic.Lib.StableHlo

namespace Cert.Lib.Transport

open Idealize.ShloMosaic Idealize.ShloMosaic.StableHlo

/-- Contents carried to the buffer's own type and back are unchanged. -/
theorem ofBuf_toBuf {sig : RefSig} {Val : EltTy → Type} {T : BufTy} (x : TRef sig T) (v : T.Contents Val) :
    x.ofBuf (x.toBuf v) = v := by
  obtain ⟨r, h, h2, h3⟩ := x; subst h; rfl

/-- Buffer contents carried to the value's type and back are unchanged. -/
theorem toBuf_ofBuf {sig : RefSig} {Val : EltTy → Type} {T : BufTy} (x : TRef sig T) (v : x.ref.ty.Contents Val) :
    x.toBuf (x.ofBuf v) = v := by
  obtain ⟨r, h, h2, h3⟩ := x; subst h; rfl

end Cert.Lib.Transport
-- ==== Proof.KernelLevels.lean ====
/-
  The kernel's buffers where they are written.

  Each buffer the proof follows is, at the boundary after the stretch of host operations that writes it, one or a few
  host operations applied to the contents of the boundary before the stretch: the degrees are a scatter-add of the
  weights at the targets; q is the selection between their inverse square roots and 0; the factor column is the product
  of two gathers of q and the weights; the gathered rows are a gather of a region's array at the wrapped sources; a
  layer's result is the scatter-add of a region's array at the targets plus the bias spread down the rows; the second
  layer's input is the first layer's result cut off below at 0.
-/
import proofs.«181032_j5677946765525_1_alg».proof.Proof.Gen.KernelIdeal.Frame
import proofs.«181032_j5677946765525_1_alg».proof.Proof.LibTransport
import Idealize.ShloMosaic.Lib.StableHlo.Run
import Idealize.ShloMosaic.PureOps.Ideal

set_option maxRecDepth 16384

noncomputable section

namespace Cert.KernelIdeal.Levels

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## The first stretch: degrees, their comparison with 0 and their inverse square roots -/

set_option maxHeartbeats 4000000 in
theorem v17_W1 : W1 m ρ c (Proc.devRef .tc main_v17)
    = Host.scatterAdd (F := Ideal) scatter_S100000_S6504448x1_S6504448_n_0_0_1
        (broadcastInDim S100000 ![] bcast_S_S100000 (constant (F := Ideal) S_ .f32 0x00000000#32))
        (broadcastInDim S6504448x1 ![0] bcast_S6504448_S6504448x1_0 (W1 m ρ c (Proc.devRef .tc main_v12))) (W1 m ρ c (Proc.devRef .tc main_v14)) := by
  unfold W1
  generalize W0 m ρ c = V
  after_results
  first | done | rfl

set_option maxHeartbeats 4000000 in
theorem v19_W1 : W1 m ρ c (Proc.devRef .tc main_v19)
    = cmpf .ogt (W1 m ρ c (Proc.devRef .tc main_v17)) (broadcastInDim S100000 ![] bcast_S_S100000 (constant (F := Ideal) S_ .f32 0x00000000#32)) := by
  unfold W1
  generalize W0 m ρ c = V
  after_results
  first | done | rfl

set_option maxHeartbeats 4000000 in
theorem v20_W1 : (W1 m ρ c (Proc.devRef .tc main_v20) : (⟨S100000, .f32⟩ : BufTy).Contents (Elt Ideal))
    = Host.rsqrt (F := Ideal) (s := S100000) (φ := .f32) (W1 m ρ c (Proc.devRef .tc main_v17)) := by
  unfold W1
  generalize W0 m ρ c = V
  after_results
  first | done | rfl

theorem cst4_W1 : W1 m ρ c (Proc.devRef .tc main_cst_4) = (constant (F := Ideal) S_ .f32 0x00000000#32) := by
  show StableHlo.after hostOps0 (W0 m ρ c) _ = _
  generalize W0 m ρ c = V
  after_results
  first | done | rfl

/-! ## The outlined selection: q -/

theorem v21_W2 : W2 m ρ c (Proc.devRef .tc main_v21)
    = select (W1 m ρ c (Proc.devRef .tc main_v19)) (W1 m ρ c (Proc.devRef .tc main_v20))
        (broadcastInDim S100000 ![] bcast_S_S100000 (W1 m ρ c (Proc.devRef .tc main_cst_4))) := by
  show StableHlo.after hostOps0_1 (W1 m ρ c) _ = _
  generalize W1 m ρ c = V
  after_results
  simp only [Cert.Lib.Transport.ofBuf_toBuf, Cert.Lib.Transport.toBuf_ofBuf]
  first | done | rfl

/-! ## The third stretch: the factor column -/

theorem v38_W3 : (W3 m ρ c (Proc.devRef .tc main_v38) : (⟨S6504448x1, .f32⟩ : BufTy).Contents (Elt Ideal))
    = (broadcastInDim S6504448x1 ![0] bcast_S6504448_S6504448x1_0 (mulf (F := Ideal) (φ := .f32) (mulf (F := Ideal) (φ := .f32) (Host.gather gather_S100000_S6504448x1_S6504448_n_0_n_n_0_1_1 (W2 m ρ c (Proc.devRef .tc main_v21)) (broadcastInDim S6504448x1 ![0] bcast_S6504448_S6504448x1_0 (select (cmpi .slt (W2 m ρ c (Proc.devRef .tc main_v10)) (broadcastInDim S6504448 ![] bcast_S_S6504448 (constantI S_ 32 0#32))) (addi (W2 m ρ c (Proc.devRef .tc main_v10)) (broadcastInDim S6504448 ![] bcast_S_S6504448 (constantI S_ 32 100000#32))) (W2 m ρ c (Proc.devRef .tc main_v10))))) (W2 m ρ c (Proc.devRef .tc main_v14)))
        (Host.gather gather_S100000_S6504448x1_S6504448_n_0_n_n_0_1_1 (W2 m ρ c (Proc.devRef .tc main_v21)) (broadcastInDim S6504448x1 ![0] bcast_S6504448_S6504448x1_0 (select (cmpi .slt (W2 m ρ c (Proc.devRef .tc main_v12)) (broadcastInDim S6504448 ![] bcast_S_S6504448 (constantI S_ 32 0#32))) (addi (W2 m ρ c (Proc.devRef .tc main_v12)) (broadcastInDim S6504448 ![] bcast_S_S6504448 (constantI S_ 32 100000#32))) (W2 m ρ c (Proc.devRef .tc main_v12))))))) := by
  show StableHlo.after hostOps0_2 (W2 m ρ c) _ = _
  generalize W2 m ρ c = V
  after_results_simp
  first | done | rfl

/-! ## After region 0: the gathered rows of the first layer -/

theorem v46_W5 : W5 m ρ c (Proc.devRef .tc main_v46)
    = Host.gather gather_S100000x8_S6504448x1_S6504448x8_1_0_n_n_0_1_18 (W4 m ρ c (Proc.devRef .tc main_v39))
        (broadcastInDim S6504448x1 ![0] bcast_S6504448_S6504448x1_0 (select (cmpi .slt (W4 m ρ c (Proc.devRef .tc main_v10)) (broadcastInDim S6504448 ![] bcast_S_S6504448 (constantI S_ 32 0#32))) (addi (W4 m ρ c (Proc.devRef .tc main_v10)) (broadcastInDim S6504448 ![] bcast_S_S6504448 (constantI S_ 32 100000#32))) (W4 m ρ c (Proc.devRef .tc main_v10)))) := by
  show StableHlo.after hostOps1 (W4 m ρ c) _ = _
  generalize W4 m ρ c = V
  after_results
  first | done | rfl

/-! ## After region 1: the first layer's result, and its cut-off at 0 -/

theorem v53_W7 : W7 m ρ c (Proc.devRef .tc main_v53)
    = addf (Host.scatterAdd (F := Ideal) scatter_S100000x8_S6504448x1_S6504448x8_1_0_0_1
          (broadcastInDim S100000x8 ![] bcast_S_S100000x8 (constant (F := Ideal) S_ .f32 0x00000000#32))
          (broadcastInDim S6504448x1 ![0] bcast_S6504448_S6504448x1_0 (W6 m ρ c (Proc.devRef .tc main_v12))) (W6 m ρ c (Proc.devRef .tc main_v47)))
        (broadcastInDim S100000x8 ![0, 1] bcast_S1x8_S100000x8_0_1
          (broadcastInDim S1x8 ![1] bcast_S8_S1x8_1 (W6 m ρ c (Proc.devRef .tc main_arg4)))) := by
  show StableHlo.after hostOps2 (W6 m ρ c) _ = _
  generalize W6 m ρ c = V
  after_results
  first | done | rfl

theorem v54_W8 : W8 m ρ c (Proc.devRef .tc main_v54)
    = maximumf (W7 m ρ c (Proc.devRef .tc main_v53)) (broadcastInDim S100000x8 ![] bcast_S_S100000x8 (constant (F := Ideal) S_ .f32 0x00000000#32)) := by
  show StableHlo.after hostOps2_1 (W7 m ρ c) _ = _
  generalize W7 m ρ c = V
  after_results
  simp only [Cert.Lib.Transport.ofBuf_toBuf, Cert.Lib.Transport.toBuf_ofBuf]
  first | done | rfl

/-! ## After region 2: the gathered rows of the second layer -/

theorem v62_W10 : W10 m ρ c (Proc.devRef .tc main_v62)
    = Host.gather gather_S100000x2_S6504448x1_S6504448x2_1_0_n_n_0_1_12 (W9 m ρ c (Proc.devRef .tc main_v55))
        (broadcastInDim S6504448x1 ![0] bcast_S6504448_S6504448x1_0 (select (cmpi .slt (W9 m ρ c (Proc.devRef .tc main_v10)) (broadcastInDim S6504448 ![] bcast_S_S6504448 (constantI S_ 32 0#32))) (addi (W9 m ρ c (Proc.devRef .tc main_v10)) (broadcastInDim S6504448 ![] bcast_S_S6504448 (constantI S_ 32 100000#32))) (W9 m ρ c (Proc.devRef .tc main_v10)))) := by
  show StableHlo.after hostOps3 (W9 m ρ c) _ = _
  generalize W9 m ρ c = V
  after_results
  first | done | rfl

/-! ## After region 3: the second layer's result -/

theorem v69_W12 : W12 m ρ c (Proc.devRef .tc main_v69)
    = addf (Host.scatterAdd (F := Ideal) scatter_S100000x2_S6504448x1_S6504448x2_1_0_0_1
          (broadcastInDim S100000x2 ![] bcast_S_S100000x2 (constant (F := Ideal) S_ .f32 0x00000000#32))
          (broadcastInDim S6504448x1 ![0] bcast_S6504448_S6504448x1_0 (W11 m ρ c (Proc.devRef .tc main_v12))) (W11 m ρ c (Proc.devRef .tc main_v63)))
        (broadcastInDim S100000x2 ![0, 1] bcast_S1x2_S100000x2_0_1
          (broadcastInDim S1x2 ![1] bcast_S2_S1x2_1 (W11 m ρ c (Proc.devRef .tc main_arg6)))) := by
  show StableHlo.after hostOps4 (W11 m ρ c) _ = _
  generalize W11 m ρ c = V
  after_results
  first | done | rfl

end Cert.KernelIdeal.Levels

end
-- ==== Proof.LibColumnBroadcast.lean ====
/-
  A column `[a, 1]` broadcast along its unit axis to `[a, b]`, read at an index: entry `(p, c)` of the
  result is entry `(p, 0)` of the column.  The vector form (`broadcastTo`) and the host form
  (`broadcastInDim` with the axes kept in place) are both given, for any sizes, together with the host
  forms that lift a vector `[b]` to a row `[1, b]`, a row `[1, b]` to `[a, b]`, and a scalar to any shape.
-/
import Idealize.ShloMosaic.Lib.Pipeline.Value
import Idealize.ShloMosaic.Lib.ValueIdx

namespace Cert.LibColumnBroadcast

open Idealize.ShloMosaic Idealize.ShloMosaic.ValueIdx

variable {α : Type}

/-- A column broadcast along its unit axis: entry `(p, c)` is the column's entry `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]`, both axes kept in place. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]`, both axes kept in place. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's lift of a vector `[b]` to a row `[1, b]` along axis 1. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- The host's broadcast of a scalar to any shape: every entry is the scalar. -/
theorem broadcastInDim_scalar_apply {t : Shape} (v : (⟨0, ![]⟩ : Shape).Idx → α) (dims : Fin 0 → Fin t.rank)
    (h : (⟨0, ![]⟩ : Shape).BroadcastsInDim t dims) (j : t.Idx) :
    broadcastInDim t dims h v j = v ix0 :=
  broadcastInDim_apply dims h v j ix0 fun a => a.elim0

end Cert.LibColumnBroadcast
-- ==== Proof.RegionScale.lean ====
/-
  The two scaling regions, from blocks to the array.

  Each point of the grid multiplies one block of 8192 rows by the matching block of a column: entry (r, f) of the
  result block is the column's entry (r, 0) times the block's entry (r, f). The blocks tile the rows exactly
  (794 * 8192 = 6504448), block t holding rows 8192 t … 8192 t + 8191, so the output array ends holding, at every
  entry (e, f), the column's entry (e, 0) times the input array's entry (e, f).
-/
import proofs.«181032_j5677946765525_1_alg».proof.Proof.Gen.KernelIdeal.Frame
import proofs.«181032_j5677946765525_1_alg».proof.Proof.LibColumnBroadcast
import Idealize.ShloMosaic.Lib.Pipeline.Value
import Idealize.ShloMosaic.Lib.ValueIdx

set_option maxRecDepth 16384

noncomputable section

namespace Cert.KernelIdeal.Regions

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offsets of a rank-2 rectangle, as the constant function. -/
theorem scaleZeros : (![0, 0] : Fin 2 → Nat) = fun _ => 0 := funext fun a => by fin_cases a <;> rfl

/-- The product of two extended reals, with its type named (an array's entry has the type of its buffer's elements,
    which is the extended reals only after unfolding). -/
local infixl:70 " *ₑ " => @HMul.hMul EReal EReal EReal instHMul

/-! ## Region 1: rows of width 8 -/

/-- The body's payload at an entry: the column's entry of that row times the block's entry. -/
theorem pay1_apply (x0 : Vec Ideal S8192x1 .f32) (x1 : Vec Ideal S8192x8 .f32) (r : Fin 8192) (f : Fin 8) :
    k1_pay1 x0 x1 (ix2 r f) = x0 (ix2 r (0 : Fin 1)) * x1 (ix2 r f) := by
  unfold k1_pay1
  rw [shapeCast_self, shapeCast_self, mulf_apply]
  exact congrArg (· * x1 (ix2 r f)) (Cert.LibColumnBroadcast.broadcastTo_a1_ab_apply x0 broadcasts_S8192x1_S8192x8 r f)

/-- What the body leaves in the output block, at an entry. -/
theorem out1_apply (x0 : Vec Ideal S8192x1 .f32) (x1 : Vec Ideal S8192x8 .f32) (y : S8192x8.Idx) :
    out1_2 x0 x1 y = x0 (ix2 (y 0) (0 : Fin 1)) * x1 y := by
  obtain ⟨r, f, rfl⟩ : ∃ (r : Fin 8192) (f : Fin 8), y = ix2 r f := ⟨y 0, y 1, eq_ix2 y⟩
  unfold out1_2
  rw [View.canon_unit_zero scaleZeros]
  simp only [View.ld_unit_zero (S := S8192x1) scaleZeros, View.ld_unit_zero (S := S8192x8) scaleZeros]
  exact pay1_apply x0 x1 r f

/-- The printed index maps over the grid: every window's block index is (t, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The whole-array function: entry (e, f) is the column's entry (e, 0) times the array's entry (e, f). -/
abbrev G1 (a0 : S6504448x1.Idx → Elt Ideal .f32) (a1 : S6504448x8.Idx → Elt Ideal .f32) : S6504448x8.Idx → Elt Ideal .f32 :=
  fun i => a0 (ix2 (i 0) (0 : Fin 1)) * a1 i

/-- The column window's block at point t is rows 8192 t … of the column. -/
theorem iblk1_0_apply (c : Dev nD) (t : Fin cfg1.N) (x : S8192x1.Idx) (k : S6504448x1.Idx)
    (hk0 : (k 0).val = 8192 * t.val + (x 0).val) (hk1 : (k 1).val = (x 1).val) :
    (iblk1 V c 0 t : Vec Ideal S8192x1 .f32) x = (V c main_v38 : S6504448x1.Idx → Elt Ideal .f32) k := by
  obtain ⟨e0, e1, -⟩ := idx_facts1 t
  unfold iblk1
  rw [View.read_apply]
  show V c main_v38 _ = V c main_v38 _
  congr 1
  funext a
  apply Fin.ext
  match a with
  | ⟨0, _⟩ => show win1_0.index t (0 : Fin 2) * 8192 + 1 * (x 0).val = (k 0).val; rw [e0, hk0]; omega
  | ⟨1, _⟩ => show win1_0.index t (1 : Fin 2) * 1 + 1 * (x 1).val = (k 1).val; rw [e1, hk1]; omega

/-- The second window's block at point t is rows 8192 t … of its array. -/
theorem iblk1_1_apply (c : Dev nD) (t : Fin cfg1.N) (x : S8192x8.Idx) (k : S6504448x8.Idx)
    (hk0 : (k 0).val = 8192 * t.val + (x 0).val) (hk1 : (k 1).val = (x 1).val) :
    (iblk1 V c 1 t : Vec Ideal S8192x8 .f32) x = (V c main_v46 : S6504448x8.Idx → Elt Ideal .f32) k := by
  obtain ⟨-, -, e2, e3, -⟩ := idx_facts1 t
  unfold iblk1
  rw [View.read_apply]
  show V c main_v46 _ = V c main_v46 _
  congr 1
  funext a
  apply Fin.ext
  match a with
  | ⟨0, _⟩ => show win1_1.index t (0 : Fin 2) * 8192 + 1 * (x 0).val = (k 0).val; rw [e2, hk0]; omega
  | ⟨1, _⟩ => show win1_1.index t (1 : Fin 2) * 8 + 1 * (x 1).val = (k 1).val; rw [e3, hk1]; omega

/-- What point t writes back is block t of the whole-array function of the region's input arrays. -/
theorem flushed1_eq (c : Dev nD) (t : Fin cfg1.N) :
    (dat1 (F := Ideal) V c).flushed 2 t
      = ((cfg1.win 2).blk t).view.read (Elt Ideal) (G1 (V c main_v38) (V c main_v46)) := by
  show (cfg1.win 2).cut (grid1.coords t) ((dat1 (F := Ideal) V c).after 2 t) = _
  rw [after1_2]
  obtain ⟨-, -, -, -, e4, e5⟩ := idx_facts1 t
  funext j
  show out1_2 (iblk1 V c 0 t) (iblk1 V c 1 t) ((cfg1.win 2).xinj (grid1.coords t) j)
    = G1 (V c main_v38) (V c main_v46) (((cfg1.win 2).blk t).view.emb j)
  refine (out1_apply (iblk1 V c 0 t) (iblk1 V c 1 t) _).trans ?_
  have hj0 : (j 0).val < 8192 := (j 0).isLt
  have hj1 : (j 1).val < 8 := (j 1).isLt
  refine congrArg₂ (· * ·) (iblk1_0_apply V c t _ _ ?_ ?_) (iblk1_1_apply V c t _ _ ?_ ?_)
  · show win1_2.index t (0 : Fin 2) * 8192 + 1 * (j 0).val = 8192 * t.val + (j 0).val
    rw [e4]; omega
  · rfl
  · show win1_2.index t (0 : Fin 2) * 8192 + 1 * (j 0).val = 8192 * t.val + (j 0).val
    rw [e4]; omega
  · show win1_2.index t (1 : Fin 2) * 8 + 1 * (j 1).val = (j 1).val
    rw [e5]; omega

/-- An entry of the array is in point t's block iff each coordinate is in the block's range on its axis. -/
theorem mem_blk1 (t : Fin cfg1.N) (i : S6504448x8.Idx) :
    i ∈ ((cfg1.win 2).blk t).view.set ↔ ∀ a : Fin 2, win1_2.index t a * S8192x8.size a ≤ (i a).val
      ∧ (i a).val < win1_2.index t a * S8192x8.size a + S8192x8.size a := by
  show i ∈ ((View.whole main_v47).slice (win1_2.rect t)).set ↔ _
  rw [View.set_slice_whole, Rect.mem_set_unit]
  exact Iff.rfl

/-- Every entry lies in the block of the point its row divided by 8192 names. -/
theorem cover1 (i : S6504448x8.Idx) :
    ∃ t : Fin cfg1.N, (cfg1.win 2).flush t = true ∧ i ∈ ((cfg1.win 2).blk t).view.set := by
  have hi0 : (i 0).val < 6504448 := (i 0).isLt
  have hi1 : (i 1).val < 8 := (i 1).isLt
  have hN : cfg1.N = 794 := N_1
  let t : Fin cfg1.N := ⟨(i 0).val / 8192, by rw [hN]; omega⟩
  obtain ⟨-, -, -, -, e4, e5⟩ := idx_facts1 t
  have ht : t.val = (i 0).val / 8192 := rfl
  refine ⟨t, flush1_2 t, ?_⟩
  rw [mem_blk1]
  intro a
  match a with
  | ⟨0, _⟩ =>
    show win1_2.index t (0 : Fin 2) * 8192 ≤ (i 0).val ∧ (i 0).val < win1_2.index t (0 : Fin 2) * 8192 + 8192
    rw [e4, ht]; omega
  | ⟨1, _⟩ =>
    show win1_2.index t (1 : Fin 2) * 8 ≤ (i 1).val ∧ (i 1).val < win1_2.index t (1 : Fin 2) * 8 + 8
    rw [e5]; omega

/-- The output array of region 1 after the region, as one function of the region's input arrays. -/
theorem scale1_array_eq (c : Dev nD) :
    (dat1 (F := Ideal) V c).arrAt 2 cfg1.N = G1 (V c main_v38) (V c main_v46) :=
  (dat1 (F := Ideal) V c).arrAt_eq_of_cover 2 (G1 (V c main_v38) (V c main_v46)) (fun t _ => flushed1_eq V c t) cover1

/-- Entry (e, f) of region 1's output array: the column's entry (e, 0) times the input array's entry (e, f). -/
theorem scale1_array (c : Dev nD) (e : Fin 6504448) (f : Fin 8) :
    ((dat1 (F := Ideal) V c).arrAt 2 cfg1.N : S6504448x8.Idx → EReal) (ix2 e f)
      = (V c main_v38 (ix2 e (0 : Fin 1)) : EReal) *ₑ (V c main_v46 (ix2 e f) : EReal) := by
  rw [scale1_array_eq V c]

/-- The same with the two input arrays named: whatever functions the region finds in them. -/
theorem scale1_array_of (c : Dev nD) (a0 : S6504448x1.Idx → EReal) (a1 : S6504448x8.Idx → EReal)
    (h0 : V c main_v38 = a0) (h1 : V c main_v46 = a1) (e : Fin 6504448) (f : Fin 8) :
    ((dat1 (F := Ideal) V c).arrAt 2 cfg1.N : S6504448x8.Idx → EReal) (ix2 e f) = a0 (ix2 e 0) * a1 (ix2 e f) := by
  subst h0 h1
  exact scale1_array V c e f

/-! ## Region 3: rows of width 2 -/

/-- The body's payload at an entry: the column's entry of that row times the block's entry. -/
theorem pay3_apply (x0 : Vec Ideal S8192x1 .f32) (x1 : Vec Ideal S8192x2 .f32) (r : Fin 8192) (f : Fin 2) :
    k3_pay1 x0 x1 (ix2 r f) = x0 (ix2 r (0 : Fin 1)) * x1 (ix2 r f) := by
  unfold k3_pay1
  rw [shapeCast_self, shapeCast_self, mulf_apply]
  exact congrArg (· * x1 (ix2 r f)) (Cert.LibColumnBroadcast.broadcastTo_a1_ab_apply x0 broadcasts_S8192x1_S8192x2 r f)

/-- What the body leaves in the output block, at an entry. -/
theorem out3_apply (x0 : Vec Ideal S8192x1 .f32) (x1 : Vec Ideal S8192x2 .f32) (y : S8192x2.Idx) :
    out3_2 x0 x1 y = x0 (ix2 (y 0) (0 : Fin 1)) * x1 y := by
  obtain ⟨r, f, rfl⟩ : ∃ (r : Fin 8192) (f : Fin 2), y = ix2 r f := ⟨y 0, y 1, eq_ix2 y⟩
  unfold out3_2
  rw [View.canon_unit_zero scaleZeros]
  simp only [View.ld_unit_zero (S := S8192x1) scaleZeros, View.ld_unit_zero (S := S8192x2) scaleZeros]
  exact pay3_apply x0 x1 r f

/-- The printed index maps over the grid: every window's block index is (t, 0). -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- The whole-array function: entry (e, f) is the column's entry (e, 0) times the array's entry (e, f). -/
abbrev G3 (a0 : S6504448x1.Idx → Elt Ideal .f32) (a1 : S6504448x2.Idx → Elt Ideal .f32) : S6504448x2.Idx → Elt Ideal .f32 :=
  fun i => a0 (ix2 (i 0) (0 : Fin 1)) * a1 i

/-- The column window's block at point t is rows 8192 t … of the column. -/
theorem iblk3_0_apply (c : Dev nD) (t : Fin cfg3.N) (x : S8192x1.Idx) (k : S6504448x1.Idx)
    (hk0 : (k 0).val = 8192 * t.val + (x 0).val) (hk1 : (k 1).val = (x 1).val) :
    (iblk3 V c 0 t : Vec Ideal S8192x1 .f32) x = (V c main_v38 : S6504448x1.Idx → Elt Ideal .f32) k := by
  obtain ⟨e0, e1, -⟩ := idx_facts3 t
  unfold iblk3
  rw [View.read_apply]
  show V c main_v38 _ = V c main_v38 _
  congr 1
  funext a
  apply Fin.ext
  match a with
  | ⟨0, _⟩ => show win3_0.index t (0 : Fin 2) * 8192 + 1 * (x 0).val = (k 0).val; rw [e0, hk0]; omega
  | ⟨1, _⟩ => show win3_0.index t (1 : Fin 2) * 1 + 1 * (x 1).val = (k 1).val; rw [e1, hk1]; omega

/-- The second window's block at point t is rows 8192 t … of its array. -/
theorem iblk3_1_apply (c : Dev nD) (t : Fin cfg3.N) (x : S8192x2.Idx) (k : S6504448x2.Idx)
    (hk0 : (k 0).val = 8192 * t.val + (x 0).val) (hk1 : (k 1).val = (x 1).val) :
    (iblk3 V c 1 t : Vec Ideal S8192x2 .f32) x = (V c main_v62 : S6504448x2.Idx → Elt Ideal .f32) k := by
  obtain ⟨-, -, e2, e3, -⟩ := idx_facts3 t
  unfold iblk3
  rw [View.read_apply]
  show V c main_v62 _ = V c main_v62 _
  congr 1
  funext a
  apply Fin.ext
  match a with
  | ⟨0, _⟩ => show win3_1.index t (0 : Fin 2) * 8192 + 1 * (x 0).val = (k 0).val; rw [e2, hk0]; omega
  | ⟨1, _⟩ => show win3_1.index t (1 : Fin 2) * 2 + 1 * (x 1).val = (k 1).val; rw [e3, hk1]; omega

/-- What point t writes back is block t of the whole-array function of the region's input arrays. -/
theorem flushed3_eq (c : Dev nD) (t : Fin cfg3.N) :
    (dat3 (F := Ideal) V c).flushed 2 t
      = ((cfg3.win 2).blk t).view.read (Elt Ideal) (G3 (V c main_v38) (V c main_v62)) := by
  show (cfg3.win 2).cut (grid3.coords t) ((dat3 (F := Ideal) V c).after 2 t) = _
  rw [after3_2]
  obtain ⟨-, -, -, -, e4, e5⟩ := idx_facts3 t
  funext j
  show out3_2 (iblk3 V c 0 t) (iblk3 V c 1 t) ((cfg3.win 2).xinj (grid3.coords t) j)
    = G3 (V c main_v38) (V c main_v62) (((cfg3.win 2).blk t).view.emb j)
  refine (out3_apply (iblk3 V c 0 t) (iblk3 V c 1 t) _).trans ?_
  have hj0 : (j 0).val < 8192 := (j 0).isLt
  have hj1 : (j 1).val < 2 := (j 1).isLt
  refine congrArg₂ (· * ·) (iblk3_0_apply V c t _ _ ?_ ?_) (iblk3_1_apply V c t _ _ ?_ ?_)
  · show win3_2.index t (0 : Fin 2) * 8192 + 1 * (j 0).val = 8192 * t.val + (j 0).val
    rw [e4]; omega
  · rfl
  · show win3_2.index t (0 : Fin 2) * 8192 + 1 * (j 0).val = 8192 * t.val + (j 0).val
    rw [e4]; omega
  · show win3_2.index t (1 : Fin 2) * 2 + 1 * (j 1).val = (j 1).val
    rw [e5]; omega

/-- An entry of the array is in point t's block iff each coordinate is in the block's range on its axis. -/
theorem mem_blk3 (t : Fin cfg3.N) (i : S6504448x2.Idx) :
    i ∈ ((cfg3.win 2).blk t).view.set ↔ ∀ a : Fin 2, win3_2.index t a * S8192x2.size a ≤ (i a).val
      ∧ (i a).val < win3_2.index t a * S8192x2.size a + S8192x2.size a := by
  show i ∈ ((View.whole main_v63).slice (win3_2.rect t)).set ↔ _
  rw [View.set_slice_whole, Rect.mem_set_unit]
  exact Iff.rfl

/-- Every entry lies in the block of the point its row divided by 8192 names. -/
theorem cover3 (i : S6504448x2.Idx) :
    ∃ t : Fin cfg3.N, (cfg3.win 2).flush t = true ∧ i ∈ ((cfg3.win 2).blk t).view.set := by
  have hi0 : (i 0).val < 6504448 := (i 0).isLt
  have hi1 : (i 1).val < 2 := (i 1).isLt
  have hN : cfg3.N = 794 := N_3
  let t : Fin cfg3.N := ⟨(i 0).val / 8192, by rw [hN]; omega⟩
  obtain ⟨-, -, -, -, e4, e5⟩ := idx_facts3 t
  have ht : t.val = (i 0).val / 8192 := rfl
  refine ⟨t, flush3_2 t, ?_⟩
  rw [mem_blk3]
  intro a
  match a with
  | ⟨0, _⟩ =>
    show win3_2.index t (0 : Fin 2) * 8192 ≤ (i 0).val ∧ (i 0).val < win3_2.index t (0 : Fin 2) * 8192 + 8192
    rw [e4, ht]; omega
  | ⟨1, _⟩ =>
    show win3_2.index t (1 : Fin 2) * 2 ≤ (i 1).val ∧ (i 1).val < win3_2.index t (1 : Fin 2) * 2 + 2
    rw [e5]; omega

/-- The output array of region 3 after the region, as one function of the region's input arrays. -/
theorem scale3_array_eq (c : Dev nD) :
    (dat3 (F := Ideal) V c).arrAt 2 cfg3.N = G3 (V c main_v38) (V c main_v62) :=
  (dat3 (F := Ideal) V c).arrAt_eq_of_cover 2 (G3 (V c main_v38) (V c main_v62)) (fun t _ => flushed3_eq V c t) cover3

/-- Entry (e, f) of region 3's output array: the column's entry (e, 0) times the input array's entry (e, f). -/
theorem scale3_array (c : Dev nD) (e : Fin 6504448) (f : Fin 2) :
    ((dat3 (F := Ideal) V c).arrAt 2 cfg3.N : S6504448x2.Idx → EReal) (ix2 e f)
      = (V c main_v38 (ix2 e (0 : Fin 1)) : EReal) *ₑ (V c main_v62 (ix2 e f) : EReal) := by
  rw [scale3_array_eq V c]

/-- The same with the two input arrays named: whatever functions the region finds in them. -/
theorem scale3_array_of (c : Dev nD) (a0 : S6504448x1.Idx → EReal) (a1 : S6504448x2.Idx → EReal)
    (h0 : V c main_v38 = a0) (h1 : V c main_v62 = a1) (e : Fin 6504448) (f : Fin 2) :
    ((dat3 (F := Ideal) V c).arrAt 2 cfg3.N : S6504448x2.Idx → EReal) (ix2 e f) = a0 (ix2 e 0) * a1 (ix2 e f) := by
  subst h0 h1
  exact scale3_array V c e f

end Cert.KernelIdeal.Regions

end
-- ==== Proof.LibRowMatmul.lean ====
/-
  General facts at the ideal values, for any sizes.

  A matrix product into the zero accumulator read at an entry, for the two ways a rank-2 pair is contracted here:
  rows against rows (the last axis of both operands: `A · Bᵀ`) and rows against columns (`A · B`). Each is the plain
  finite sum over the contracted coordinate. The dimension numbers are any record with one contracted axis whose
  kept coordinates are the output's; a caller supplies those coordinate facts for its own record.

  And the maximum along the rows of an `a × b` array, and the host's maximum along the last axis of an
  `n0 × n1 × n2` array, each as the fold of `max` from the starting value over the coordinates of that axis.
-/
import Idealize.ShloMosaic.PureOps.Ideal.Laws
import Idealize.ShloMosaic.PureOps.Reduce
import Idealize.ShloMosaic.Lib.ValueIdx

namespace Cert.Lib.RowMatmul

open Idealize.ShloMosaic Idealize.ShloMosaic.ValueIdx

/-- Rows against rows: `(A · Bᵀ)(a, b) = ∑ c, A(a, c) · B(b, c)`. -/
theorem matmul_rows_apply {m k n : ℕ} {φ₁ φ₂ : FTy} (D : DotDims ⟨2, ![m, k]⟩ ⟨2, ![n, k]⟩ ⟨2, ![m, n]⟩)
    (hl : D.lhsContracting = [1]) (hr : D.rhsContracting = [1])
    (hrank : D.contr.rank = 1) (hsize : D.contr.size ⟨0, by omega⟩ = k)
    (h0 : ∀ j q, (D.lhsIdx j q 0).val = (j 0).val) (h1 : ∀ j q, (D.rhsIdx j q 0).val = (j 1).val)
    (prec : Option ContractPrecision) (A : FVec Ideal ⟨2, ![m, k]⟩ φ₁) (B : FVec Ideal ⟨2, ![n, k]⟩ φ₂)
    (a : Fin m) (b : Fin n) :
    matmul D prec A B (constant ⟨2, ![m, n]⟩ .f32 0x00000000#32) (ix2 a b) = ∑ c : Fin k, A (ix2 a c) * B (ix2 b c) := by
  simp only [matmul]
  rw [Ideal.matmul_constant_zero_apply, ← Equiv.sum_comp (contrEquiv1 D k hrank hsize).symm]
  refine Finset.sum_congr rfl fun c _ => ?_
  have hk := contrEquiv1_symm_val D k hrank hsize c
  have el : D.lhsIdx (ix2 a b) ((contrEquiv1 D k hrank hsize).symm c) = ix2 a c := funext fun ax => Fin.ext (by
    match ax with
    | ⟨0, _⟩ => exact h0 _ _
    | ⟨1, _⟩ => exact (D.lhsIdx_val_of_single hl _ _).trans hk)
  have er : D.rhsIdx (ix2 a b) ((contrEquiv1 D k hrank hsize).symm c) = ix2 b c := funext fun ax => Fin.ext (by
    match ax with
    | ⟨0, _⟩ => exact h1 _ _
    | ⟨1, _⟩ => exact (D.rhsIdx_val_of_single hr _ _).trans hk)
  rw [el, er]

/-- Rows against columns: `(A · B)(a, b) = ∑ c, A(a, c) · B(c, b)`. -/
theorem matmul_cols_apply {m k n : ℕ} {φ₁ φ₂ : FTy} (D : DotDims ⟨2, ![m, k]⟩ ⟨2, ![k, n]⟩ ⟨2, ![m, n]⟩)
    (hl : D.lhsContracting = [1]) (hr : D.rhsContracting = [0])
    (hrank : D.contr.rank = 1) (hsize : D.contr.size ⟨0, by omega⟩ = k)
    (h0 : ∀ j q, (D.lhsIdx j q 0).val = (j 0).val) (h1 : ∀ j q, (D.rhsIdx j q 1).val = (j 1).val)
    (prec : Option ContractPrecision) (A : FVec Ideal ⟨2, ![m, k]⟩ φ₁) (B : FVec Ideal ⟨2, ![k, n]⟩ φ₂)
    (a : Fin m) (b : Fin n) :
    matmul D prec A B (constant ⟨2, ![m, n]⟩ .f32 0x00000000#32) (ix2 a b) = ∑ c : Fin k, A (ix2 a c) * B (ix2 c b) := by
  simp only [matmul]
  rw [Ideal.matmul_constant_zero_apply, ← Equiv.sum_comp (contrEquiv1 D k hrank hsize).symm]
  refine Finset.sum_congr rfl fun c _ => ?_
  have hk := contrEquiv1_symm_val D k hrank hsize c
  have el : D.lhsIdx (ix2 a b) ((contrEquiv1 D k hrank hsize).symm c) = ix2 a c := funext fun ax => Fin.ext (by
    match ax with
    | ⟨0, _⟩ => exact h0 _ _
    | ⟨1, _⟩ => exact (D.lhsIdx_val_of_single hl _ _).trans hk)
  have er : D.rhsIdx (ix2 a b) ((contrEquiv1 D k hrank hsize).symm c) = ix2 c b := funext fun ax => Fin.ext (by
    match ax with
    | ⟨0, _⟩ => exact (D.rhsIdx_val_of_single hr _ _).trans hk
    | ⟨1, _⟩ => exact h1 _ _)
  rw [el, er]

/-- The maximum along each row of an `a × b` array: at row `r`, the fold of `max` from the accumulator's value
    over the `b` columns. -/
theorem rowMax_apply {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (fun f => Finset.fold max (Ideal.ofBits φ acc) f (Finset.univ : Finset (Fin b))) ?_
  funext k
  refine congrArg src ?_
  funext ax; apply Fin.ext
  match ax with
  | ⟨0, _⟩ => rfl
  | ⟨1, _⟩ => rfl

/-- The host's maximum along the last axis of an `n0 × n1 × n2` array: at `(p, q)`, the fold of `max` from the
    starting value over the `n2` coordinates. -/
theorem hostLastMax_apply {n0 n1 n2 : ℕ} {φ : FTy} {u : Shape} (x : FVec Ideal ⟨3, ![n0, n1, n2]⟩ φ) (init : u.Idx → Ideal φ)
    (h' : Shape.ReducesTo ⟨3, ![n0, n1, n2]⟩ [2] ⟨2, ![n0, n1]⟩) (h : Shape.Reduces ⟨3, ![n0, n1, n2]⟩ [2] ⟨2, ![n0, n1]⟩)
    (hu : 0 < u.numel) (p : Fin n0) (q : Fin n1) :
    Host.reduce FloatOps.maximumf x init h' hu (ix2 p q)
      = (Finset.univ : Finset (Fin n2)).fold max (init (Shape.Idx.first hu)) (fun k => x (ix3 p q k)) := by
  refine (Host.reduce_eq_fold_single FloatOps.maximumf x init h' h hu (ix2 p q)).trans ?_
  refine congrArg (fun f => Finset.fold max (init (Shape.Idx.first hu)) f (Finset.univ : Finset (Fin n2))) ?_
  funext k
  refine congrArg x ?_
  funext ax; apply Fin.ext
  match ax with
  | ⟨0, _⟩ => rfl
  | ⟨1, _⟩ => rfl
  | ⟨2, _⟩ => rfl

end Cert.Lib.RowMatmul
-- ==== Proof.RegionMatmul.lean ====
/-
  The two matrix-product regions, from blocks to the array.

  Each point of the grid multiplies one block of 4000 rows by the whole small matrix, into a zero accumulator: entry
  (r, f) of the result block is the sum over k of the block's entry (r, k) times the matrix's entry (k, f). The blocks
  tile the rows exactly (25 * 4000 = 100000), block t holding rows 4000 t … 4000 t + 3999, so the output array ends
  holding, at every entry (n, f), the sum over k of the first array's entry (n, k) times the matrix's entry (k, f).
-/
import proofs.«181032_j5677946765525_1_alg».proof.Proof.Gen.KernelIdeal.Frame
import proofs.«181032_j5677946765525_1_alg».proof.Proof.LibRowMatmul
import Idealize.ShloMosaic.Lib.Pipeline.Value
import Idealize.ShloMosaic.Lib.ValueIdx

set_option maxRecDepth 16384

noncomputable section

namespace Cert.KernelIdeal.Regions

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The zero offsets of a rank-2 rectangle, as the constant function. -/
theorem matmulZeros : (![0, 0] : Fin 2 → Nat) = fun _ => 0 := funext fun a => by fin_cases a <;> rfl

/-- The product of two extended reals, with its type named (an array's entry has the type of its buffer's elements,
    which is the extended reals only after unfolding). -/
local infixl:70 " *ₑ " => @HMul.hMul EReal EReal EReal instHMul

/-! ## Region 0: a block of 4000 rows of width 16 times the 16 x 8 matrix -/

/-- The kept coordinate of the left operand is the output's row. -/
theorem lhs0_row (j : S4000x8.Idx) (q : dot_S4000x16_S16x8_S4000x8_1_0_0_1_n_n.contr.Idx) : (dot_S4000x16_S16x8_S4000x8_1_0_0_1_n_n.lhsIdx j q 0).val = (j 0).val := by
  unfold DotDims.lhsIdx
  rw [dif_neg (show ¬(0 : Fin S4000x16.rank) ∈ dot_S4000x16_S16x8_S4000x8_1_0_0_1_n_n.lhsBatch by decide), dif_pos (show (0 : Fin S4000x16.rank) ∈ dot_S4000x16_S16x8_S4000x8_1_0_0_1_n_n.lhsNonContracting by decide)]
  rfl

/-- The kept coordinate of the right operand is the output's column. -/
theorem rhs0_col (j : S4000x8.Idx) (q : dot_S4000x16_S16x8_S4000x8_1_0_0_1_n_n.contr.Idx) : (dot_S4000x16_S16x8_S4000x8_1_0_0_1_n_n.rhsIdx j q 1).val = (j 1).val := by
  unfold DotDims.rhsIdx
  rw [dif_neg (show ¬(1 : Fin S16x8.rank) ∈ dot_S4000x16_S16x8_S4000x8_1_0_0_1_n_n.rhsBatch by decide), dif_pos (show (1 : Fin S16x8.rank) ∈ dot_S4000x16_S16x8_S4000x8_1_0_0_1_n_n.rhsNonContracting by decide)]
  rfl

/-- The body's payload at an entry: the row of the block against the column of the matrix, as a plain sum (the
    narrowing of the operands is the identity on the ideal values, and the accumulator starts at zero). -/
theorem pay0_apply (x0 : Vec Ideal S4000x16 .f32) (x1 : Vec Ideal S16x8 .f32) (r : Fin 4000) (f : Fin 8) :
    k0_pay1 x0 x1 (ix2 r f) = ∑ k : Fin 16, x0 (ix2 r k) * x1 (ix2 k f) := by
  unfold k0_pay1
  exact Cert.Lib.RowMatmul.matmul_cols_apply dot_S4000x16_S16x8_S4000x8_1_0_0_1_n_n rfl rfl rfl rfl lhs0_row rhs0_col none
    (truncf .bf16 x0 bitsLt_bf16_f32) (truncf .bf16 x1 bitsLt_bf16_f32) r f

/-- What the body leaves in the output block, at an entry. -/
theorem out0_apply (x0 : Vec Ideal S4000x16 .f32) (x1 : Vec Ideal S16x8 .f32) (y : S4000x8.Idx) :
    out0_2 x0 x1 y = ∑ k : Fin 16, x0 (ix2 (y 0) k) * x1 (ix2 k (y 1)) := by
  obtain ⟨r, f, rfl⟩ : ∃ (r : Fin 4000) (f : Fin 8), y = ix2 r f := ⟨y 0, y 1, eq_ix2 y⟩
  unfold out0_2
  rw [View.canon_unit_zero matmulZeros]
  simp only [View.ld_unit_zero (S := S4000x16) matmulZeros, View.ld_unit_zero (S := S16x8) matmulZeros]
  exact pay0_apply x0 x1 r f

/-- The printed index maps over the grid: the row blocks are at (t, 0), the matrix at (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole-array function: entry (n, f) is row n of the first array against column f of the matrix. -/
abbrev G0 (a0 : S100000x16.Idx → EReal) (a1 : S16x8.Idx → EReal) : S100000x8.Idx → EReal :=
  fun i => ∑ k : Fin 16, a0 (ix2 (i 0) k) * a1 (ix2 k (i 1))

/-- The first window's block at point t is rows 4000 t … of its array. -/
theorem iblk0_0_apply (c : Dev nD) (t : Fin cfg0.N) (x : S4000x16.Idx) (k : S100000x16.Idx)
    (hk0 : (k 0).val = 4000 * t.val + (x 0).val) (hk1 : (k 1).val = (x 1).val) :
    (iblk0 V c 0 t : Vec Ideal S4000x16 .f32) x = (V c main_arg0 : S100000x16.Idx → Elt Ideal .f32) k := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 4000 + 1 * (x 0).val = (k 0).val; rw [e0, hk0]; omega
  | ⟨1, _⟩ => show win0_0.index t (1 : Fin 2) * 16 + 1 * (x 1).val = (k 1).val; rw [e1, hk1]; omega

/-- The matrix window's block at every point is the whole matrix. -/
theorem iblk0_1_apply (c : Dev nD) (t : Fin cfg0.N) (x : S16x8.Idx) (k : S16x8.Idx)
    (hk0 : (k 0).val = (x 0).val) (hk1 : (k 1).val = (x 1).val) :
    (iblk0 V c 1 t : Vec Ideal S16x8 .f32) x = (V c main_arg3 : S16x8.Idx → Elt Ideal .f32) k := by
  obtain ⟨-, -, e2, e3, -⟩ := idx_facts0 t
  unfold iblk0
  rw [View.read_apply]
  show V c main_arg3 _ = V c main_arg3 _
  congr 1
  funext a
  apply Fin.ext
  match a with
  | ⟨0, _⟩ => show win0_1.index t (0 : Fin 2) * 16 + 1 * (x 0).val = (k 0).val; rw [e2, hk0]; omega
  | ⟨1, _⟩ => show win0_1.index t (1 : Fin 2) * 8 + 1 * (x 1).val = (k 1).val; rw [e3, hk1]; omega

/-- What point t writes back is block t of the whole-array function of the region's input arrays. -/
theorem flushed0_eq (c : Dev nD) (t : Fin cfg0.N) :
    (dat0 (F := Ideal) V c).flushed 2 t
      = ((cfg0.win 2).blk t).view.read (Elt Ideal) (G0 (V c main_arg0) (V c main_arg3)) := by
  show (cfg0.win 2).cut (grid0.coords t) ((dat0 (F := Ideal) V c).after 2 t) = _
  rw [after0_2]
  obtain ⟨-, -, -, -, e4, e5⟩ := idx_facts0 t
  funext j
  show out0_2 (iblk0 V c 0 t) (iblk0 V c 1 t) ((cfg0.win 2).xinj (grid0.coords t) j)
    = G0 (V c main_arg0) (V c main_arg3) (((cfg0.win 2).blk t).view.emb j)
  refine (out0_apply (iblk0 V c 0 t) (iblk0 V c 1 t) _).trans ?_
  have hj0 : (j 0).val < 4000 := (j 0).isLt
  have hj1 : (j 1).val < 8 := (j 1).isLt
  refine Finset.sum_congr rfl fun k _ => ?_
  refine congrArg₂ (· * ·) (iblk0_0_apply V c t _ _ ?_ ?_) (iblk0_1_apply V c t _ _ ?_ ?_)
  · show win0_2.index t (0 : Fin 2) * 4000 + 1 * (j 0).val = 4000 * t.val + (j 0).val
    rw [e4]; omega
  · rfl
  · rfl
  · show win0_2.index t (1 : Fin 2) * 8 + 1 * (j 1).val = (j 1).val
    rw [e5]; omega

/-- An entry of the array is in point t's block iff each coordinate is in the block's range on its axis. -/
theorem mem_blk0 (t : Fin cfg0.N) (i : S100000x8.Idx) :
    i ∈ ((cfg0.win 2).blk t).view.set ↔ ∀ a : Fin 2, win0_2.index t a * S4000x8.size a ≤ (i a).val
      ∧ (i a).val < win0_2.index t a * S4000x8.size a + S4000x8.size a := by
  show i ∈ ((View.whole main_v39).slice (win0_2.rect t)).set ↔ _
  rw [View.set_slice_whole, Rect.mem_set_unit]
  exact Iff.rfl

/-- Every entry lies in the block of the point its row divided by 4000 names. -/
theorem cover0 (i : S100000x8.Idx) :
    ∃ t : Fin cfg0.N, (cfg0.win 2).flush t = true ∧ i ∈ ((cfg0.win 2).blk t).view.set := by
  have hi0 : (i 0).val < 100000 := (i 0).isLt
  have hi1 : (i 1).val < 8 := (i 1).isLt
  have hN : cfg0.N = 25 := N_0
  let t : Fin cfg0.N := ⟨(i 0).val / 4000, by rw [hN]; omega⟩
  obtain ⟨-, -, -, -, e4, e5⟩ := idx_facts0 t
  have ht : t.val = (i 0).val / 4000 := rfl
  refine ⟨t, flush0_2 t, ?_⟩
  rw [mem_blk0]
  intro a
  match a with
  | ⟨0, _⟩ =>
    show win0_2.index t (0 : Fin 2) * 4000 ≤ (i 0).val ∧ (i 0).val < win0_2.index t (0 : Fin 2) * 4000 + 4000
    rw [e4, ht]; omega
  | ⟨1, _⟩ =>
    show win0_2.index t (1 : Fin 2) * 8 ≤ (i 1).val ∧ (i 1).val < win0_2.index t (1 : Fin 2) * 8 + 8
    rw [e5]; omega

/-- The output array of region 0 after the region, as one function of the region's input arrays. -/
theorem matmul0_array_eq (c : Dev nD) :
    (dat0 (F := Ideal) V c).arrAt 2 cfg0.N = G0 (V c main_arg0) (V c main_arg3) :=
  (dat0 (F := Ideal) V c).arrAt_eq_of_cover 2 (G0 (V c main_arg0) (V c main_arg3)) (fun t _ => flushed0_eq V c t) cover0

/-- Entry (n, f) of region 0's output array: row n of the first input array against column f of the matrix. -/
theorem matmul0_array (c : Dev nD) (n : Fin 100000) (f : Fin 8) :
    ((dat0 (F := Ideal) V c).arrAt 2 cfg0.N : S100000x8.Idx → EReal) (ix2 n f)
      = ∑ k : Fin 16, (V c main_arg0 (ix2 n k) : EReal) *ₑ (V c main_arg3 (ix2 k f) : EReal) := by
  rw [matmul0_array_eq V c]

/-- The same with the two input arrays named: whatever functions the region finds in them. -/
theorem matmul0_array_of (c : Dev nD) (a0 : S100000x16.Idx → EReal) (a1 : S16x8.Idx → EReal)
    (h0 : V c main_arg0 = a0) (h1 : V c main_arg3 = a1) (n : Fin 100000) (f : Fin 8) :
    ((dat0 (F := Ideal) V c).arrAt 2 cfg0.N : S100000x8.Idx → EReal) (ix2 n f) = ∑ k : Fin 16, a0 (ix2 n k) * a1 (ix2 k f) := by
  subst h0 h1
  exact matmul0_array V c n f

/-! ## Region 2: a block of 4000 rows of width 8 times the 8 x 2 matrix -/

/-- The kept coordinate of the left operand is the output's row. -/
theorem lhs2_row (j : S4000x2.Idx) (q : dot_S4000x8_S8x2_S4000x2_1_0_0_1_n_n.contr.Idx) : (dot_S4000x8_S8x2_S4000x2_1_0_0_1_n_n.lhsIdx j q 0).val = (j 0).val := by
  unfold DotDims.lhsIdx
  rw [dif_neg (show ¬(0 : Fin S4000x8.rank) ∈ dot_S4000x8_S8x2_S4000x2_1_0_0_1_n_n.lhsBatch by decide), dif_pos (show (0 : Fin S4000x8.rank) ∈ dot_S4000x8_S8x2_S4000x2_1_0_0_1_n_n.lhsNonContracting by decide)]
  rfl

/-- The kept coordinate of the right operand is the output's column. -/
theorem rhs2_col (j : S4000x2.Idx) (q : dot_S4000x8_S8x2_S4000x2_1_0_0_1_n_n.contr.Idx) : (dot_S4000x8_S8x2_S4000x2_1_0_0_1_n_n.rhsIdx j q 1).val = (j 1).val := by
  unfold DotDims.rhsIdx
  rw [dif_neg (show ¬(1 : Fin S8x2.rank) ∈ dot_S4000x8_S8x2_S4000x2_1_0_0_1_n_n.rhsBatch by decide), dif_pos (show (1 : Fin S8x2.rank) ∈ dot_S4000x8_S8x2_S4000x2_1_0_0_1_n_n.rhsNonContracting by decide)]
  rfl

/-- The body's payload at an entry: the row of the block against the column of the matrix, as a plain sum (the
    narrowing of the operands is the identity on the ideal values, and the accumulator starts at zero). -/
theorem pay2_apply (x0 : Vec Ideal S4000x8 .f32) (x1 : Vec Ideal S8x2 .f32) (r : Fin 4000) (f : Fin 2) :
    k2_pay1 x0 x1 (ix2 r f) = ∑ k : Fin 8, x0 (ix2 r k) * x1 (ix2 k f) := by
  unfold k2_pay1
  rw [shapeCast_self]
  exact Cert.Lib.RowMatmul.matmul_cols_apply dot_S4000x8_S8x2_S4000x2_1_0_0_1_n_n rfl rfl rfl rfl lhs2_row rhs2_col none
    (truncf .bf16 x0 bitsLt_bf16_f32) (truncf .bf16 x1 bitsLt_bf16_f32) r f

/-- What the body leaves in the output block, at an entry. -/
theorem out2_apply (x0 : Vec Ideal S4000x8 .f32) (x1 : Vec Ideal S8x2 .f32) (y : S4000x2.Idx) :
    out2_2 x0 x1 y = ∑ k : Fin 8, x0 (ix2 (y 0) k) * x1 (ix2 k (y 1)) := by
  obtain ⟨r, f, rfl⟩ : ∃ (r : Fin 4000) (f : Fin 2), y = ix2 r f := ⟨y 0, y 1, eq_ix2 y⟩
  unfold out2_2
  rw [View.canon_unit_zero matmulZeros]
  simp only [View.ld_unit_zero (S := S4000x8) matmulZeros, View.ld_unit_zero (S := S8x2) matmulZeros]
  exact pay2_apply x0 x1 r f

/-- The printed index maps over the grid: the row blocks are at (t, 0), the matrix at (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The whole-array function: entry (n, f) is row n of the first array against column f of the matrix. -/
abbrev G2 (a0 : S100000x8.Idx → EReal) (a1 : S8x2.Idx → EReal) : S100000x2.Idx → EReal :=
  fun i => ∑ k : Fin 8, a0 (ix2 (i 0) k) * a1 (ix2 k (i 1))

/-- The first window's block at point t is rows 4000 t … of its array. -/
theorem iblk2_0_apply (c : Dev nD) (t : Fin cfg2.N) (x : S4000x8.Idx) (k : S100000x8.Idx)
    (hk0 : (k 0).val = 4000 * t.val + (x 0).val) (hk1 : (k 1).val = (x 1).val) :
    (iblk2 V c 0 t : Vec Ideal S4000x8 .f32) x = (V c main_v54 : S100000x8.Idx → Elt Ideal .f32) k := by
  obtain ⟨e0, e1, -⟩ := idx_facts2 t
  unfold iblk2
  rw [View.read_apply]
  show V c main_v54 _ = V c main_v54 _
  congr 1
  funext a
  apply Fin.ext
  match a with
  | ⟨0, _⟩ => show win2_0.index t (0 : Fin 2) * 4000 + 1 * (x 0).val = (k 0).val; rw [e0, hk0]; omega
  | ⟨1, _⟩ => show win2_0.index t (1 : Fin 2) * 8 + 1 * (x 1).val = (k 1).val; rw [e1, hk1]; omega

/-- The matrix window's block at every point is the whole matrix. -/
theorem iblk2_1_apply (c : Dev nD) (t : Fin cfg2.N) (x : S8x2.Idx) (k : S8x2.Idx)
    (hk0 : (k 0).val = (x 0).val) (hk1 : (k 1).val = (x 1).val) :
    (iblk2 V c 1 t : Vec Ideal S8x2 .f32) x = (V c main_arg5 : S8x2.Idx → Elt Ideal .f32) k := by
  obtain ⟨-, -, e2, e3, -⟩ := idx_facts2 t
  unfold iblk2
  rw [View.read_apply]
  show V c main_arg5 _ = V c main_arg5 _
  congr 1
  funext a
  apply Fin.ext
  match a with
  | ⟨0, _⟩ => show win2_1.index t (0 : Fin 2) * 8 + 1 * (x 0).val = (k 0).val; rw [e2, hk0]; omega
  | ⟨1, _⟩ => show win2_1.index t (1 : Fin 2) * 2 + 1 * (x 1).val = (k 1).val; rw [e3, hk1]; omega

/-- What point t writes back is block t of the whole-array function of the region's input arrays. -/
theorem flushed2_eq (c : Dev nD) (t : Fin cfg2.N) :
    (dat2 (F := Ideal) V c).flushed 2 t
      = ((cfg2.win 2).blk t).view.read (Elt Ideal) (G2 (V c main_v54) (V c main_arg5)) := by
  show (cfg2.win 2).cut (grid2.coords t) ((dat2 (F := Ideal) V c).after 2 t) = _
  rw [after2_2]
  obtain ⟨-, -, -, -, e4, e5⟩ := idx_facts2 t
  funext j
  show out2_2 (iblk2 V c 0 t) (iblk2 V c 1 t) ((cfg2.win 2).xinj (grid2.coords t) j)
    = G2 (V c main_v54) (V c main_arg5) (((cfg2.win 2).blk t).view.emb j)
  refine (out2_apply (iblk2 V c 0 t) (iblk2 V c 1 t) _).trans ?_
  have hj0 : (j 0).val < 4000 := (j 0).isLt
  have hj1 : (j 1).val < 2 := (j 1).isLt
  refine Finset.sum_congr rfl fun k _ => ?_
  refine congrArg₂ (· * ·) (iblk2_0_apply V c t _ _ ?_ ?_) (iblk2_1_apply V c t _ _ ?_ ?_)
  · show win2_2.index t (0 : Fin 2) * 4000 + 1 * (j 0).val = 4000 * t.val + (j 0).val
    rw [e4]; omega
  · rfl
  · rfl
  · show win2_2.index t (1 : Fin 2) * 2 + 1 * (j 1).val = (j 1).val
    rw [e5]; omega

/-- An entry of the array is in point t's block iff each coordinate is in the block's range on its axis. -/
theorem mem_blk2 (t : Fin cfg2.N) (i : S100000x2.Idx) :
    i ∈ ((cfg2.win 2).blk t).view.set ↔ ∀ a : Fin 2, win2_2.index t a * S4000x2.size a ≤ (i a).val
      ∧ (i a).val < win2_2.index t a * S4000x2.size a + S4000x2.size a := by
  show i ∈ ((View.whole main_v55).slice (win2_2.rect t)).set ↔ _
  rw [View.set_slice_whole, Rect.mem_set_unit]
  exact Iff.rfl

/-- Every entry lies in the block of the point its row divided by 4000 names. -/
theorem cover2 (i : S100000x2.Idx) :
    ∃ t : Fin cfg2.N, (cfg2.win 2).flush t = true ∧ i ∈ ((cfg2.win 2).blk t).view.set := by
  have hi0 : (i 0).val < 100000 := (i 0).isLt
  have hi1 : (i 1).val < 2 := (i 1).isLt
  have hN : cfg2.N = 25 := N_2
  let t : Fin cfg2.N := ⟨(i 0).val / 4000, by rw [hN]; omega⟩
  obtain ⟨-, -, -, -, e4, e5⟩ := idx_facts2 t
  have ht : t.val = (i 0).val / 4000 := rfl
  refine ⟨t, flush2_2 t, ?_⟩
  rw [mem_blk2]
  intro a
  match a with
  | ⟨0, _⟩ =>
    show win2_2.index t (0 : Fin 2) * 4000 ≤ (i 0).val ∧ (i 0).val < win2_2.index t (0 : Fin 2) * 4000 + 4000
    rw [e4, ht]; omega
  | ⟨1, _⟩ =>
    show win2_2.index t (1 : Fin 2) * 2 ≤ (i 1).val ∧ (i 1).val < win2_2.index t (1 : Fin 2) * 2 + 2
    rw [e5]; omega

/-- The output array of region 2 after the region, as one function of the region's input arrays. -/
theorem matmul2_array_eq (c : Dev nD) :
    (dat2 (F := Ideal) V c).arrAt 2 cfg2.N = G2 (V c main_v54) (V c main_arg5) :=
  (dat2 (F := Ideal) V c).arrAt_eq_of_cover 2 (G2 (V c main_v54) (V c main_arg5)) (fun t _ => flushed2_eq V c t) cover2

/-- Entry (n, f) of region 2's output array: row n of the first input array against column f of the matrix. -/
theorem matmul2_array (c : Dev nD) (n : Fin 100000) (f : Fin 2) :
    ((dat2 (F := Ideal) V c).arrAt 2 cfg2.N : S100000x2.Idx → EReal) (ix2 n f)
      = ∑ k : Fin 8, (V c main_v54 (ix2 n k) : EReal) *ₑ (V c main_arg5 (ix2 k f) : EReal) := by
  rw [matmul2_array_eq V c]

/-- The same with the two input arrays named: whatever functions the region finds in them. -/
theorem matmul2_array_of (c : Dev nD) (a0 : S100000x8.Idx → EReal) (a1 : S8x2.Idx → EReal)
    (h0 : V c main_v54 = a0) (h1 : V c main_arg5 = a1) (n : Fin 100000) (f : Fin 2) :
    ((dat2 (F := Ideal) V c).arrAt 2 cfg2.N : S100000x2.Idx → EReal) (ix2 n f) = ∑ k : Fin 8, a0 (ix2 n k) * a1 (ix2 k f) := by
  subst h0 h1
  exact matmul2_array V c n f

end Cert.KernelIdeal.Regions

end
-- ==== Proof.LibRowIndex.lean ====
/-
  A scatter-add of rows and a gather of rows, read at an index.

  Both operations address the rows of a table by an integer read off an index array, one integer per update (or per
  result row): the index array has shape [E, 1], entry (e, 0) naming the row that update (or result) row e goes to
  (or comes from). For the scatter the integer is read signed and NOT clamped: update row e lands on table row n
  exactly when the integer IS n, and an update whose integer is outside the table is dropped. For the gather it is
  read signed and clamped into the table.
-/
import Idealize.ShloMosaic.Lib.ValueIdx

namespace Cert.Lib.RowIndex

open Idealize.ShloMosaic Idealize.ShloMosaic.ValueIdx

/-- The dimension numbers of a scatter of E scalars into a vector of N entries: one index per update, naming the
    entry; no window. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The index array is read at (e, 0): the update's one coordinate on axis 0, the one component of the index vector
    on axis 1. -/
private theorem vec_siIdx {N E : Nat} (wf : ScatterDims.WF ⟨1, ![N]⟩ ⟨2, ![E, 1]⟩ ⟨1, ![E]⟩ [] [0] [0] 1)
    (j : (⟨1, ![E]⟩ : Shape).Idx) (c : Fin (vecDims N E wf).scatterDimsToOperandDims.length) :
    (vecDims N E wf).siIdx j c = ix2 (j 0) 0 := by
  funext b; refine Fin.ext ?_
  match b with
  | ⟨0, _⟩ => rfl
  | ⟨1, _⟩ =>
    have : c.val < 1 := c.isLt
    show c.val = 0
    omega

/-- On the vector's one axis the start is the integer at (e, 0): the axis is the one the index map names. -/
private theorem vec_start {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) (a : Fin 1) :
    (vecDims N E wf).start j idx a = (idx (ix2 (j 0) 0)).toInt := by
  obtain rfl : a = 0 := Subsingleton.elim _ _
  unfold ScatterDims.start
  rw [dif_pos (show (0 : Fin 1) ∈ (vecDims N E wf).scatterDimsToOperandDims from List.mem_singleton.mpr rfl)]
  rw [vec_siIdx]
  rfl

/-- There is no window: the vector's one axis is an inserted one, so the window coordinate on it is 0. -/
private theorem vec_window {N E : Nat} (wf : ScatterDims.WF ⟨1, ![N]⟩ ⟨2, ![E, 1]⟩ ⟨1, ![E]⟩ [] [0] [0] 1)
    (j : (⟨1, ![E]⟩ : Shape).Idx) (a : Fin 1) :
    (vecDims N E wf).window j a = 0 := by
  unfold ScatterDims.window
  rw [dif_neg]
  obtain rfl : a = 0 := Subsingleton.elim _ _
  show (0 : Fin 1) ∉ (List.finRange 1).filter (fun a => decide (a ∉ [(0 : Fin 1)]))
  decide

/-- Update e of a vector scatter lands on entry i exactly when the integer at (e, 0) is i. -/
theorem vecDims_resultIdx?_eq_some_iff {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) (i : (⟨1, ![N]⟩ : Shape).Idx) :
    (vecDims N E wf).resultIdx? j idx = some i ↔ (idx (ix2 (j 0) 0)).toInt = ((i 0).val : Int) := by
  unfold ScatterDims.resultIdx?
  have hi : (i 0).val < N := (i 0).isLt
  constructor
  · -- the landing index exists: read the equality of indices on axis 0
    intro h
    split at h
    · rename_i hb
      have h0 := congrArg Fin.val (congrFun (Option.some.inj h) 0)
      have hb0 := hb 0
      simp only [vec_start, vec_window] at h0 hb0
      omega
    · exact absurd h (by simp)
  · -- the integer is i's coordinate, which is inside the vector
    intro hz
    have hb : ∀ a, 0 ≤ (vecDims N E wf).start j idx a + (vecDims N E wf).window j a ∧
        (vecDims N E wf).start j idx a + (vecDims N E wf).window j a < (⟨1, ![N]⟩ : Shape).size a := by
      intro a
      obtain rfl : a = 0 := Subsingleton.elim _ _
      rw [vec_start, vec_window, hz]
      show (0 : Int) ≤ ((i 0).val : Int) + ((0 : Nat) : Int) ∧ ((i 0).val : Int) + ((0 : Nat) : Int) < (N : Int)
      omega
    rw [dif_pos hb]
    congr 1
    funext a
    obtain rfl : a = 0 := Subsingleton.elim _ _
    refine Fin.ext ?_
    show ((vecDims N E wf).start j idx 0 + (vecDims N E wf).window j 0).toNat = (i 0).val
    rw [vec_start, vec_window, hz]
    omega

/-- The dimension numbers of a scatter of E rows of C entries into a table of N rows: one index per update row,
    naming the table row; the window is the whole row. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The index array is read at (e, 0): the update row's coordinate on axis 0, the one component of the index vector
    on axis 1. -/
private theorem row_siIdx {N E C : Nat} (wf : ScatterDims.WF ⟨2, ![N, C]⟩ ⟨2, ![E, 1]⟩ ⟨2, ![E, C]⟩ [1] [0] [0] 1)
    (j : (⟨2, ![E, C]⟩ : Shape).Idx) (c : Fin (rowDims N E C wf).scatterDimsToOperandDims.length) :
    (rowDims N E C wf).siIdx j c = ix2 (j 0) 0 := by
  funext b; refine Fin.ext ?_
  match b with
  | ⟨0, _⟩ => rfl
  | ⟨1, _⟩ =>
    have : c.val < 1 := c.isLt
    show c.val = 0
    omega

/-- On the table's row axis the start is the integer at (e, 0): the index map names that axis. -/
private theorem row_start0 {N E C w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowDims N E C wf).start j idx 0 = (idx (ix2 (j 0) 0)).toInt := by
  unfold ScatterDims.start
  rw [dif_pos (show (0 : Fin 2) ∈ (rowDims N E C wf).scatterDimsToOperandDims from List.mem_singleton.mpr rfl)]
  rw [row_siIdx]
  rfl

/-- On the column axis the start is 0: the index map does not name it. -/
private theorem row_start1 {N E C w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowDims N E C wf).start j idx 1 = 0 := by
  unfold ScatterDims.start
  rw [dif_neg]
  show (1 : Fin 2) ∉ [(0 : Fin 2)]
  decide

/-- The row axis is an inserted one: the window coordinate on it is 0. -/
private theorem row_window0 {N E C : Nat} (wf : ScatterDims.WF ⟨2, ![N, C]⟩ ⟨2, ![E, 1]⟩ ⟨2, ![E, C]⟩ [1] [0] [0] 1)
    (j : (⟨2, ![E, C]⟩ : Shape).Idx) :
    (rowDims N E C wf).window j 0 = 0 := by
  unfold ScatterDims.window
  rw [dif_neg]
  show (0 : Fin 2) ∉ (List.finRange 2).filter (fun a => decide (a ∉ [(0 : Fin 2)]))
  decide

/-- The column axis is the one kept axis, and the updates' one window axis goes to it: the window coordinate is the
    update's column. -/
private theorem row_window1 {N E C : Nat} (wf : ScatterDims.WF ⟨2, ![N, C]⟩ ⟨2, ![E, 1]⟩ ⟨2, ![E, C]⟩ [1] [0] [0] 1)
    (j : (⟨2, ![E, C]⟩ : Shape).Idx) :
    (rowDims N E C wf).window j 1 = (j 1).val := by
  unfold ScatterDims.window
  have h1 : (1 : Fin 2) ∈ (rowDims N E C wf).sKept := by
    show (1 : Fin 2) ∈ (List.finRange 2).filter (fun a => decide (a ∉ [(0 : Fin 2)]))
    decide
  rw [dif_pos h1]
  rfl

/-- Entry (e, f) of the updates of a row scatter lands on table entry (n, f') exactly when the integer at (e, 0) is n
    and f = f'. -/
theorem rowDims_resultIdx?_eq_some_iff {N E C w : Nat}
    (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) (i : (⟨2, ![N, C]⟩ : Shape).Idx) :
    (rowDims N E C wf).resultIdx? j idx = some i ↔
      (idx (ix2 (j 0) 0)).toInt = ((i 0).val : Int) ∧ (j 1).val = (i 1).val := by
  unfold ScatterDims.resultIdx?
  have hi0 : (i 0).val < N := idx2_lt0 i
  have hi1 : (i 1).val < C := idx2_lt1 i
  have hj1 : (j 1).val < C := idx2_lt1 j
  constructor
  · -- the landing index exists: read the equality of indices on each axis
    intro h
    split at h
    · rename_i hb
      have h0 := congrArg Fin.val (congrFun (Option.some.inj h) 0)
      have h1 := congrArg Fin.val (congrFun (Option.some.inj h) 1)
      have hb0 := hb 0
      simp only [row_start0, row_start1, row_window0, row_window1] at h0 h1 hb0
      omega
    · exact absurd h (by simp)
  · -- the integer is i's row, inside the table; the column is the update's own, inside the row
    rintro ⟨hz, hc⟩
    have hb : ∀ a, 0 ≤ (rowDims N E C wf).start j idx a + (rowDims N E C wf).window j a ∧
        (rowDims N E C wf).start j idx a + (rowDims N E C wf).window j a < (⟨2, ![N, C]⟩ : Shape).size a := by
      rw [Fin.forall_fin_two]
      refine ⟨?_, ?_⟩
      · rw [row_start0, row_window0, hz]
        show (0 : Int) ≤ ((i 0).val : Int) + ((0 : Nat) : Int) ∧ ((i 0).val : Int) + ((0 : Nat) : Int) < (N : Int)
        omega
      · rw [row_start1, row_window1]
        show (0 : Int) ≤ 0 + ((j 1).val : Int) ∧ (0 : Int) + ((j 1).val : Int) < (C : Int)
        omega
    rw [dif_pos hb]
    congr 1
    funext a
    refine Fin.ext ?_
    match a with
    | ⟨0, _⟩ =>
      show ((rowDims N E C wf).start j idx 0 + (rowDims N E C wf).window j 0).toNat = (i 0).val
      rw [row_start0, row_window0, hz]
      omega
    | ⟨1, _⟩ =>
      show ((rowDims N E C wf).start j idx 1 + (rowDims N E C wf).window j 1).toNat = (i 1).val
      rw [row_start1, row_window1]
      omega

/-- The dimension numbers of a gather of E rows out of a table of N rows of C entries: one index per result row. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The index array is read at (e, 0): the result row's coordinate on axis 0 (the result's one batch axis), the one
    component of the index vector on axis 1. -/
private theorem rowGather_siIdx {N E C : Nat}
    (wf : GatherDims.WF ⟨2, ![N, C]⟩ ⟨2, ![E, 1]⟩ ⟨2, ![E, C]⟩ [1] [0] [] [0] [] 1 ![1, C])
    (e : Fin E) (f : Fin C) (c : Fin (rowGatherDims N E C wf).startIndexMap.length) :
    (rowGatherDims N E C wf).siIdx (ix2 e f) c = ix2 e 0 := by
  funext b; refine Fin.ext ?_
  match b with
  | ⟨0, _⟩ => rfl
  | ⟨1, _⟩ =>
    have : c.val < 1 := c.isLt
    show c.val = 0
    omega

/-- The row gather read at (e, f): the table at the row the integer at (e, 0) names, read signed and clamped into
    [0, N - 1], same column. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowGatherDims N E C wf) x idx (ix2 e f)
      = x (ix2 ⟨min (idx (ix2 e 0)).toInt.toNat (N - 1), by omega⟩ f) := by
  unfold Host.gather
  congr 1
  funext a
  refine Fin.ext ?_
  match a with
  | ⟨0, _⟩ =>
    -- the row axis: collapsed (no offset), not batching, named by the start index map, slice size 1: the clamped integer
    show (rowGatherDims N E C wf).start (ix2 e f) idx 0 + (rowGatherDims N E C wf).batchCoord (ix2 e f) 0
        + (rowGatherDims N E C wf).offCoord (ix2 e f) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    rw [rowGather_siIdx]
    rfl
  | ⟨1, _⟩ =>
    -- the column axis: not named by the start index map (start 0), not batching, the one offset axis: the result's column
    show (rowGatherDims N E C wf).start (ix2 e f) idx 1 + (rowGatherDims N E C wf).batchCoord (ix2 e f) 1
        + (rowGatherDims N E C wf).offCoord (ix2 e f) 1 = f.val
    have hs : (rowGatherDims N E C wf).start (ix2 e f) idx 1 = 0 := by
      unfold GatherDims.start
      rw [dif_neg]
      show (1 : Fin 2) ∉ [(0 : Fin 2)]
      decide
    have ho : (rowGatherDims N E C wf).offCoord (ix2 e f) 1 = f.val := by
      have h1 : (1 : Fin 2) ∈ (rowGatherDims N E C wf).sKept := by
        show (1 : Fin 2) ∈ (List.finRange 2).filter (fun a => decide (a ∉ [(0 : Fin 2)] ++ ([] : List (Fin 2))))
        decide
      unfold GatherDims.offCoord
      rw [dif_pos h1]
      rfl
    rw [hs, GatherDims.batchCoord_eq_zero _ _ _ List.not_mem_nil, ho]
    omega

end Cert.Lib.RowIndex
-- ==== Proof.LibScatterSum.lean ====
/-
  The accumulating scatter at the ideal instance, read at an index as a sum over the update rows.

  At the ideal instance a scatter-add leaves, at each entry of its operand, the entry plus the exact sum of the updates
  that land there. With one integer per update row naming the row it goes to, entry n of a vector receives the
  updates e whose integer is n; entry (n, f) of a table receives, from each update row e whose integer is n, its
  entry (e, f). Updates whose integer names no row contribute nothing.
-/
import proofs.«181032_j5677946765525_1_alg».proof.Proof.LibRowIndex
import Idealize.ShloMosaic.PureOps.Ideal
import Idealize.ShloMosaic.PureOps.Contract

noncomputable section

namespace Cert.Lib.RowIndex

open Idealize.ShloMosaic Idealize.ShloMosaic.ValueIdx

/-- A vector's index set is its one coordinate's range. -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Entry n of a vector after a scatter-add of E scalars: the entry, plus the updates whose integer is n. -/
theorem scatterVec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (n : Fin N) :
    Host.scatterAdd (F := Ideal) (φ := .f32) (vecDims N E wf) x idx upd (ix1 n)
      = x (ix1 n) + ∑ e : Fin E, if (idx (ix2 e 0)).toInt = (n.val : Int) then upd (ix1 e) else 0 := by
  unfold Host.scatterAdd
  rw [Ideal.hostScatterAdd_def]
  unfold Ideal.hostScatterAdd
  simp only [vecDims_resultIdx?_eq_some_iff]
  rw [Finset.sum_filter, sum_idx1]
  rfl

/-- Entry (n, f) of a table after a scatter-add of E rows: the entry, plus entry f of each update row whose integer
    is n. -/
theorem scatterRow_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (f : Fin C) :
    Host.scatterAdd (F := Ideal) (φ := .f32) (rowDims N E C wf) x idx upd (ix2 n f)
      = x (ix2 n f) + ∑ e : Fin E, if (idx (ix2 e 0)).toInt = (n.val : Int) then upd (ix2 e f) else 0 := by
  unfold Host.scatterAdd
  rw [Ideal.hostScatterAdd_def]
  unfold Ideal.hostScatterAdd
  simp only [rowDims_resultIdx?_eq_some_iff]
  rw [Finset.sum_filter, sum_idx2]
  congr 1
  refine Finset.sum_congr rfl fun e _ => ?_
  show (∑ b : Fin C, if (idx (ix2 e 0)).toInt = (n.val : Int) ∧ b.val = f.val then upd (ix2 e b) else 0) = _
  by_cases h : (idx (ix2 e 0)).toInt = (n.val : Int)
  · rw [if_pos h, Finset.sum_eq_single f]
    · rw [if_pos ⟨h, rfl⟩]
    · intro b _ hb
      rw [if_neg (fun hv => hb (Fin.ext hv.2))]
    · intro hf; exact absurd (Finset.mem_univ f) hf
  · rw [if_neg h]
    exact Finset.sum_eq_zero fun b _ => if_neg (fun hv => h hv.1)

end Cert.Lib.RowIndex

end
-- ==== Proof.LibVecGather.lean ====
/-
  A gather of scalars out of a vector, read at an index.

  The index array has shape [E, 1]; entry (e, 0) names the entry of the vector that result entry e reads. The
  integer is read signed and clamped into the vector.
-/
import Idealize.ShloMosaic.Lib.ValueIdx

namespace Cert.Lib.VecGather

open Idealize.ShloMosaic Idealize.ShloMosaic.ValueIdx

/-- The dimension numbers of a gather of E scalars out of a vector of N entries: one index per result entry. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The index array is read at (e, 0): the result's one coordinate on axis 0, the one component of the index vector
    on axis 1. -/
private theorem vecGather_siIdx {N E : Nat}
    (wf : GatherDims.WF ⟨1, ![N]⟩ ⟨2, ![E, 1]⟩ ⟨1, ![E]⟩ [] [0] [] [0] [] 1 ![1])
    (e : Fin E) (c : Fin (vecGatherDims N E wf).startIndexMap.length) :
    (vecGatherDims N E wf).siIdx (ix1 e) c = ix2 e 0 := by
  funext b; refine Fin.ext ?_
  match b with
  | ⟨0, _⟩ => rfl
  | ⟨1, _⟩ =>
    have : c.val < 1 := c.isLt
    show c.val = 0
    omega

/-- The vector gather read at e: the vector at the entry the integer at (e, 0) names, read signed and clamped into
    [0, N - 1]. -/
theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  unfold Host.gather
  congr 1
  funext a
  refine Fin.ext ?_
  match a with
  | ⟨0, _⟩ =>
    -- the one axis: collapsed (no offset), not batching, named by the start index map, slice size 1: the clamped integer
    show (vecGatherDims N E wf).start (ix1 e) idx 0 + (vecGatherDims N E wf).batchCoord (ix1 e) 0
        + (vecGatherDims N E wf).offCoord (ix1 e) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    rw [vecGather_siIdx]
    rfl

end Cert.Lib.VecGather
-- ==== Proof.LibEdgeAggregate.lean ====
/-
  The aggregation between two layers as the kernel's program does it on the host, read at an index.

  Rows of a table h' are gathered at the edges' source rows, widened to f32 (the identity on the extended reals) and
  scatter-added into a zero table at the edges' target integers: entry (n, f) of the result is
      0 + Σ over the edges e whose target integer is n of h'(source row of e, f).
  Stated for any sizes; the source integers arrive already counted from the end when negative.
-/
import proofs.«181032_j5677946765525_1_alg».proof.Proof.LibScatterSum
import proofs.«181032_j5677946765525_1_alg».proof.Proof.LibColumnBroadcast
import Idealize.ShloMosaic.PureOps.Ideal.Laws

noncomputable section

namespace Cert.Gcn

open Idealize.ShloMosaic Idealize.ShloMosaic.ValueIdx Cert.Lib.RowIndex

/-- An [E] vector laid out as an [E, 1] column, read at (e, z). -/
theorem column_apply' {α : Type} {E : Nat} (v : (⟨1, ![E]⟩ : Shape).Idx → α)
    (h : (⟨1, ![E]⟩ : Shape).BroadcastsInDim ⟨2, ![E, 1]⟩ ![0]) (e : Fin E) (z : Fin 1) :
    broadcastInDim ⟨2, ![E, 1]⟩ ![0] h v (ix2 e z) = v (ix1 e) := by
  refine broadcastInDim_apply ![0] h v (ix2 e z) (ix1 e) fun ax => ?_
  match ax with
  | ⟨0, _⟩ =>
    show e.val = if E = 1 then 0 else e.val
    split
    · have := e.isLt; omega
    · rfl

/-- Gather the rows of h' at the edges' sources, widen, scatter-add into zeros at the edges' targets. -/
theorem aggregate_apply {N E C : Nat} {φ : FTy} (hN : 0 < N) (hlt : φ.bits < FTy.f32.bits)
    (wfs : ScatterDims.WF ⟨2, ![N, C]⟩ ⟨2, ![E, 1]⟩ ⟨2, ![E, C]⟩ [1] [0] [0] 1)
    (wfg : GatherDims.WF ⟨2, ![N, C]⟩ ⟨2, ![E, 1]⟩ ⟨2, ![E, C]⟩ [1] [0] [] [0] [] 1 ![1, C])
    (hb0 : (⟨0, ![]⟩ : Shape).BroadcastsInDim ⟨2, ![N, C]⟩ ![])
    (hbc : (⟨1, ![E]⟩ : Shape).BroadcastsInDim ⟨2, ![E, 1]⟩ ![0])
    (src dst : IVec ⟨1, ![E]⟩ 32) (h' : FVec Ideal ⟨2, ![N, C]⟩ φ) (n : Fin N) (f : Fin C) :
    Host.scatterAdd (F := Ideal) (φ := .f32) (rowDims N E C wfs)
        (broadcastInDim ⟨2, ![N, C]⟩ ![] hb0 (constant (F := Ideal) ⟨0, ![]⟩ .f32 0x00000000#32))
        (broadcastInDim ⟨2, ![E, 1]⟩ ![0] hbc dst)
        (extf .f32 (Host.gather (rowGatherDims N E C wfg) h' (broadcastInDim ⟨2, ![E, 1]⟩ ![0] hbc src)) hlt) (ix2 n f)
      = 0 + ∑ e : Fin E, if (dst (ix1 e)).toInt = (n.val : Int)
          then h' (ix2 ⟨min (src (ix1 e)).toInt.toNat (N - 1), by omega⟩ f) else 0 := by
  rw [scatterRow_apply]
  congr 1
  · show Ideal.ofBits .f32 0x00000000#32 = 0
    exact Ideal.ofBits_zero_f32
  · refine Finset.sum_congr rfl fun e _ => ?_
    rw [column_apply' dst hbc e 0]
    refine if_congr Iff.rfl ?_ rfl
    show Host.gather (rowGatherDims N E C wfg) h' (broadcastInDim ⟨2, ![E, 1]⟩ ![0] hbc src) (ix2 e f) = _
    have hc := column_apply' src hbc e 0
    refine (rowGather_apply hN wfg h' _ e f).trans ?_
    refine congrArg (fun a => h' (ix2 a f)) (Fin.ext ?_)
    show min ((broadcastInDim ⟨2, ![E, 1]⟩ ![0] hbc src) (ix2 e 0)).toInt.toNat (N - 1) = min (src (ix1 e)).toInt.toNat (N - 1)
    rw [hc]

end Cert.Gcn

end
-- ==== Proof.LibSelfLoops.lean ====
/-
  An edge list with the nodes' own loops appended.

  Joining an array over E edges with an array over N nodes gives an array over T = E + N positions: position e < E
  reads the first array at e, position E + j reads the second at j. When the second array is the nodes' own indices
  0 … N - 1 (as 32-bit integers, N below 2 ^ 31), the appended position E + j carries the integer j, which read signed
  is j. So a sum over all T positions of the terms whose integer is a given node n is the sum over the E edges whose
  integer is n, plus the one term of n's own loop.
-/
import Idealize.ShloMosaic.Lib.Pipeline.Value
import Idealize.ShloMosaic.Lib.ValueIdx

noncomputable section

namespace Cert.Lib.SelfLoops

open Idealize.ShloMosaic Idealize.ShloMosaic.ValueIdx

/-- Position e of the first E positions. -/
abbrev posL {E N T : Nat} (hT : E + N = T) (e : Fin E) : Fin T := Fin.cast hT (Fin.castAdd N e)
/-- Position E + j, among the last N positions. -/
abbrev posR {E N T : Nat} (hT : E + N = T) (j : Fin N) : Fin T := Fin.cast hT (Fin.natAdd E j)

/-- The joined array at one of the first E positions is the first array there. -/
theorem cat_left {α : Type} {E N T : Nat} (hT : E + N = T) (x : (⟨1, ![E]⟩ : Shape).Idx → α) (y : (⟨1, ![N]⟩ : Shape).Idx → α)
    (h : Shape.Concatenates [(⟨1, ![E]⟩ : Shape), (⟨1, ![N]⟩ : Shape)] ⟨1, ![T]⟩ 0) (e : Fin E) :
    concatenate (⟨1, ![T]⟩ : Shape) 0 [⟨(⟨1, ![E]⟩ : Shape), x⟩, ⟨(⟨1, ![N]⟩ : Shape), y⟩] h (ix1 (posL hT e)) = x (ix1 e) := by
  refine concatenate_pair_apply_left (0 : Fin 1) x y h (ix1 (posL hT e)) rfl (ix1 e) ?_
  intro b
  match b with
  | ⟨0, _⟩ => rfl

/-- The joined array at position E + j is the second array at j. -/
theorem cat_right {α : Type} {E N T : Nat} (hT : E + N = T) (x : (⟨1, ![E]⟩ : Shape).Idx → α) (y : (⟨1, ![N]⟩ : Shape).Idx → α)
    (h : Shape.Concatenates [(⟨1, ![E]⟩ : Shape), (⟨1, ![N]⟩ : Shape)] ⟨1, ![T]⟩ 0) (j : Fin N) :
    concatenate (⟨1, ![T]⟩ : Shape) 0 [⟨(⟨1, ![E]⟩ : Shape), x⟩, ⟨(⟨1, ![N]⟩ : Shape), y⟩] h (ix1 (posR hT j)) = y (ix1 j) := by
  refine concatenate_pair_apply_right (0 : Fin 1) x y h (ix1 (posR hT j)) rfl rfl (ix1 j) ?_ ?_
  · intro b hb
    match b with
    | ⟨0, _⟩ => exact absurd rfl hb
  · show j.val + E = E + j.val
    omega

/-- The integer j < N ≤ 2 ^ 31, read signed, is j. -/
theorem toInt_ofNat_of_lt {N j : Nat} (hN : N ≤ 2 ^ 31) (hj : j < N) : (BitVec.ofNat 32 j).toInt = (j : Int) := by
  have hm : j % 2 ^ 32 = j := Nat.mod_eq_of_lt (by omega)
  rw [BitVec.toInt_eq_toNat_cond, BitVec.toNat_ofNat, hm, if_pos (by omega)]

/-- A sum over the T = E + N positions is the sum over the first E plus the sum over the last N. -/
private theorem sum_split {M : Type} [AddCommMonoid M] {E N T : Nat} (hT : E + N = T) (g : Fin T → M) :
    ∑ i, g i = (∑ e : Fin E, g (posL hT e)) + ∑ j : Fin N, g (posR hT j) := by
  subst hT
  simpa using Fin.sum_univ_add g

/-- A sum over the T positions of the terms whose integer — an edge's, or a node's own index — is n: the sum over
    the edges whose integer is n, plus n's own term. -/
theorem sum_cat_filter {M : Type} [AddCommMonoid M] {E N T : Nat} (hT : E + N = T) (hN : N ≤ 2 ^ 31)
    (d : (⟨1, ![E]⟩ : Shape).Idx → BitVec 32)
    (h : Shape.Concatenates [(⟨1, ![E]⟩ : Shape), (⟨1, ![N]⟩ : Shape)] ⟨1, ![T]⟩ 0) (n : Fin N) (g : Fin T → M) :
    (∑ i : Fin T, if (concatenate (⟨1, ![T]⟩ : Shape) 0
          [⟨(⟨1, ![E]⟩ : Shape), d⟩, ⟨(⟨1, ![N]⟩ : Shape), iotaInDim (⟨1, ![N]⟩ : Shape) 32 0⟩] h (ix1 i)).toInt = (n.val : Int)
        then g i else 0)
      = (∑ e : Fin E, if (d (ix1 e)).toInt = (n.val : Int) then g (posL hT e) else 0) + g (posR hT n) := by
  rw [sum_split hT]
  congr 1
  · -- an edge position carries the edge's integer
    refine Finset.sum_congr rfl fun e _ => ?_
    rw [cat_left hT]
  · -- position E + j carries the integer j, which is n exactly when j = n: one term is left
    have hterm : ∀ j : Fin N,
        (if (concatenate (⟨1, ![T]⟩ : Shape) 0
            [⟨(⟨1, ![E]⟩ : Shape), d⟩, ⟨(⟨1, ![N]⟩ : Shape), iotaInDim (⟨1, ![N]⟩ : Shape) 32 0⟩] h
              (ix1 (posR hT j))).toInt = (n.val : Int)
          then g (posR hT j) else 0) = if j = n then g (posR hT j) else 0 := by
      intro j
      rw [cat_right hT]
      have hj : (iotaInDim (⟨1, ![N]⟩ : Shape) 32 0 (ix1 j)).toInt = (j.val : Int) :=
        toInt_ofNat_of_lt hN j.isLt
      rw [hj]
      by_cases hjn : j = n
      · rw [if_pos hjn, if_pos (by rw [hjn])]
      · rw [if_neg hjn, if_neg]
        intro hh
        exact hjn (Fin.ext (Int.ofNat_inj.mp hh))
    rw [Finset.sum_congr rfl fun j _ => hterm j, Finset.sum_ite_eq', if_pos (Finset.mem_univ n)]

end Cert.Lib.SelfLoops

end
-- ==== Proof.LibEdgeStages.lean ====
/-
  A graph-convolution layer over an edge list as the host computes it, stage by stage, read at an index on the
  extended reals, for any sizes; and what appending edges of weight zero changes: nothing.

  An edge e carries a source integer, a target integer and a weight w e. An integer names a row of a table of N rows
  after c is added to it when it is negative (wrapI) and it is read signed and clamped into the table (rowOf).
    degree      deg n     = 0 + Σ over the edges whose target integer is n of w e
    factor      norm e    = q(source row of e) · w e · q(target row of e)        for any vector q over the rows
    aggregate   agg (n,f) = 0 + Σ over the edges whose target integer is n of norm e · H(source row of e, f)
  If the edge list is lengthened by edges of weight 0, the new edges' factors are q · 0 · q = 0 and their terms
  0 · H = 0 on the extended reals whatever q and H hold (0 · ±∞ = 0 there), so degree and aggregate are unchanged.
-/
import proofs.«181032_j5677946765525_1_alg».proof.Proof.LibScatterSum
import proofs.«181032_j5677946765525_1_alg».proof.Proof.LibVecGather
import proofs.«181032_j5677946765525_1_alg».proof.Proof.LibEdgeAggregate
import proofs.«181032_j5677946765525_1_alg».proof.Proof.LibColumnBroadcast
import proofs.«181032_j5677946765525_1_alg».proof.Proof.LibSelfLoops
import Idealize.ShloMosaic.Lib.IdealHost
import Idealize.ShloMosaic.PureOps.Ideal.Laws

noncomputable section

namespace Cert.Lib.EdgeStages

open Idealize.ShloMosaic Idealize.ShloMosaic.ValueIdx Cert.Lib.RowIndex Cert.Lib.VecGather Cert.Gcn Cert.Lib.SelfLoops

abbrev S0 : Shape := ⟨0, ![]⟩
abbrev V1 (n : Nat) : Shape := ⟨1, ![n]⟩
abbrev M2 (a b : Nat) : Shape := ⟨2, ![a, b]⟩

/-! ## The mathematics -/

/-- An integer counted from the end when negative: c is added to it. -/
def wrapI (c b : BitVec 32) : BitVec 32 := Scalar.select (IntOp.cmpi .slt b 0#32) (IntOp.addi b c) b

/-- The row of a table of N rows an integer names: read signed, clamped into the table. -/
def rowOf {N : Nat} (hN : 0 < N) (b : BitVec 32) : Fin N := ⟨min b.toInt.toNat (N - 1), by omega⟩

/-- The degree of node n: the weights of the edges whose target integer is n. -/
def degE {N E : Nat} (tgt : (V1 E).Idx → BitVec 32) (w : (V1 E).Idx → EReal) (n : Fin N) : EReal :=
  0 + ∑ e : Fin E, if (tgt (ix1 e)).toInt = (n.val : Int) then w (ix1 e) else 0

/-- The factor of edge e: q at its source row, its weight, q at its target row. -/
def normE {N E : Nat} (hN : 0 < N) (c : BitVec 32) (q : (V1 N).Idx → EReal) (src tgt : (V1 E).Idx → BitVec 32)
    (w : (V1 E).Idx → EReal) (e : Fin E) : EReal :=
  q (ix1 (rowOf hN (wrapI c (src (ix1 e))))) * w (ix1 e) * q (ix1 (rowOf hN (wrapI c (tgt (ix1 e)))))

/-- Entry (n, f) of the aggregate: over the edges whose target integer is n, the edge's factor times H at its source
    row. -/
def aggE {N E C : Nat} (hN : 0 < N) (c : BitVec 32) (src tgt : (V1 E).Idx → BitVec 32) (nrm : Fin E → EReal)
    (H : (M2 N C).Idx → EReal) (n : Fin N) (f : Fin C) : EReal :=
  0 + ∑ e : Fin E, if (tgt (ix1 e)).toInt = (n.val : Int)
    then nrm e * H (ix2 (rowOf hN (wrapI c (src (ix1 e)))) f) else 0

/-! ## The host's operations, read at an index -/

/-- The host's "count a negative integer from the end": compare with 0, add c, select. -/
def wrapVec {E : Nat} (hb : S0.BroadcastsInDim (V1 E) ![]) (c : BitVec 32) (v : IVec (V1 E) 32) : IVec (V1 E) 32 :=
  select (cmpi .slt v (broadcastInDim (V1 E) ![] hb (constantI S0 32 0#32)))
    (addi v (broadcastInDim (V1 E) ![] hb (constantI S0 32 c))) v

theorem wrapVec_apply {E : Nat} (hb : S0.BroadcastsInDim (V1 E) ![]) (c : BitVec 32) (v : IVec (V1 E) 32) (e : Fin E) :
    wrapVec hb c v (ix1 e) = wrapI c (v (ix1 e)) := by
  show Scalar.select (IntOp.cmpi .slt (v (ix1 e)) (broadcastInDim (V1 E) ![] hb (constantI S0 32 0#32) (ix1 e)))
      (IntOp.addi (v (ix1 e)) (broadcastInDim (V1 E) ![] hb (constantI S0 32 c) (ix1 e))) (v (ix1 e)) = _
  rw [ValueIdx.broadcastInDim_scalar_apply, ValueIdx.broadcastInDim_scalar_apply]
  rfl

/-- The zero table the host scatters into reads 0 everywhere. -/
theorem zeros_apply {T : Shape} (h : S0.BroadcastsInDim T ![]) (j : T.Idx) :
    broadcastInDim T ![] h (constant (F := Ideal) S0 .f32 0x00000000#32) j = (0 : EReal) := by
  rw [ValueIdx.broadcastInDim_scalar_apply]
  show Ideal.ofBits .f32 0x00000000#32 = 0
  exact Ideal.ofBits_zero_f32

/-- The weights scatter-added into a zero vector at the targets: the degree. -/
theorem deg_host {N E : Nat} (wf : ScatterDims.WF (V1 N) (M2 E 1) (V1 E) [] [0] [0] 1)
    (hb0 : S0.BroadcastsInDim (V1 N) ![]) (hbc : (V1 E).BroadcastsInDim (M2 E 1) ![0])
    (tgt : IVec (V1 E) 32) (w : FVec Ideal (V1 E) .f32) (n : Fin N) :
    Host.scatterAdd (F := Ideal) (φ := .f32) (vecDims N E wf)
        (broadcastInDim (V1 N) ![] hb0 (constant (F := Ideal) S0 .f32 0x00000000#32))
        (broadcastInDim (M2 E 1) ![0] hbc tgt) w (ix1 n) = degE tgt w n := by
  rw [scatterVec_apply, zeros_apply]
  unfold degE
  congr 1
  refine Finset.sum_congr rfl fun e _ => ?_
  rw [column_apply' tgt hbc e 0]

/-- The host's factor vector: gather q at the wrapped sources, times the weights, times q gathered at the wrapped
    targets. -/
def normVec {N E : Nat} (wfg : GatherDims.WF (V1 N) (M2 E 1) (V1 E) [] [0] [] [0] [] 1 ![1])
    (hbc : (V1 E).BroadcastsInDim (M2 E 1) ![0]) (hb : S0.BroadcastsInDim (V1 E) ![]) (c : BitVec 32)
    (q : FVec Ideal (V1 N) .f32) (src tgt : IVec (V1 E) 32) (w : FVec Ideal (V1 E) .f32) : FVec Ideal (V1 E) .f32 :=
  mulf (mulf (Host.gather (vecGatherDims N E wfg) q (broadcastInDim (M2 E 1) ![0] hbc (wrapVec hb c src))) w)
    (Host.gather (vecGatherDims N E wfg) q (broadcastInDim (M2 E 1) ![0] hbc (wrapVec hb c tgt)))

theorem gather_wrapped {α : Type} {N E : Nat} (hN : 0 < N)
    (wfg : GatherDims.WF (V1 N) (M2 E 1) (V1 E) [] [0] [] [0] [] 1 ![1])
    (hbc : (V1 E).BroadcastsInDim (M2 E 1) ![0]) (hb : S0.BroadcastsInDim (V1 E) ![]) (c : BitVec 32)
    (q : (V1 N).Idx → α) (v : IVec (V1 E) 32) (e : Fin E) :
    Host.gather (vecGatherDims N E wfg) q (broadcastInDim (M2 E 1) ![0] hbc (wrapVec hb c v)) (ix1 e)
      = q (ix1 (rowOf hN (wrapI c (v (ix1 e))))) := by
  refine (vecGather_apply hN wfg q _ e).trans ?_
  refine congrArg (fun a => q (ix1 a)) (Fin.ext ?_)
  show min ((broadcastInDim (M2 E 1) ![0] hbc (wrapVec hb c v)) (ix2 e 0)).toInt.toNat (N - 1)
    = min (wrapI c (v (ix1 e))).toInt.toNat (N - 1)
  rw [column_apply' (wrapVec hb c v) hbc e 0, wrapVec_apply]

theorem normVec_apply {N E : Nat} (hN : 0 < N) (wfg : GatherDims.WF (V1 N) (M2 E 1) (V1 E) [] [0] [] [0] [] 1 ![1])
    (hbc : (V1 E).BroadcastsInDim (M2 E 1) ![0]) (hb : S0.BroadcastsInDim (V1 E) ![]) (c : BitVec 32)
    (q : FVec Ideal (V1 N) .f32) (src tgt : IVec (V1 E) 32) (w : FVec Ideal (V1 E) .f32) (e : Fin E) :
    normVec wfg hbc hb c q src tgt w (ix1 e) = normE hN c q src tgt w e := by
  show (Host.gather (vecGatherDims N E wfg) q (broadcastInDim (M2 E 1) ![0] hbc (wrapVec hb c src)) (ix1 e) * w (ix1 e))
      * Host.gather (vecGatherDims N E wfg) q (broadcastInDim (M2 E 1) ![0] hbc (wrapVec hb c tgt)) (ix1 e) = _
  rw [gather_wrapped hN, gather_wrapped hN]
  rfl

/-- The host's gather of the rows of H at the wrapped sources, read at (e, f). -/
theorem rows_wrapped {α : Type} {N E C : Nat} (hN : 0 < N)
    (wfg : GatherDims.WF (M2 N C) (M2 E 1) (M2 E C) [1] [0] [] [0] [] 1 ![1, C])
    (hbc : (V1 E).BroadcastsInDim (M2 E 1) ![0]) (hb : S0.BroadcastsInDim (V1 E) ![]) (c : BitVec 32)
    (H : (M2 N C).Idx → α) (v : IVec (V1 E) 32) (e : Fin E) (f : Fin C) :
    Host.gather (rowGatherDims N E C wfg) H (broadcastInDim (M2 E 1) ![0] hbc (wrapVec hb c v)) (ix2 e f)
      = H (ix2 (rowOf hN (wrapI c (v (ix1 e)))) f) := by
  refine (rowGather_apply hN wfg H _ e f).trans ?_
  refine congrArg (fun a => H (ix2 a f)) (Fin.ext ?_)
  show min ((broadcastInDim (M2 E 1) ![0] hbc (wrapVec hb c v)) (ix2 e 0)).toInt.toNat (N - 1)
    = min (wrapI c (v (ix1 e))).toInt.toNat (N - 1)
  rw [column_apply' (wrapVec hb c v) hbc e 0, wrapVec_apply]

/-- Messages scatter-added into a zero table at the targets, when message (e, f) is the factor column at (e, 0)
    times the gathered row at (e, f): the aggregate. -/
theorem agg_host_msg {N E C : Nat} (hN : 0 < N)
    (wfs : ScatterDims.WF (M2 N C) (M2 E 1) (M2 E C) [1] [0] [0] 1)
    (wfg : GatherDims.WF (M2 N C) (M2 E 1) (M2 E C) [1] [0] [] [0] [] 1 ![1, C])
    (hb0 : S0.BroadcastsInDim (M2 N C) ![]) (hbc : (V1 E).BroadcastsInDim (M2 E 1) ![0])
    (hb : S0.BroadcastsInDim (V1 E) ![]) (c : BitVec 32) (src tgt : IVec (V1 E) 32)
    (nrm : FVec Ideal (V1 E) .f32) (H : FVec Ideal (M2 N C) .f32) (msg : (M2 E C).Idx → EReal)
    (hmsg : ∀ (e : Fin E) (f : Fin C), msg (ix2 e f)
      = broadcastInDim (M2 E 1) ![0] hbc nrm (ix2 e 0)
        * Host.gather (rowGatherDims N E C wfg) H (broadcastInDim (M2 E 1) ![0] hbc (wrapVec hb c src)) (ix2 e f))
    (n : Fin N) (f : Fin C) :
    Host.scatterAdd (F := Ideal) (φ := .f32) (rowDims N E C wfs)
        (broadcastInDim (M2 N C) ![] hb0 (constant (F := Ideal) S0 .f32 0x00000000#32))
        (broadcastInDim (M2 E 1) ![0] hbc tgt) msg (ix2 n f)
      = aggE hN c src tgt (fun e => nrm (ix1 e)) H n f := by
  rw [scatterRow_apply, zeros_apply]
  unfold aggE
  congr 1
  refine Finset.sum_congr rfl fun e _ => ?_
  rw [column_apply' tgt hbc e 0, hmsg e f, column_apply' nrm hbc e 0, rows_wrapped hN]

/-- The same when the messages are formed on the host: the factor column spread over the C columns, times the
    gathered rows. -/
theorem agg_host_mul {N E C : Nat} (hN : 0 < N)
    (wfs : ScatterDims.WF (M2 N C) (M2 E 1) (M2 E C) [1] [0] [0] 1)
    (wfg : GatherDims.WF (M2 N C) (M2 E 1) (M2 E C) [1] [0] [] [0] [] 1 ![1, C])
    (hb0 : S0.BroadcastsInDim (M2 N C) ![]) (hbc : (V1 E).BroadcastsInDim (M2 E 1) ![0])
    (hb : S0.BroadcastsInDim (V1 E) ![]) (hsp : (M2 E 1).BroadcastsInDim (M2 E C) ![0, 1])
    (c : BitVec 32) (src tgt : IVec (V1 E) 32)
    (nrm : FVec Ideal (V1 E) .f32) (H : FVec Ideal (M2 N C) .f32) (n : Fin N) (f : Fin C) :
    Host.scatterAdd (F := Ideal) (φ := .f32) (rowDims N E C wfs)
        (broadcastInDim (M2 N C) ![] hb0 (constant (F := Ideal) S0 .f32 0x00000000#32))
        (broadcastInDim (M2 E 1) ![0] hbc tgt)
        (mulf (broadcastInDim (M2 E C) ![0, 1] hsp (broadcastInDim (M2 E 1) ![0] hbc nrm))
          (Host.gather (rowGatherDims N E C wfg) H (broadcastInDim (M2 E 1) ![0] hbc (wrapVec hb c src)))) (ix2 n f)
      = aggE hN c src tgt (fun e => nrm (ix1 e)) H n f := by
  refine agg_host_msg hN wfs wfg hb0 hbc hb c src tgt nrm H _ (fun e f => ?_) n f
  show broadcastInDim (M2 E C) ![0, 1] hsp (broadcastInDim (M2 E 1) ![0] hbc nrm) (ix2 e f) * _ = _
  rw [Cert.LibColumnBroadcast.broadcastInDim_a1_ab_apply]

/-! ## Appending edges of weight zero -/

/-- A sum over E + P positions whose last P terms vanish is the sum over the first E. -/
theorem sum_pad {M : Type} [AddCommMonoid M] {E P T : Nat} (hT : E + P = T) (g : Fin T → M)
    (hz : ∀ j : Fin P, g (posR hT j) = 0) : ∑ i, g i = ∑ e : Fin E, g (posL hT e) := by
  subst hT
  rw [Fin.sum_univ_add g]
  have h0 : ∑ j : Fin P, g (Fin.natAdd E j) = 0 := Finset.sum_eq_zero fun j _ => hz j
  rw [h0, add_zero]
  rfl

/-- The degree is unchanged. -/
theorem degE_pad {N E P T : Nat} (hT : E + P = T) (tgt' : (V1 T).Idx → BitVec 32) (w' : (V1 T).Idx → EReal)
    (tgt : (V1 E).Idx → BitVec 32) (w : (V1 E).Idx → EReal)
    (ht : ∀ e : Fin E, tgt' (ix1 (posL hT e)) = tgt (ix1 e)) (hw : ∀ e : Fin E, w' (ix1 (posL hT e)) = w (ix1 e))
    (hw0 : ∀ j : Fin P, w' (ix1 (posR hT j)) = 0) (n : Fin N) : degE tgt' w' n = degE tgt w n := by
  unfold degE
  congr 1
  rw [sum_pad hT _ (fun j => by rw [hw0 j]; exact ite_self 0)]
  refine Finset.sum_congr rfl fun e _ => ?_
  rw [ht e, hw e]

/-- An old edge keeps its factor; a new edge's factor is 0. -/
theorem normE_pad_old {N E P T : Nat} (hT : E + P = T) (hN : 0 < N) (c : BitVec 32) (q : (V1 N).Idx → EReal)
    (src' tgt' : (V1 T).Idx → BitVec 32) (w' : (V1 T).Idx → EReal)
    (src tgt : (V1 E).Idx → BitVec 32) (w : (V1 E).Idx → EReal)
    (hs : ∀ e : Fin E, src' (ix1 (posL hT e)) = src (ix1 e)) (ht : ∀ e : Fin E, tgt' (ix1 (posL hT e)) = tgt (ix1 e))
    (hw : ∀ e : Fin E, w' (ix1 (posL hT e)) = w (ix1 e)) (e : Fin E) :
    normE hN c q src' tgt' w' (posL hT e) = normE hN c q src tgt w e := by
  unfold normE
  rw [hs e, ht e, hw e]

theorem normE_pad_new {N E P T : Nat} (hT : E + P = T) (hN : 0 < N) (c : BitVec 32) (q : (V1 N).Idx → EReal)
    (src' tgt' : (V1 T).Idx → BitVec 32) (w' : (V1 T).Idx → EReal)
    (hw0 : ∀ j : Fin P, w' (ix1 (posR hT j)) = 0) (j : Fin P) :
    normE (E := T) hN c q src' tgt' w' (posR hT j) = 0 := by
  unfold normE
  rw [hw0 j, mul_zero, zero_mul]

/-- The aggregate is unchanged. -/
theorem aggE_pad {N E P T C : Nat} (hT : E + P = T) (hN : 0 < N) (c : BitVec 32)
    (src' tgt' : (V1 T).Idx → BitVec 32) (nrm' : Fin T → EReal)
    (src tgt : (V1 E).Idx → BitVec 32) (nrm : Fin E → EReal) (H : (M2 N C).Idx → EReal)
    (hs : ∀ e : Fin E, src' (ix1 (posL hT e)) = src (ix1 e)) (ht : ∀ e : Fin E, tgt' (ix1 (posL hT e)) = tgt (ix1 e))
    (hn : ∀ e : Fin E, nrm' (posL hT e) = nrm e) (hn0 : ∀ j : Fin P, nrm' (posR hT j) = 0) (n : Fin N) (f : Fin C) :
    aggE hN c src' tgt' nrm' H n f = aggE hN c src tgt nrm H n f := by
  unfold aggE
  congr 1
  rw [sum_pad hT _ (fun j => by rw [hn0 j, zero_mul]; exact ite_self 0)]
  refine Finset.sum_congr rfl fun e _ => ?_
  rw [hs e, ht e, hn e]

end Cert.Lib.EdgeStages

end
-- ==== Proof.LibLayerSpec.lean ====
/-
  One graph-convolution layer as a function, and the host's last steps read at an index; extended reals, any sizes.

  From the degrees deg n (a sum of edge weights) the layer takes q n = (deg n > 0 ? 1/√(deg n) : 0), gives edge e the
  factor q(source row) · w e · q(target row), sums factor · H(source row, f) over the edges arriving at n, and adds the
  bias b f. H is a product of two matrices (mmE), in the second layer of the first layer's result cut off below at 0.
-/
import proofs.«181032_j5677946765525_1_alg».proof.Proof.LibEdgeStages

noncomputable section

namespace Cert.Lib.EdgeStages

open Idealize.ShloMosaic Idealize.ShloMosaic.ValueIdx Cert.Lib.RowIndex Cert.Lib.VecGather Cert.Gcn Cert.Lib.SelfLoops

/-- q of a degree: its inverse square root where it is positive, else 0 (as the host selects it). -/
def dinvS (d : EReal) : EReal :=
  Scalar.select (FloatOps.cmpf (F := Ideal) (φ := .f32) .ogt d (FloatOps.ofBits (F := Ideal) .f32 0x00000000#32))
    (FloatOps.hostUnary (F := Ideal) (φ := .f32) .rsqrt d) (FloatOps.ofBits (F := Ideal) .f32 0x00000000#32)

/-- The vector q over the rows, from an edge list's targets and weights. -/
def qE {N E : Nat} (tgt : (V1 E).Idx → BitVec 32) (w : (V1 E).Idx → EReal) : (V1 N).Idx → EReal :=
  fun i => dinvS (degE tgt w (i 0))

/-- The product of an N × K and a K × C matrix. -/
def mmE {N K C : Nat} (X : (M2 N K).Idx → EReal) (W : (M2 K C).Idx → EReal) : (M2 N C).Idx → EReal :=
  fun j => ∑ k : Fin K, X (ix2 (j 0) k) * W (ix2 k (j 1))

/-- A table cut off below at 0. -/
def reluE {T : Shape} (x : T.Idx → EReal) : T.Idx → EReal :=
  fun j => FloatOps.maximumf (F := Ideal) (φ := .f32) (x j) (FloatOps.ofBits (F := Ideal) .f32 0x00000000#32)

/-- One layer at (n, f). -/
def layerE {N E C : Nat} (hN : 0 < N) (c : BitVec 32) (src tgt : (V1 E).Idx → BitVec 32) (w : (V1 E).Idx → EReal)
    (H : (M2 N C).Idx → EReal) (b : (V1 C).Idx → EReal) (n : Fin N) (f : Fin C) : EReal :=
  aggE hN c src tgt (normE hN c (qE tgt w) src tgt w) H n f + b (ix1 f)

/-- The host's q vector: compare the degrees with 0, take the inverse square roots, select. -/
def dinvVec {N : Nat} (hb : S0.BroadcastsInDim (V1 N) ![]) (deg : FVec Ideal (V1 N) .f32) : FVec Ideal (V1 N) .f32 :=
  select (cmpf .ogt deg (broadcastInDim (V1 N) ![] hb (constant (F := Ideal) S0 .f32 0x00000000#32))) (Host.rsqrt deg)
    (broadcastInDim (V1 N) ![] hb (constant (F := Ideal) S0 .f32 0x00000000#32))

theorem dinvVec_apply {N : Nat} (hb : S0.BroadcastsInDim (V1 N) ![]) (deg : FVec Ideal (V1 N) .f32) (i : (V1 N).Idx) :
    dinvVec hb deg i = dinvS (deg i) := by
  show Scalar.select (FloatOps.cmpf .ogt (deg i) (broadcastInDim (V1 N) ![] hb (constant (F := Ideal) S0 .f32 0x00000000#32) i))
      (FloatOps.hostUnary .rsqrt (deg i)) (broadcastInDim (V1 N) ![] hb (constant (F := Ideal) S0 .f32 0x00000000#32) i) = _
  rw [ValueIdx.broadcastInDim_scalar_apply]
  rfl

/-- The host's q vector of the host's degrees is qE. -/
theorem dinvVec_deg {N E : Nat} (wf : ScatterDims.WF (V1 N) (M2 E 1) (V1 E) [] [0] [0] 1)
    (hb0 : S0.BroadcastsInDim (V1 N) ![]) (hbc : (V1 E).BroadcastsInDim (M2 E 1) ![0])
    (tgt : IVec (V1 E) 32) (w : FVec Ideal (V1 E) .f32) :
    dinvVec hb0 (Host.scatterAdd (F := Ideal) (φ := .f32) (vecDims N E wf)
        (broadcastInDim (V1 N) ![] hb0 (constant (F := Ideal) S0 .f32 0x00000000#32))
        (broadcastInDim (M2 E 1) ![0] hbc tgt) w) = qE tgt w := by
  funext i
  obtain ⟨r, rfl⟩ : ∃ r : Fin N, i = ix1 r := ⟨i 0, eq_ix1 i⟩
  rw [dinvVec_apply]
  refine (congrArg dinvS (deg_host wf hb0 hbc tgt w r)).trans ?_
  rfl

/-- A bias vector laid as a row and spread down the rows, added to a table: entry (n, f) gets b f. -/
theorem add_bias_apply {N C : Nat} (h1 : (V1 C).BroadcastsInDim (M2 1 C) ![1]) (h2 : (M2 1 C).BroadcastsInDim (M2 N C) ![0, 1])
    (t : FVec Ideal (M2 N C) .f32) (b : FVec Ideal (V1 C) .f32) (n : Fin N) (f : Fin C) :
    addf t (broadcastInDim (M2 N C) ![0, 1] h2 (broadcastInDim (M2 1 C) ![1] h1 b)) (ix2 n f) = t (ix2 n f) + b (ix1 f) := by
  show t (ix2 n f) + broadcastInDim (M2 N C) ![0, 1] h2 (broadcastInDim (M2 1 C) ![1] h1 b) (ix2 n f) = _
  rw [Cert.LibColumnBroadcast.broadcastInDim_1b_ab_apply, Cert.LibColumnBroadcast.broadcastInDim_b_1b_apply]

/-- The host's cut-off at 0: the maximum with a table of zeros. -/
theorem relu_host {T : Shape} (hb : S0.BroadcastsInDim T ![]) (x : FVec Ideal T .f32) :
    maximumf x (broadcastInDim T ![] hb (constant (F := Ideal) S0 .f32 0x00000000#32)) = reluE x := by
  funext j
  show FloatOps.maximumf (x j) (broadcastInDim T ![] hb (constant (F := Ideal) S0 .f32 0x00000000#32) j) = _
  rw [ValueIdx.broadcastInDim_scalar_apply]
  rfl

/-- Lengthening the edge list by edges of weight 0 changes no entry of the layer. -/
theorem layerE_pad {N E P T C : Nat} (hT : E + P = T) (hN : 0 < N) (c : BitVec 32)
    (src' tgt' : (V1 T).Idx → BitVec 32) (w' : (V1 T).Idx → EReal)
    (src tgt : (V1 E).Idx → BitVec 32) (w : (V1 E).Idx → EReal)
    (hs : ∀ e : Fin E, src' (ix1 (posL hT e)) = src (ix1 e)) (ht : ∀ e : Fin E, tgt' (ix1 (posL hT e)) = tgt (ix1 e))
    (hw : ∀ e : Fin E, w' (ix1 (posL hT e)) = w (ix1 e)) (hw0 : ∀ j : Fin P, w' (ix1 (posR hT j)) = 0)
    (H : (M2 N C).Idx → EReal) (b : (V1 C).Idx → EReal) (n : Fin N) (f : Fin C) :
    layerE hN c src' tgt' w' H b n f = layerE hN c src tgt w H b n f := by
  have hq : (qE tgt' w' : (V1 N).Idx → EReal) = qE tgt w := by
    funext i
    unfold qE
    rw [degE_pad hT tgt' w' tgt w ht hw hw0]
  unfold layerE
  rw [hq]
  congr 1
  exact aggE_pad hT hN c src' tgt' _ src tgt _ H hs ht
    (fun e => normE_pad_old hT hN c (qE tgt w) src' tgt' w' src tgt w hs ht hw e)
    (fun j => normE_pad_new hT hN c (qE tgt w) src' tgt' w' hw0 j) n f

end Cert.Lib.EdgeStages

end
-- ==== Proof.LibLayerHost.lean ====
/-
  A whole layer on the host, when the messages come from elsewhere; extended reals, any sizes.

  The messages are scatter-added into a zero table at the edges' targets and the bias is added. If message (e, f) is
  the edge's factor — the host's own factor column, built from q of the host's degrees — times the gathered row at
  (e, f), entry (n, f) of the result is the layer function layerE at (n, f).
-/
import proofs.«181032_j5677946765525_1_alg».proof.Proof.LibLayerSpec

noncomputable section

namespace Cert.Lib.EdgeStages

open Idealize.ShloMosaic Idealize.ShloMosaic.ValueIdx Cert.Lib.RowIndex Cert.Lib.VecGather Cert.Gcn

theorem layer_host_msg {N E C : Nat} (hN : 0 < N)
    (wfv : GatherDims.WF (V1 N) (M2 E 1) (V1 E) [] [0] [] [0] [] 1 ![1])
    (wfs : ScatterDims.WF (M2 N C) (M2 E 1) (M2 E C) [1] [0] [0] 1)
    (wfg : GatherDims.WF (M2 N C) (M2 E 1) (M2 E C) [1] [0] [] [0] [] 1 ![1, C])
    (hb0 : S0.BroadcastsInDim (M2 N C) ![])
    (hbc : (V1 E).BroadcastsInDim (M2 E 1) ![0]) (hb : S0.BroadcastsInDim (V1 E) ![])
    (h1 : (V1 C).BroadcastsInDim (M2 1 C) ![1]) (h2 : (M2 1 C).BroadcastsInDim (M2 N C) ![0, 1])
    (c : BitVec 32) (src tgt : IVec (V1 E) 32) (w : FVec Ideal (V1 E) .f32)
    (H : FVec Ideal (M2 N C) .f32) (b : FVec Ideal (V1 C) .f32) (msg : FVec Ideal (M2 E C) .f32)
    (hmsg : ∀ (e : Fin E) (f : Fin C), msg (ix2 e f)
      = broadcastInDim (M2 E 1) ![0] hbc (normVec wfv hbc hb c (qE tgt w) src tgt w) (ix2 e 0)
        * Host.gather (rowGatherDims N E C wfg) H (broadcastInDim (M2 E 1) ![0] hbc (wrapVec hb c src)) (ix2 e f))
    (n : Fin N) (f : Fin C) :
    addf (Host.scatterAdd (F := Ideal) (φ := .f32) (rowDims N E C wfs)
          (broadcastInDim (M2 N C) ![] hb0 (constant (F := Ideal) S0 .f32 0x00000000#32))
          (broadcastInDim (M2 E 1) ![0] hbc tgt) msg)
        (broadcastInDim (M2 N C) ![0, 1] h2 (broadcastInDim (M2 1 C) ![1] h1 b)) (ix2 n f)
      = layerE hN c src tgt w H b n f := by
  rw [add_bias_apply]
  unfold layerE
  congr 1
  rw [agg_host_msg hN wfs wfg hb0 hbc hb c src tgt (normVec wfv hbc hb c (qE tgt w) src tgt w) H msg hmsg n f]
  refine congrArg (fun g => aggE hN c src tgt g H n f) (funext fun e => ?_)
  exact normVec_apply hN wfv hbc hb c (qE tgt w) src tgt w e

end Cert.Lib.EdgeStages

end
-- ==== Proof.KernelValue.lean ====
/-
  The kernel's two results, entry by entry.

  Written src, tgt, wt for the sources, targets and weights of the lengthened edge list (6504448 entries: the edges, the
  nodes' own loops with weight 1, and 4448 entries of weight 0 at node 0) and q for the selection between the inverse
  square roots of the degrees and 0:
    the factor column holds q(source row) · wt · q(target row) of every entry;
    region 0 leaves the product x · W1, whose rows the host gathers at the sources; region 1 multiplies each gathered
    row by its entry's factor; the host adds the rows up at the targets and adds b1: the first result, entry (n, f), is
    the layer function of x · W1 and b1;
    the second layer does the same with the first result cut off below at 0, W2 and b2.
-/
import proofs.«181032_j5677946765525_1_alg».proof.Proof.KernelFold
import proofs.«181032_j5677946765525_1_alg».proof.Proof.KernelLevels
import proofs.«181032_j5677946765525_1_alg».proof.Proof.RegionScale
import proofs.«181032_j5677946765525_1_alg».proof.Proof.RegionMatmul
import proofs.«181032_j5677946765525_1_alg».proof.Proof.LibLayerHost

set_option maxRecDepth 16384

noncomputable section

namespace Cert.KernelIdeal.Layers

open Cert.KernelIdeal Cert.KernelIdeal.Gen Cert.KernelIdeal.Fold Cert.KernelIdeal.Levels Cert.KernelIdeal.Regions
open Idealize.ShloMosaic Idealize.ShloMosaic.TcCoe Idealize.ShloMosaic.StableHlo Idealize.SL.Sem
open Idealize.ShloMosaic.ValueIdx Cert.Lib.EdgeStages Cert.Lib.RowIndex Cert.Lib.VecGather

variable (m : (ℓ : Loc nD τ sig) → Buf (Elt Ideal) ℓ) (ρ : Dev nD → PrngReg) (c : Dev nD)

/-- The lengthened edge list as the first stretch leaves it, and the arguments, by name. -/
abbrev srcP : IVec (V1 6504448) 32 := W1 m ρ c (Proc.devRef .tc main_v10)
abbrev tgtP : IVec (V1 6504448) 32 := W1 m ρ c (Proc.devRef .tc main_v12)
abbrev wtP : FVec Ideal (V1 6504448) .f32 := W1 m ρ c (Proc.devRef .tc main_v14)
abbrev argX (m : (ℓ : Loc nD τ sig) → Buf (Elt Ideal) ℓ) (ρ : Dev nD → PrngReg) (c : Dev nD) : FVec Ideal (M2 100000 16) .f32 := m ((c : Thread nD τ).loc main_arg0)
abbrev argW1 (m : (ℓ : Loc nD τ sig) → Buf (Elt Ideal) ℓ) (ρ : Dev nD → PrngReg) (c : Dev nD) : FVec Ideal (M2 16 8) .f32 := m ((c : Thread nD τ).loc main_arg3)
abbrev argB1 (m : (ℓ : Loc nD τ sig) → Buf (Elt Ideal) ℓ) (ρ : Dev nD → PrngReg) (c : Dev nD) : FVec Ideal (V1 8) .f32 := m ((c : Thread nD τ).loc main_arg4)
abbrev argW2 (m : (ℓ : Loc nD τ sig) → Buf (Elt Ideal) ℓ) (ρ : Dev nD → PrngReg) (c : Dev nD) : FVec Ideal (M2 8 2) .f32 := m ((c : Thread nD τ).loc main_arg5)
abbrev argB2 (m : (ℓ : Loc nD τ sig) → Buf (Elt Ideal) ℓ) (ρ : Dev nD → PrngReg) (c : Dev nD) : FVec Ideal (V1 2) .f32 := m ((c : Thread nD τ).loc main_arg6)
/-- The first layer's result, as the stretch of host operations after region 1 leaves it. -/
abbrev emb : FVec Ideal (M2 100000 8) .f32 := W7 m ρ c (Proc.devRef .tc main_v53)

/-- q: the selection between the degrees' inverse square roots and 0. -/
theorem q_eq : (W2 m ρ c (Proc.devRef .tc main_v21) : FVec Ideal (V1 100000) .f32) = qE (tgtP m ρ c) (wtP m ρ c) := by
  rw [v21_W2, v19_W1, v20_W1, cst4_W1, v17_W1]
  exact dinvVec_deg (N := 100000) (E := 6504448) scatter_S100000_S6504448x1_S6504448_n_0_0_1.wf bcast_S_S100000
    bcast_S6504448_S6504448x1_0 (tgtP m ρ c) (wtP m ρ c)

/-- The factor column. -/
theorem nrm_eq : W3 m ρ c (Proc.devRef .tc main_v38)
    = broadcastInDim (M2 6504448 1) ![0] bcast_S6504448_S6504448x1_0
        (normVec gather_S100000_S6504448x1_S6504448_n_0_n_n_0_1_1.wf bcast_S6504448_S6504448x1_0 bcast_S_S6504448 100000#32
          (qE (tgtP m ρ c) (wtP m ρ c)) (srcP m ρ c) (tgtP m ρ c) (wtP m ρ c)) := by
  rw [v38_W3, v10_W2, v12_W2, v14_W2, q_eq]
  rfl

/-- Region 0 leaves x · W1. -/
theorem h1_eq : W4 m ρ c (Proc.devRef .tc main_v39) = mmE (argX m ρ c) (argW1 m ρ c) :=
  (W4_arr m ρ c 2).trans ((matmul0_array_eq (V3 m ρ) c).trans (by
    show G0 (W3 m ρ c (Proc.devRef .tc main_arg0)) (W3 m ρ c (Proc.devRef .tc main_arg3)) = _
    rw [arg0_W3, arg3_W3]
    rfl))

/-- Its rows gathered at the sources. -/
theorem rows1_eq : W5 m ρ c (Proc.devRef .tc main_v46)
    = Host.gather (rowGatherDims 100000 6504448 8 gather_S100000x8_S6504448x1_S6504448x8_1_0_n_n_0_1_18.wf)
        (mmE (argX m ρ c) (argW1 m ρ c))
        (broadcastInDim (M2 6504448 1) ![0] bcast_S6504448_S6504448x1_0 (wrapVec bcast_S_S6504448 100000#32 (srcP m ρ c))) := by
  rw [v46_W5, h1_eq, v10_W4]
  rfl

/-- Region 1 multiplies each gathered row by its entry's factor. -/
theorem msg1 (e : Fin 6504448) (f : Fin 8) : (W6 m ρ c (Proc.devRef .tc main_v47) : (M2 6504448 8).Idx → EReal) (ix2 e f)
    = broadcastInDim (M2 6504448 1) ![0] bcast_S6504448_S6504448x1_0
        (normVec gather_S100000_S6504448x1_S6504448_n_0_n_n_0_1_1.wf bcast_S6504448_S6504448x1_0 bcast_S_S6504448 100000#32
          (qE (tgtP m ρ c) (wtP m ρ c)) (srcP m ρ c) (tgtP m ρ c) (wtP m ρ c)) (ix2 e 0)
      * Host.gather (rowGatherDims 100000 6504448 8 gather_S100000x8_S6504448x1_S6504448x8_1_0_n_n_0_1_18.wf)
          (mmE (argX m ρ c) (argW1 m ρ c))
          (broadcastInDim (M2 6504448 1) ![0] bcast_S6504448_S6504448x1_0 (wrapVec bcast_S_S6504448 100000#32 (srcP m ρ c)))
          (ix2 e f) :=
  (congrFun (W6_arr m ρ c 2) (ix2 e f)).trans
    (scale1_array_of (V5 m ρ) c _ _ ((v38_W5 m ρ c).trans (nrm_eq m ρ c)) (rows1_eq m ρ c) e f)

/-- The first result. -/
theorem emb_eq (n : Fin 100000) (f : Fin 8) : emb m ρ c (ix2 n f)
    = layerE (N := 100000) (E := 6504448) (C := 8) (by decide) 100000#32 (srcP m ρ c) (tgtP m ρ c) (wtP m ρ c)
        (mmE (argX m ρ c) (argW1 m ρ c)) (argB1 m ρ c) n f := by
  show (W7 m ρ c (Proc.devRef .tc main_v53) : (M2 100000 8).Idx → EReal) (ix2 n f) = _
  rw [v53_W7, v12_W6, arg4_W6]
  exact layer_host_msg (N := 100000) (E := 6504448) (C := 8) (by decide)
    gather_S100000_S6504448x1_S6504448_n_0_n_n_0_1_1.wf scatter_S100000x8_S6504448x1_S6504448x8_1_0_0_1.wf
    gather_S100000x8_S6504448x1_S6504448x8_1_0_n_n_0_1_18.wf bcast_S_S100000x8 bcast_S6504448_S6504448x1_0 bcast_S_S6504448
    bcast_S8_S1x8_1 bcast_S1x8_S100000x8_0_1 100000#32 (srcP m ρ c) (tgtP m ρ c) (wtP m ρ c)
    (mmE (argX m ρ c) (argW1 m ρ c)) (argB1 m ρ c) (W6 m ρ c (Proc.devRef .tc main_v47)) (msg1 m ρ c) n f

/-- The second layer's input: the first result cut off below at 0. -/
theorem relu_eq : W8 m ρ c (Proc.devRef .tc main_v54) = reluE (T := M2 100000 8) (emb m ρ c) :=
  (v54_W8 m ρ c).trans (relu_host bcast_S_S100000x8 _)

/-- Region 2 leaves relu(first result) · W2. -/
theorem h2_eq : W9 m ρ c (Proc.devRef .tc main_v55) = mmE (reluE (T := M2 100000 8) (emb m ρ c)) (argW2 m ρ c) :=
  (W9_arr m ρ c 2).trans ((matmul2_array_eq (V8 m ρ) c).trans (by
    show G2 (W8 m ρ c (Proc.devRef .tc main_v54)) (W8 m ρ c (Proc.devRef .tc main_arg5)) = _
    rw [relu_eq, arg5_W8]
    rfl))

theorem rows2_eq : W10 m ρ c (Proc.devRef .tc main_v62)
    = Host.gather (rowGatherDims 100000 6504448 2 gather_S100000x2_S6504448x1_S6504448x2_1_0_n_n_0_1_12.wf)
        (mmE (reluE (T := M2 100000 8) (emb m ρ c)) (argW2 m ρ c))
        (broadcastInDim (M2 6504448 1) ![0] bcast_S6504448_S6504448x1_0 (wrapVec bcast_S_S6504448 100000#32 (srcP m ρ c))) := by
  rw [v62_W10, h2_eq, v10_W9]
  rfl

theorem msg2 (e : Fin 6504448) (f : Fin 2) : (W11 m ρ c (Proc.devRef .tc main_v63) : (M2 6504448 2).Idx → EReal) (ix2 e f)
    = broadcastInDim (M2 6504448 1) ![0] bcast_S6504448_S6504448x1_0
        (normVec gather_S100000_S6504448x1_S6504448_n_0_n_n_0_1_1.wf bcast_S6504448_S6504448x1_0 bcast_S_S6504448 100000#32
          (qE (tgtP m ρ c) (wtP m ρ c)) (srcP m ρ c) (tgtP m ρ c) (wtP m ρ c)) (ix2 e 0)
      * Host.gather (rowGatherDims 100000 6504448 2 gather_S100000x2_S6504448x1_S6504448x2_1_0_n_n_0_1_12.wf)
          (mmE (reluE (T := M2 100000 8) (emb m ρ c)) (argW2 m ρ c))
          (broadcastInDim (M2 6504448 1) ![0] bcast_S6504448_S6504448x1_0 (wrapVec bcast_S_S6504448 100000#32 (srcP m ρ c)))
          (ix2 e f) :=
  (congrFun (W11_arr m ρ c 2) (ix2 e f)).trans
    (scale3_array_of (V10 m ρ) c _ _ ((v38_W10 m ρ c).trans (nrm_eq m ρ c)) (rows2_eq m ρ c) e f)

/-- The second result. -/
theorem out_eq (n : Fin 100000) (f : Fin 2) : (W12 m ρ c (Proc.devRef .tc main_v69) : (M2 100000 2).Idx → EReal) (ix2 n f)
    = layerE (N := 100000) (E := 6504448) (C := 2) (by decide) 100000#32 (srcP m ρ c) (tgtP m ρ c) (wtP m ρ c)
        (mmE (reluE (T := M2 100000 8) (emb m ρ c)) (argW2 m ρ c)) (argB2 m ρ c) n f := by
  rw [v69_W12, v12_W11, arg6_W11]
  exact layer_host_msg (N := 100000) (E := 6504448) (C := 2) (by decide)
    gather_S100000_S6504448x1_S6504448_n_0_n_n_0_1_1.wf scatter_S100000x2_S6504448x1_S6504448x2_1_0_0_1.wf
    gather_S100000x2_S6504448x1_S6504448x2_1_0_n_n_0_1_12.wf bcast_S_S100000x2 bcast_S6504448_S6504448x1_0 bcast_S_S6504448
    bcast_S2_S1x2_1 bcast_S1x2_S100000x2_0_1 100000#32 (srcP m ρ c) (tgtP m ρ c) (wtP m ρ c)
    (mmE (reluE (T := M2 100000 8) (emb m ρ c)) (argW2 m ρ c)) (argB2 m ρ c) (W11 m ρ c (Proc.devRef .tc main_v63)) (msg2 m ρ c) n f

/-- The first result is still that array at the return: nothing after writes it. -/
theorem emb_kept : W12 m ρ c (Proc.devRef .tc main_v53) = emb m ρ c := v53_W12 m ρ c

end Cert.KernelIdeal.Layers

end
-- ==== Proof.KernelEdges.lean ====
/-
  The first stretch of host operations: the edge arrays.

  The sources, the targets and the weights of the edges are each the given edges joined with the nodes' own loops
  (6400000 + 100000 = 6500000 positions), and then padded with 4448 zeros to 6504448 positions. Here: each padded array
  as that join; the unpadded arrays as the reference's own terms of the arguments; and the padded arrays read at an old
  position (the unpadded array there) and at a new one (zero).
-/
import proofs.«181032_j5677946765525_1_alg».proof.Proof.Gen.KernelIdeal.Frame
import proofs.«181032_j5677946765525_1_alg».proof.Proof.Gen.ReferenceIdeal.Read
import proofs.«181032_j5677946765525_1_alg».proof.Proof.LibSelfLoops
import Idealize.ShloMosaic.Lib.StableHlo.Run
import Idealize.ShloMosaic.PureOps.Ideal
import Idealize.ShloMosaic.PureOps.Ideal.Laws
import Idealize.ShloMosaic.Lib.IdealHost

noncomputable section

namespace Cert.KernelIdeal.Edges

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## The padded arrays as joins -/

/-- The padded sources: the sources joined with 4448 zeros. -/
theorem v10_cat : W1 m ρ c (Proc.devRef .tc main_v10)
    = concatenate S6504448 0 [⟨S6500000, W1 m ρ c (Proc.devRef .tc main_v5)⟩,
        ⟨S4448, broadcastInDim S4448 ![] bcast_S_S4448 (constantI S_ 32 0#32)⟩] concatenates_S6500000_S4448_S6504448_d0 := by
  show StableHlo.after hostOps0 (W0 m ρ c) (Proc.devRef .tc main_v10)
    = concatenate S6504448 0 [⟨S6500000, StableHlo.after hostOps0 (W0 m ρ c) (Proc.devRef .tc main_v5)⟩,
        ⟨S4448, broadcastInDim S4448 ![] bcast_S_S4448 (constantI S_ 32 0#32)⟩] concatenates_S6500000_S4448_S6504448_d0
  generalize W0 m ρ c = V
  after_results
  all_goals rfl

set_option maxHeartbeats 2000000 in
/-- The padded targets: the targets joined with 4448 zeros. -/
theorem v12_cat : W1 m ρ c (Proc.devRef .tc main_v12)
    = concatenate S6504448 0 [⟨S6500000, W1 m ρ c (Proc.devRef .tc main_v6)⟩,
        ⟨S4448, broadcastInDim S4448 ![] bcast_S_S4448 (constantI S_ 32 0#32)⟩] concatenates_S6500000_S4448_S6504448_d0 := by
  show StableHlo.after hostOps0 (W0 m ρ c) (Proc.devRef .tc main_v12)
    = concatenate S6504448 0 [⟨S6500000, StableHlo.after hostOps0 (W0 m ρ c) (Proc.devRef .tc main_v6)⟩,
        ⟨S4448, broadcastInDim S4448 ![] bcast_S_S4448 (constantI S_ 32 0#32)⟩] concatenates_S6500000_S4448_S6504448_d0
  generalize W0 m ρ c = V
  after_results
  all_goals rfl

/-- The padded weights: the weights joined with 4448 zeros. -/
theorem v14_cat : W1 m ρ c (Proc.devRef .tc main_v14)
    = concatenate S6504448 0 [⟨S6500000, W1 m ρ c (Proc.devRef .tc main_v8)⟩,
        ⟨S4448, broadcastInDim S4448 ![] bcast_S_S4448 (constant (F := Ideal) S_ .f32 0x00000000#32)⟩] concatenates_S6500000_S4448_S6504448_d0 := by
  show StableHlo.after hostOps0 (W0 m ρ c) (Proc.devRef .tc main_v14)
    = concatenate S6504448 0 [⟨S6500000, StableHlo.after hostOps0 (W0 m ρ c) (Proc.devRef .tc main_v8)⟩,
        ⟨S4448, broadcastInDim S4448 ![] bcast_S_S4448 (constant (F := Ideal) S_ .f32 0x00000000#32)⟩] concatenates_S6500000_S4448_S6504448_d0
  generalize W0 m ρ c = V
  after_results
  all_goals rfl

/-! ## The unpadded arrays as the reference's terms of the arguments -/

/-- The sources are the reference's: the first row of the edge list joined with the nodes' indices. -/
theorem v5_ref : W1 m ρ c (Proc.devRef .tc main_v5)
    = Cert.ReferenceIdeal.Read.val_main_v5 (F := Ideal) (m ((c : Thread nD τ).loc main_arg1)) := by
  show StableHlo.after hostOps0 (W0 m ρ c) (Proc.devRef .tc main_v5)
    = Cert.ReferenceIdeal.Read.val_main_v5 (F := Ideal) (W0 m ρ c (Proc.devRef .tc main_arg1))
  generalize W0 m ρ c = V
  after_results
  unfold Cert.ReferenceIdeal.Read.val_main_v5 Cert.ReferenceIdeal.Read.val_main_v1 Cert.ReferenceIdeal.Read.val_main_v0 Cert.ReferenceIdeal.Read.val_main_v4
  rfl

/-- The targets are the reference's: the second row of the edge list joined with the nodes' indices. -/
theorem v6_ref : W1 m ρ c (Proc.devRef .tc main_v6)
    = Cert.ReferenceIdeal.Read.val_main_v6 (F := Ideal) (m ((c : Thread nD τ).loc main_arg1)) := by
  show StableHlo.after hostOps0 (W0 m ρ c) (Proc.devRef .tc main_v6)
    = Cert.ReferenceIdeal.Read.val_main_v6 (F := Ideal) (W0 m ρ c (Proc.devRef .tc main_arg1))
  generalize W0 m ρ c = V
  after_results
  unfold Cert.ReferenceIdeal.Read.val_main_v6 Cert.ReferenceIdeal.Read.val_main_v3 Cert.ReferenceIdeal.Read.val_main_v2 Cert.ReferenceIdeal.Read.val_main_v4
  rfl

/-- The weights are the reference's: the given weights joined with ones. -/
theorem v8_ref : W1 m ρ c (Proc.devRef .tc main_v8)
    = Cert.ReferenceIdeal.Read.val_main_v8 (F := Ideal) (m ((c : Thread nD τ).loc main_arg2)) := by
  show StableHlo.after hostOps0 (W0 m ρ c) (Proc.devRef .tc main_v8)
    = Cert.ReferenceIdeal.Read.val_main_v8 (F := Ideal) (W0 m ρ c (Proc.devRef .tc main_arg2))
  generalize W0 m ρ c = V
  after_results
  unfold Cert.ReferenceIdeal.Read.val_main_v8 Cert.ReferenceIdeal.Read.val_main_v7 Cert.ReferenceIdeal.Read.val_main_cst
  rfl

/-! ## The padded arrays read at a position -/

open Cert.Lib.SelfLoops

/-- The padded sources at one of the first 6500000 positions are the sources there. -/
theorem v10_old (hT : 6500000 + 4448 = 6504448) (e : Fin 6500000) :
    (W1 m ρ c (Proc.devRef .tc main_v10) : (⟨1, ![6504448]⟩ : Shape).Idx → BitVec 32) (ix1 (posL hT e))
      = (W1 m ρ c (Proc.devRef .tc main_v5) : (⟨1, ![6500000]⟩ : Shape).Idx → BitVec 32) (ix1 e) := by
  rw [v10_cat]
  exact cat_left hT _ _ _ e

/-- The padded targets at one of the first 6500000 positions are the targets there. -/
theorem v12_old (hT : 6500000 + 4448 = 6504448) (e : Fin 6500000) :
    (W1 m ρ c (Proc.devRef .tc main_v12) : (⟨1, ![6504448]⟩ : Shape).Idx → BitVec 32) (ix1 (posL hT e))
      = (W1 m ρ c (Proc.devRef .tc main_v6) : (⟨1, ![6500000]⟩ : Shape).Idx → BitVec 32) (ix1 e) := by
  rw [v12_cat]
  exact cat_left hT _ _ _ e

/-- The padded weights at one of the first 6500000 positions are the weights there. -/
theorem v14_old (hT : 6500000 + 4448 = 6504448) (e : Fin 6500000) :
    (W1 m ρ c (Proc.devRef .tc main_v14) : (⟨1, ![6504448]⟩ : Shape).Idx → EReal) (ix1 (posL hT e))
      = (W1 m ρ c (Proc.devRef .tc main_v8) : (⟨1, ![6500000]⟩ : Shape).Idx → EReal) (ix1 e) := by
  rw [v14_cat]
  exact cat_left hT _ _ _ e

/-- The padded weights at one of the last 4448 positions are zero. -/
theorem v14_new (hT : 6500000 + 4448 = 6504448) (j : Fin 4448) :
    (W1 m ρ c (Proc.devRef .tc main_v14) : (⟨1, ![6504448]⟩ : Shape).Idx → EReal) (ix1 (posR hT j)) = (0 : EReal) := by
  rw [v14_cat]
  refine (cat_right hT _ _ _ j).trans ?_
  rw [ValueIdx.broadcastInDim_scalar_apply]
  exact Ideal.ofBits_zero_f32

end Cert.KernelIdeal.Edges

end
-- ==== Proof.RefLayers.lean ====
/-
  The reference program's two results, read at an index, are the layer function.

  The program joins the edge list with one self-loop of weight 1 per node, scatter-adds the weights at the targets
  (the degrees), takes q = 1/√degree where the degree is positive and 0 elsewhere, gives edge e the factor
  q(source row) · w e · q(target row), multiplies the features by the weight matrix, gathers the product's rows at the
  sources, scatter-adds factor · row at the targets and adds the bias: one layer. The second result repeats the same
  stages on the first result cut off below at 0, with the second weight matrix and bias; its edge arrays are
  recomputed by the same operations, so they are the same arrays.
-/
import proofs.«181032_j5677946765525_1_alg».proof.Proof.Gen.ReferenceIdeal.Read
import proofs.«181032_j5677946765525_1_alg».proof.Proof.LibLayerSpec

noncomputable section

namespace Cert.ReferenceIdeal.RefValue

open Cert.ReferenceIdeal Cert.ReferenceIdeal.Read Cert.ReferenceIdeal.Gen Cert.Lib.EdgeStages Idealize.ShloMosaic Idealize.ShloMosaic.ValueIdx

variable (x0 : (⟨S100000x16, .f32⟩ : BufTy).Contents (Elt Ideal)) (x1 : (⟨S2x6400000, .i32⟩ : BufTy).Contents (Elt Ideal))
  (x2 : (⟨S6400000, .f32⟩ : BufTy).Contents (Elt Ideal)) (x3 : (⟨S16x8, .f32⟩ : BufTy).Contents (Elt Ideal))
  (x4 : (⟨S8, .f32⟩ : BufTy).Contents (Elt Ideal)) (x5 : (⟨S8x2, .f32⟩ : BufTy).Contents (Elt Ideal))
  (x6 : (⟨S2, .f32⟩ : BufTy).Contents (Elt Ideal))

/-- The messages scatter-added at the targets: the aggregate of the factor vector and the product table. -/
theorem agg1 (n : Fin 100000) (f : Fin 8) :
    val_main_v45 (F := Ideal) x0 x1 x2 x3 (ix2 n f)
      = aggE (N := 100000) (E := 6500000) (C := 8) (by decide) 100000#32 (val_main_v5 (F := Ideal) x1)
          (val_main_v6 (F := Ideal) x1) (fun e => val_main_v31 (F := Ideal) x1 x2 (ix1 e))
          (val_main_v32 (F := Ideal) x0 x3) n f :=
  agg_host_mul (N := 100000) (E := 6500000) (C := 8) (by decide)
    scatter_S100000x8_S6500000x1_S6500000x8_1_0_0_1_wf gather_S100000x8_S6500000x1_S6500000x8_1_0_n_n_0_1_18_wf
    bcast_S_S100000x8 bcast_S6500000_S6500000x1_0 bcast_S_S6500000 bcast_S6500000x1_S6500000x8_0_1
    100000#32 (val_main_v5 (F := Ideal) x1) (val_main_v6 (F := Ideal) x1) (val_main_v31 (F := Ideal) x1 x2)
    (val_main_v32 (F := Ideal) x0 x3) n f

/-- The selected inverse square roots of the scattered degrees: the vector q of the joined edge list. -/
theorem q1 :
    val_main_v15 (F := Ideal) x1 x2
      = qE (N := 100000) (E := 6500000) (val_main_v6 (F := Ideal) x1) (val_main_v8 (F := Ideal) x2) :=
  dinvVec_deg (N := 100000) (E := 6500000) scatter_S100000_S6500000x1_S6500000_n_0_0_1_wf bcast_S_S100000
    bcast_S6500000_S6500000x1_0 (val_main_v6 (F := Ideal) x1) (val_main_v8 (F := Ideal) x2)

/-- The factor vector at edge e: q at the source row, the weight, q at the target row. -/
theorem norm1 (e : Fin 6500000) :
    val_main_v31 (F := Ideal) x1 x2 (ix1 e)
      = normE (N := 100000) (E := 6500000) (by decide) 100000#32
          (qE (N := 100000) (E := 6500000) (val_main_v6 (F := Ideal) x1) (val_main_v8 (F := Ideal) x2))
          (val_main_v5 (F := Ideal) x1) (val_main_v6 (F := Ideal) x1) (val_main_v8 (F := Ideal) x2) e := by
  rw [← q1 x1 x2]
  exact normVec_apply (N := 100000) (E := 6500000) (by decide) gather_S100000_S6500000x1_S6500000_n_0_n_n_0_1_1_wf
    bcast_S6500000_S6500000x1_0 bcast_S_S6500000 100000#32 (val_main_v15 (F := Ideal) x1 x2)
    (val_main_v5 (F := Ideal) x1) (val_main_v6 (F := Ideal) x1) (val_main_v8 (F := Ideal) x2) e

/-- The first matrix product. -/
theorem mm1 : val_main_v32 (F := Ideal) x0 x3 = mmE (N := 100000) (K := 16) (C := 8) x0 x3 := by
  funext j
  rw [val_main_v32_apply]
  unfold mmE
  refine Finset.sum_congr rfl fun k _ => ?_
  have el : lidx_main_v32 j k = ix2 (j 0) k :=
    funext fun a => Fin.ext (by match a with | ⟨0, _⟩ => rfl | ⟨1, _⟩ => rfl)
  have er : ridx_main_v32 j k = ix2 k (j 1) :=
    funext fun a => Fin.ext (by match a with | ⟨0, _⟩ => rfl | ⟨1, _⟩ => rfl)
  rw [el, er]
  rfl

/-- The first result at (n, f) is the layer over the joined edge list, on the product of the features and the
    first weight matrix, with the first bias. -/
theorem ref_emb (n : Fin 100000) (f : Fin 8) :
    val_main_v48 (F := Ideal) x0 x1 x2 x3 x4 (ix2 n f)
      = layerE (N := 100000) (E := 6500000) (C := 8) (by decide) 100000#32 (val_main_v5 (F := Ideal) x1)
          (val_main_v6 (F := Ideal) x1) (val_main_v8 (F := Ideal) x2) (mmE (N := 100000) (K := 16) (C := 8) x0 x3) x4 n f := by
  refine (add_bias_apply (N := 100000) (C := 8) bcast_S8_S1x8_1 bcast_S1x8_S100000x8_0_1
    (val_main_v45 (F := Ideal) x0 x1 x2 x3) x4 n f).trans ?_
  unfold layerE
  rw [agg1 x0 x1 x2 x3 n f, funext (norm1 x1 x2), mm1 x0 x3]

/-! The second layer recomputes the edge arrays with the same operations. -/

theorem src2 : val_main_v55 (F := Ideal) x1 = val_main_v5 (F := Ideal) x1 := rfl
theorem tgt2 : val_main_v56 (F := Ideal) x1 = val_main_v6 (F := Ideal) x1 := rfl
theorem norm2 : val_main_v81 (F := Ideal) x1 x2 = val_main_v31 (F := Ideal) x1 x2 := rfl

theorem agg2 (n : Fin 100000) (f : Fin 2) :
    val_main_v95 (F := Ideal) x0 x1 x2 x3 x4 x5 (ix2 n f)
      = aggE (N := 100000) (E := 6500000) (C := 2) (by decide) 100000#32 (val_main_v55 (F := Ideal) x1)
          (val_main_v56 (F := Ideal) x1) (fun e => val_main_v81 (F := Ideal) x1 x2 (ix1 e))
          (val_main_v82 (F := Ideal) x0 x1 x2 x3 x4 x5) n f :=
  agg_host_mul (N := 100000) (E := 6500000) (C := 2) (by decide)
    scatter_S100000x2_S6500000x1_S6500000x2_1_0_0_1_wf gather_S100000x2_S6500000x1_S6500000x2_1_0_n_n_0_1_12_wf
    bcast_S_S100000x2 bcast_S6500000_S6500000x1_0 bcast_S_S6500000 bcast_S6500000x1_S6500000x2_0_1
    100000#32 (val_main_v55 (F := Ideal) x1) (val_main_v56 (F := Ideal) x1) (val_main_v81 (F := Ideal) x1 x2)
    (val_main_v82 (F := Ideal) x0 x1 x2 x3 x4 x5) n f

/-- The first result cut off below at 0. -/
theorem relu1 :
    val_main_v49 (F := Ideal) x0 x1 x2 x3 x4 = reluE (T := S100000x8) (val_main_v48 (F := Ideal) x0 x1 x2 x3 x4) :=
  relu_host bcast_S_S100000x8 (val_main_v48 (F := Ideal) x0 x1 x2 x3 x4)

/-- The second matrix product. -/
theorem mm2 :
    val_main_v82 (F := Ideal) x0 x1 x2 x3 x4 x5
      = mmE (N := 100000) (K := 8) (C := 2) (reluE (T := S100000x8) (val_main_v48 (F := Ideal) x0 x1 x2 x3 x4)) x5 := by
  funext j
  rw [val_main_v82_apply, relu1]
  unfold mmE
  refine Finset.sum_congr rfl fun k _ => ?_
  have el : lidx_main_v82 j k = ix2 (j 0) k :=
    funext fun a => Fin.ext (by match a with | ⟨0, _⟩ => rfl | ⟨1, _⟩ => rfl)
  have er : ridx_main_v82 j k = ix2 k (j 1) :=
    funext fun a => Fin.ext (by match a with | ⟨0, _⟩ => rfl | ⟨1, _⟩ => rfl)
  rw [el, er]
  rfl

/-- The second result at (n, f) is the layer over the same joined edge list, on the product of the first result cut
    off below at 0 and the second weight matrix, with the second bias. -/
theorem ref_out (n : Fin 100000) (f : Fin 2) :
    val_main_v98 (F := Ideal) x0 x1 x2 x3 x4 x5 x6 (ix2 n f)
      = layerE (N := 100000) (E := 6500000) (C := 2) (by decide) 100000#32 (val_main_v5 (F := Ideal) x1)
          (val_main_v6 (F := Ideal) x1) (val_main_v8 (F := Ideal) x2)
          (mmE (N := 100000) (K := 8) (C := 2) (reluE (T := S100000x8) (val_main_v48 (F := Ideal) x0 x1 x2 x3 x4)) x5) x6 n f := by
  refine (add_bias_apply (N := 100000) (C := 2) bcast_S2_S1x2_1 bcast_S1x2_S100000x2_0_1
    (val_main_v95 (F := Ideal) x0 x1 x2 x3 x4 x5) x6 n f).trans ?_
  unfold layerE
  rw [agg2 x0 x1 x2 x3 x4 x5 n f, src2 x1, tgt2 x1, norm2 x1 x2, funext (norm1 x1 x2), mm2 x0 x1 x2 x3 x4 x5]

end Cert.ReferenceIdeal.RefValue

end
-- ==== Proof.Algebraic.lean ====
/-
  The kernel and the reference end with equal results.

  Both programs compute a two-layer graph convolution. The reference joins the edge list with one loop of weight 1
  per node; the kernel lengthens that joined list by 4448 edges of weight 0 at node 0. Each of the kernel's results,
  entry (n, f), is the layer function over the lengthened list; each of the reference's is the layer function over the
  joined list. An edge of weight 0 has factor q · 0 · q = 0 and message 0 · H = 0 on the extended reals, whatever q
  and H hold, so the two layer functions agree entry by entry; the second layer's input is the first result cut off
  below at 0 on both sides.
-/
import proofs.«181032_j5677946765525_1_alg».proof.Defs
import proofs.«181032_j5677946765525_1_alg».proof.Proof.KernelRun
import proofs.«181032_j5677946765525_1_alg».proof.Proof.KernelValue
import proofs.«181032_j5677946765525_1_alg».proof.Proof.KernelEdges
import proofs.«181032_j5677946765525_1_alg».proof.Proof.RefLayers
import proofs.«181032_j5677946765525_1_alg».proof.Proof.RefRun

noncomputable section

namespace Cert.Proof.Parts

open Idealize.ShloMosaic Idealize.ShloMosaic.TcCoe Idealize.SL.Sem Idealize.ShloMosaic.ValueIdx
open Cert.Lib.EdgeStages Cert.Lib.SelfLoops
open Cert.KernelIdeal Cert.KernelIdeal.Gen Cert.KernelIdeal.Layers Cert.KernelIdeal.Edges
open Cert.ReferenceIdeal.Read Cert.ReferenceIdeal.RefValue

variable (m : (ℓ : Loc nD τ sig) → Buf (Elt Ideal) ℓ) (ρ : Dev nD → PrngReg) (c : Dev nD)

/-- The lengthened edge list has the joined list's 6500000 entries and 4448 more. -/
theorem hT : 6500000 + 4448 = 6504448 := rfl

/-- At an old position the lengthened sources are the reference's joined sources. -/
theorem src_old (e : Fin 6500000) :
    srcP m ρ c (ix1 (posL hT e)) = val_main_v5 (F := Ideal) (m ((c : Thread nD τ).loc main_arg1)) (ix1 e) :=
  (v10_old m ρ c hT e).trans (congrFun (v5_ref m ρ c) (ix1 e))

/-- At an old position the lengthened targets are the reference's joined targets. -/
theorem tgt_old (e : Fin 6500000) :
    tgtP m ρ c (ix1 (posL hT e)) = val_main_v6 (F := Ideal) (m ((c : Thread nD τ).loc main_arg1)) (ix1 e) :=
  (v12_old m ρ c hT e).trans (congrFun (v6_ref m ρ c) (ix1 e))

/-- At an old position the lengthened weights are the reference's joined weights. -/
theorem wt_old (e : Fin 6500000) :
    wtP m ρ c (ix1 (posL hT e)) = val_main_v8 (F := Ideal) (m ((c : Thread nD τ).loc main_arg2)) (ix1 e) :=
  (v14_old m ρ c hT e).trans (congrFun (v8_ref m ρ c) (ix1 e))

/-- The layer over the lengthened edge list is the layer over the reference's joined edge list: the 4448 new edges
    have weight 0, so their factors and messages vanish on the extended reals. -/
theorem layer_pad {C : Nat} (H : (M2 100000 C).Idx → EReal) (b : (V1 C).Idx → EReal) (n : Fin 100000) (f : Fin C) :
    layerE (N := 100000) (E := 6504448) (C := C) (by decide) 100000#32 (srcP m ρ c) (tgtP m ρ c) (wtP m ρ c) H b n f
      = layerE (N := 100000) (E := 6500000) (C := C) (by decide) 100000#32
          (val_main_v5 (F := Ideal) (m ((c : Thread nD τ).loc main_arg1))) (val_main_v6 (F := Ideal) (m ((c : Thread nD τ).loc main_arg1)))
          (val_main_v8 (F := Ideal) (m ((c : Thread nD τ).loc main_arg2))) H b n f :=
  layerE_pad hT (by decide) 100000#32 (srcP m ρ c) (tgtP m ρ c) (wtP m ρ c) _ _ _
    (src_old m ρ c) (tgt_old m ρ c) (wt_old m ρ c) (v14_new m ρ c hT) H b n f

/-- The reference's first table of the kernel's arguments is the kernel's first result. -/
theorem kernel_emb_eq_ref :
    val_main_v48 (F := Ideal) (m ((c : Thread nD τ).loc main_arg0)) (m ((c : Thread nD τ).loc main_arg1))
        (m ((c : Thread nD τ).loc main_arg2)) (m ((c : Thread nD τ).loc main_arg3))
        (m ((c : Thread nD τ).loc main_arg4))
      = W12 m ρ c (Proc.devRef .tc main_v53) := by
  funext j
  obtain ⟨n, f, rfl⟩ : ∃ n f, j = ix2 n f := ⟨j 0, j 1, eq_ix2 j⟩
  refine (ref_emb _ _ _ _ _ n f).trans ?_
  refine ((congrFun (emb_kept m ρ c) (ix2 n f)).trans ((emb_eq m ρ c n f).trans ?_)).symm
  exact layer_pad m ρ c _ _ n f

/-- The reference's second table of the kernel's arguments is the kernel's second result: its second layer runs on
    the first table cut off below at 0, which is the kernel's first result cut off below at 0. -/
theorem kernel_out_eq_ref :
    val_main_v98 (F := Ideal) (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6))
      = W12 m ρ c (Proc.devRef .tc main_v69) := by
  funext j
  obtain ⟨n, f, rfl⟩ : ∃ n f, j = ix2 n f := ⟨j 0, j 1, eq_ix2 j⟩
  refine (ref_out _ _ _ _ _ _ _ n f).trans ?_
  rw [kernel_emb_eq_ref m ρ c, emb_kept m ρ c]
  exact ((out_eq m ρ c n f).trans (layer_pad m ρ c _ _ n f)).symm

/-- At the ideal instance, from memories that agree on the arguments, both programs run and end with equal results
    and unchanged arguments. -/
theorem algebraic : Cert.algebraic_KernelIdeal_ReferenceIdeal := by
  intro m ρ m' ρ' _ hagree
  refine ⟨_, _, Cert.KernelIdeal.Named.run (F := Ideal) m ρ, ?_⟩
  refine (θ_run Cert.ReferenceIdeal.defs _ _).mono (fun _ h c => ⟨(h c).1.trans ?_, (h c).2.1.trans ?_, (h c).2.2⟩)
    (Cert.ReferenceIdeal.RefRun.ref_run m' ρ')
  · rw [(hagree c).1, (hagree c).2.1, (hagree c).2.2.1, (hagree c).2.2.2.1, (hagree c).2.2.2.2.1,
      (hagree c).2.2.2.2.2.1, (hagree c).2.2.2.2.2.2]
    exact kernel_out_eq_ref m ρ c
  · rw [(hagree c).1, (hagree c).2.1, (hagree c).2.2.1, (hagree c).2.2.2.1, (hagree c).2.2.2.2.1]
    exact kernel_emb_eq_ref m ρ c

end Cert.Proof.Parts

end
-- ==== Proof.lean ====
/-
  A two-layer graph convolution, kernel against reference, on the extended reals.

  One layer over an edge list with sources, targets and weights: the degree of node n is the sum of the weights of the
  edges arriving at n; q n is 1/√(degree n) where the degree is positive and 0 elsewhere; edge e gets the factor
  q(source) · w e · q(target); entry (n, f) of the result is the sum over the edges arriving at n of factor · H(source, f),
  plus the bias b f, where H is the product of the layer's input and its weight matrix. The first layer's input is the
  node features; the second layer's is the first result cut off below at 0. Both results are returned.

  The reference joins the given edges with one loop of weight 1 per node and computes the two layers over that list.
  The kernel tiles the two dense products and the two scalings of the gathered rows by the factors, and lengthens the
  joined edge list by 4448 edges of weight 0 at node 0. A weight 0 makes such an edge's factor q · 0 · q = 0 and its
  messages 0 · H = 0 on the extended reals, whatever q and H hold (0 · ±∞ = 0 there), so degrees, factors and sums are
  those of the joined list and both results agree entry by entry; no finiteness of the inputs is needed. The frames
  are the programs' runs with the results dropped; the kernel's idealization rewrote no operation.
-/
import proofs.«181032_j5677946765525_1_alg».proof.Defs
import proofs.«181032_j5677946765525_1_alg».proof.Proof.Gen.Kernel
import proofs.«181032_j5677946765525_1_alg».proof.Proof.Gen.Kernel.Frame
import proofs.«181032_j5677946765525_1_alg».proof.Proof.Gen.KernelIdeal
import proofs.«181032_j5677946765525_1_alg».proof.Proof.Gen.KernelIdeal.Frame
import proofs.«181032_j5677946765525_1_alg».proof.Proof.Gen.ReferenceIdeal
import proofs.«181032_j5677946765525_1_alg».proof.Proof.Gen.Pre_finite_inputs
import proofs.«181032_j5677946765525_1_alg».proof.Proof.Gen.ReferenceIdeal.Run
import proofs.«181032_j5677946765525_1_alg».proof.Proof.Gen.ReferenceIdeal.Read
import proofs.«181032_j5677946765525_1_alg».proof.Proof.RefRun
import proofs.«181032_j5677946765525_1_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    Cert.ReferenceIdeal.RefRun.frame_ri,
    trivial,
    Cert.Proof.Parts.algebraic⟩

end Cert.Proof

end
